-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S128x16384 : Shape := ⟨2, ![128, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x16384 : S_.BroadcastsInDim S128x16384 (![] : Fin 0 → Fin S128x16384.rank)
  reducesTo_S128x16384_S_d0_1 : S128x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg18 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg14 : FVec F S64 .f32) (main_arg15 : FVec F S64x64 .f32) (main_arg16 : FVec F S64 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_v63 main_v67

def fn_part2 {F : FTy → Type} [FloatOps F] (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_v48 main_v49 main_v50

def fn_part1 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x64 .f32) (main_arg1 : FVec F S16384x16384 .f32) (main_arg2 : FVec F S128x16384 .f32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x16384 .f32 := Host.absf main_arg2
  let main_cst_2 : FVec F S_ .f32 := constant S_ .f32 0x7F800000#32
  let main_v10 : FVec F S128x16384 .f32 := broadcastInDim S128x16384 ![] bcast_S_S128x16384 main_cst_2
  let main_v11 : IVec S128x16384 1 := cmpf .olt main_v9 main_v10
  let main_c_3 : IVec S_ 1 := constantI S_ 1 1#1
  let main_v12 : IVec S_ 1 := (fun x v => Host.reduce IntOp.andi x v reducesTo_S128x16384_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x64 : Shape := ⟨2, ![16384, 64]⟩
abbrev S16384x16384 : Shape := ⟨2, ![16384, 16384]⟩
abbrev S128x16384 : Shape := ⟨2, ![128, 16384]⟩
abbrev S64x64 : Shape := ⟨2, ![64, 64]⟩
abbrev S64 : Shape := ⟨1, ![64]⟩
abbrev S2048x1024 : Shape := ⟨2, ![2048, 1024]⟩
abbrev S2048x64 : Shape := ⟨2, ![2048, 64]⟩
abbrev S2048x1 : Shape := ⟨2, ![2048, 1]⟩
abbrev S1024x64 : Shape := ⟨2, ![1024, 64]⟩
abbrev S2048 : Shape := ⟨1, ![2048]⟩
abbrev S1x64 : Shape := ⟨2, ![1, 64]⟩
abbrev S_ : Shape := ⟨0, ![]⟩
abbrev S128x64 : Shape := ⟨2, ![128, 64]⟩

abbrev nBuf : Space → Nat
  | .hbm => 228
  | .vmem => 14
  | .smem => 0
  | _ => 0

abbrev hbmTy0_0 (i : Nat) : BufTy := match i % 128 with
  | 0 => ⟨S16384x64, .f32⟩
  | 1 => ⟨S16384x16384, .f32⟩
  | 2 => ⟨S128x16384, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S16384x64, .bf16⟩
  | 20 => ⟨S16384x64, .f32⟩
  | 21 => ⟨S16384x64, .f32⟩
  | 22 => ⟨S1x64, .f32⟩
  | 23 => ⟨S16384x64, .f32⟩
  | 24 => ⟨S16384x64, .f32⟩
  | 25 => ⟨S_, .f32⟩
  | 26 => ⟨S64, .f32⟩
  | 27 => ⟨S_, .f32⟩
  | 28 => ⟨S64, .f32⟩
  | 29 => ⟨S64, .f32⟩
  | 30 => ⟨S_, .i32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S16384x64, .f32⟩
  | 38 => ⟨S16384x64, .f32⟩
  | 39 => ⟨S16384x64, .f32⟩
  | 40 => ⟨S_, .f32⟩
  | 41 => ⟨S_, .f32⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S_, .i1⟩
  | 49 => ⟨S_, .f32⟩
  | 50 => ⟨S_, .f32⟩
  | 51 => ⟨S64, .f32⟩
  | 52 => ⟨S64, .f32⟩
  | 53 => ⟨S1x64, .f32⟩
  | 54 => ⟨S16384x64, .f32⟩
  | 55 => ⟨S16384x64, .f32⟩
  | 56 => ⟨S1x64, .f32⟩
  | 57 => ⟨S16384x64, .f32⟩
  | 58 => ⟨S16384x64, .f32⟩
  | 59 => ⟨S_, .f32⟩
  | 60 => ⟨S64, .f32⟩
  | 61 => ⟨S64, .f32⟩
  | 62 => ⟨S64, .f32⟩
  | 63 => ⟨S1x64, .f32⟩
  | 64 => ⟨S16384x64, .f32⟩
  | 65 => ⟨S16384x64, .f32⟩
  | 66 => ⟨S1x64, .f32⟩
  | 67 => ⟨S16384x64, .f32⟩
  | 68 => ⟨S16384x64, .f32⟩
  | 69 => ⟨S_, .f32⟩
  | 70 => ⟨S16384x64, .f32⟩
  | 71 => ⟨S16384x64, .f32⟩
  | 72 => ⟨S16384x64, .f32⟩
  | 73 => ⟨S1x64, .f32⟩
  | 74 => ⟨S16384x64, .f32⟩
  | 75 => ⟨S16384x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S16384x64, .f32⟩
  | 89 => ⟨S16384x64, .f32⟩
  | 90 => ⟨S16384x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S16384x64, .f32⟩
  | 106 => ⟨S16384x64, .f32⟩
  | 107 => ⟨S1x64, .f32⟩
  | 108 => ⟨S16384x64, .f32⟩
  | 109 => ⟨S16384x64, .f32⟩
  | 110 => ⟨S_, .f32⟩
  | 111 => ⟨S64, .f32⟩
  | 112 => ⟨S64, .f32⟩
  | 113 => ⟨S64, .f32⟩
  | 114 => ⟨S1x64, .f32⟩
  | 115 => ⟨S16384x64, .f32⟩
  | 116 => ⟨S16384x64, .f32⟩
  | 117 => ⟨S1x64, .f32⟩
  | 118 => ⟨S16384x64, .f32⟩
  | 119 => ⟨S16384x64, .f32⟩
  | 120 => ⟨S_, .f32⟩
  | 121 => ⟨S16384x64, .f32⟩
  | 122 => ⟨S16384x64, .f32⟩
  | 123 => ⟨S16384x64, .bf16⟩
  | 124 => ⟨S16384x64, .f32⟩
  | 125 => ⟨S16384x64, .f32⟩
  | 126 => ⟨S1x64, .f32⟩
  | 127 => ⟨S16384x64, .f32⟩
  | _ => ⟨S16384x64, .f32⟩

abbrev hbmTy0_1 (i : Nat) : BufTy := match i % 128 with
  | 0 => ⟨S16384x64, .f32⟩
  | 1 => ⟨S_, .f32⟩
  | 2 => ⟨S64, .f32⟩
  | 3 => ⟨S_, .f32⟩
  | 4 => ⟨S64, .f32⟩
  | 5 => ⟨S64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S16384x64, .f32⟩
  | 14 => ⟨S16384x64, .f32⟩
  | 15 => ⟨S16384x64, .f32⟩
  | 16 => ⟨S_, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .i1⟩
  | 25 => ⟨S_, .f32⟩
  | 26 => ⟨S_, .f32⟩
  | 27 => ⟨S64, .f32⟩
  | 28 => ⟨S64, .f32⟩
  | 29 => ⟨S1x64, .f32⟩
  | 30 => ⟨S16384x64, .f32⟩
  | 31 => ⟨S16384x64, .f32⟩
  | 32 => ⟨S1x64, .f32⟩
  | 33 => ⟨S16384x64, .f32⟩
  | 34 => ⟨S16384x64, .f32⟩
  | 35 => ⟨S_, .f32⟩
  | 36 => ⟨S64, .f32⟩
  | 37 => ⟨S64, .f32⟩
  | 38 => ⟨S64, .f32⟩
  | 39 => ⟨S1x64, .f32⟩
  | 40 => ⟨S16384x64, .f32⟩
  | 41 => ⟨S16384x64, .f32⟩
  | 42 => ⟨S1x64, .f32⟩
  | 43 => ⟨S16384x64, .f32⟩
  | 44 => ⟨S16384x64, .f32⟩
  | 45 => ⟨S_, .f32⟩
  | 46 => ⟨S16384x64, .f32⟩
  | 47 => ⟨S16384x64, .f32⟩
  | 48 => ⟨S16384x64, .f32⟩
  | 49 => ⟨S1x64, .f32⟩
  | 50 => ⟨S16384x64, .f32⟩
  | 51 => ⟨S16384x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S16384x64, .f32⟩
  | 65 => ⟨S16384x64, .f32⟩
  | 66 => ⟨S16384x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S16384x64, .f32⟩
  | 82 => ⟨S16384x64, .f32⟩
  | 83 => ⟨S1x64, .f32⟩
  | 84 => ⟨S16384x64, .f32⟩
  | 85 => ⟨S16384x64, .f32⟩
  | 86 => ⟨S_, .f32⟩
  | 87 => ⟨S64, .f32⟩
  | 88 => ⟨S64, .f32⟩
  | 89 => ⟨S64, .f32⟩
  | 90 => ⟨S1x64, .f32⟩
  | 91 => ⟨S16384x64, .f32⟩
  | 92 => ⟨S16384x64, .f32⟩
  | 93 => ⟨S1x64, .f32⟩
  | 94 => ⟨S16384x64, .f32⟩
  | 95 => ⟨S16384x64, .f32⟩
  | 96 => ⟨S_, .f32⟩
  | 97 => ⟨S16384x64, .f32⟩
  | 98 => ⟨S16384x64, .f32⟩
  | 99 => ⟨S128x64, .f32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S16384x64, .bf16⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x1, .f32⟩
  | .local _ .vmem, ⟨7, _⟩ => ⟨S2048x1024, .f32⟩
  | .local _ .vmem, ⟨8, _⟩ => ⟨S2048x1024, .f32⟩
  | .local _ .vmem, ⟨9, _⟩ => ⟨S16384x64, .bf16⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_1 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call1_cst : Ref sig .tc := ⟨.hbm, 69, rfl⟩
abbrev main_call1_v0 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_2 : Ref sig .tc := ⟨.hbm, 76, rfl⟩
abbrev main_v30 : Ref sig .tc := ⟨.hbm, 77, rfl⟩
abbrev main_cst_3 : Ref sig .tc := ⟨.hbm, 78, rfl⟩
abbrev main_v31 : Ref sig .tc := ⟨.hbm, 79, rfl⟩
abbrev main_v32 : Ref sig .tc := ⟨.hbm, 80, rfl⟩
abbrev main_c_4 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_cst_3 : Ref sig .tc := ⟨.hbm, 98, rfl⟩
abbrev main_call2_v12 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_cst_5 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_call3_cst : Ref sig .tc := ⟨.hbm, 120, rfl⟩
abbrev main_call3_v0 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_6 : Ref sig .tc := ⟨.hbm, 129, rfl⟩
abbrev main_v56 : Ref sig .tc := ⟨.hbm, 130, rfl⟩
abbrev main_cst_7 : Ref sig .tc := ⟨.hbm, 131, rfl⟩
abbrev main_v57 : Ref sig .tc := ⟨.hbm, 132, rfl⟩
abbrev main_v58 : Ref sig .tc := ⟨.hbm, 133, rfl⟩
abbrev main_c_8 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_cst_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_v6 : Ref sig .tc := ⟨.hbm, 143, rfl⟩
abbrev main_call4_v7 : Ref sig .tc := ⟨.hbm, 144, rfl⟩
abbrev main_call4_cst_1 : Ref sig .tc := ⟨.hbm, 145, rfl⟩
abbrev main_call4_v8 : Ref sig .tc := ⟨.hbm, 146, rfl⟩
abbrev main_call4_cst_2 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_cst_3 : Ref sig .tc := ⟨.hbm, 151, rfl⟩
abbrev main_call4_v12 : Ref sig .tc := ⟨.hbm, 152, rfl⟩
abbrev main_call4_cst_4 : Ref sig .tc := ⟨.hbm, 153, rfl⟩
abbrev main_call4_call0_v0 : Ref sig .tc := ⟨.hbm, 154, rfl⟩
abbrev main_call4_call0_v1 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_cst_9 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_call5_cst : Ref sig .tc := ⟨.hbm, 173, rfl⟩
abbrev main_call5_v0 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_cst_10 : Ref sig .tc := ⟨.hbm, 180, rfl⟩
abbrev main_v80 : Ref sig .tc := ⟨.hbm, 181, rfl⟩
abbrev main_cst_11 : Ref sig .tc := ⟨.hbm, 182, rfl⟩
abbrev main_v81 : Ref sig .tc := ⟨.hbm, 183, rfl⟩
abbrev main_v82 : Ref sig .tc := ⟨.hbm, 184, rfl⟩
abbrev main_c_12 : Ref sig .tc := ⟨.hbm, 185, rfl⟩
abbrev main_call6_cst : Ref sig .tc := ⟨.hbm, 186, rfl⟩
abbrev main_call6_v0 : Ref sig .tc := ⟨.hbm, 187, rfl⟩
abbrev main_call6_v1 : Ref sig .tc := ⟨.hbm, 188, rfl⟩
abbrev main_call6_cst_0 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_call6_v5 : Ref sig .tc := ⟨.hbm, 193, rfl⟩
abbrev main_call6_v6 : Ref sig .tc := ⟨.hbm, 194, rfl⟩
abbrev main_call6_v7 : Ref sig .tc := ⟨.hbm, 195, rfl⟩
abbrev main_call6_cst_1 : Ref sig .tc := ⟨.hbm, 196, rfl⟩
abbrev main_call6_v8 : Ref sig .tc := ⟨.hbm, 197, rfl⟩
abbrev main_call6_cst_2 : Ref sig .tc := ⟨.hbm, 198, rfl⟩
abbrev main_call6_v9 : Ref sig .tc := ⟨.hbm, 199, rfl⟩
abbrev main_call6_v10 : Ref sig .tc := ⟨.hbm, 200, rfl⟩
abbrev main_call6_v11 : Ref sig .tc := ⟨.hbm, 201, rfl⟩
abbrev main_call6_cst_3 : Ref sig .tc := ⟨.hbm, 202, rfl⟩
abbrev main_call6_v12 : Ref sig .tc := ⟨.hbm, 203, rfl⟩
abbrev main_call6_cst_4 : Ref sig .tc := ⟨.hbm, 204, rfl⟩
abbrev main_call6_call0_v0 : Ref sig .tc := ⟨.hbm, 205, rfl⟩
abbrev main_call6_call0_v1 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_cst_13 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_v97 : Ref sig .tc := ⟨.hbm, 222, rfl⟩
abbrev main_v98 : Ref sig .tc := ⟨.hbm, 223, rfl⟩
abbrev main_call7_cst : Ref sig .tc := ⟨.hbm, 224, rfl⟩
abbrev main_call7_v0 : Ref sig .tc := ⟨.hbm, 225, rfl⟩
abbrev main_v99 : Ref sig .tc := ⟨.hbm, 226, rfl⟩
abbrev main_v100 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  h_S1024x64 : 0 < S1024x64.numel
  shapeCasts_S1024x64_S1024x64 : S1024x64.ShapeCasts S1024x64
  reduces_S2048x1024_S2048 : S2048x1024.Reduces [1] S2048
  shapeCasts_S2048_S2048x1 : S2048.ShapeCasts S2048x1
  broadcasts_S2048x1_S2048x64 : S2048x1.Broadcasts S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S16384x64 : S_.BroadcastsInDim S16384x64 (![] : Fin 0 → Fin S16384x64.rank)
  dot_S2048x1024_S1024x64_S2048x64_1_0_0_1_n_n_wf : DotDims.WF S2048x1024 S1024x64 S2048x64 [1] [0] [0] [1] [] []
  dot_S16384x64_S64x64_S16384x64_1_0_0_1_n_n_wf : DotDims.WF S16384x64 S64x64 S16384x64 [1] [0] [0] [1] [] []
  dot_S128x16384_S16384x64_S128x64_1_0_0_1_n_n_wf : DotDims.WF S128x16384 S16384x64 S128x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .bf16 = 32 ∨ (Rect.block (s := S16384x64) S16384x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S128x16384 : Shape := ⟨2, ![128, 16384]⟩
abbrev S64x64 : Shape := ⟨2, ![64, 64]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S128x64 : Shape := ⟨2, ![128, 64]⟩

abbrev nBuf : Space → Nat
  | .hbm => 233
  | .vmem => 0
  | .smem => 0
  | _ => 0

abbrev hbmTy0_0 (i : Nat) : BufTy := match i % 128 with
  | 0 => ⟨S16384x64, .f32⟩
  | 1 => ⟨S16384x16384, .f32⟩
  | 2 => ⟨S128x16384, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S_, .f32⟩
  | 20 => ⟨S16384x1, .f32⟩
  | 21 => ⟨S16384x1, .f32⟩
  | 22 => ⟨S16384x64, .f32⟩
  | 23 => ⟨S16384x64, .f32⟩
  | 24 => ⟨S16384x64, .f32⟩
  | 25 => ⟨S16384x64, .f32⟩
  | 26 => ⟨S1x64, .f32⟩
  | 27 => ⟨S16384x64, .f32⟩
  | 28 => ⟨S16384x64, .f32⟩
  | 29 => ⟨S_, .f32⟩
  | 30 => ⟨S64, .f32⟩
  | 31 => ⟨S_, .f32⟩
  | 32 => ⟨S64, .f32⟩
  | 33 => ⟨S64, .f32⟩
  | 34 => ⟨S_, .i32⟩
  | 35 => ⟨S_, .f32⟩
  | 36 => ⟨S64, .f32⟩
  | 37 => ⟨S1x64, .f32⟩
  | 38 => ⟨S_, .f32⟩
  | 39 => ⟨S1x64, .f32⟩
  | 40 => ⟨S1x64, .f32⟩
  | 41 => ⟨S16384x64, .f32⟩
  | 42 => ⟨S16384x64, .f32⟩
  | 43 => ⟨S16384x64, .f32⟩
  | 44 => ⟨S_, .f32⟩
  | 45 => ⟨S_, .f32⟩
  | 46 => ⟨S_, .f32⟩
  | 47 => ⟨S_, .f32⟩
  | 48 => ⟨S64, .f32⟩
  | 49 => ⟨S64, .f32⟩
  | 50 => ⟨S64, .f32⟩
  | 51 => ⟨S_, .f32⟩
  | 52 => ⟨S_, .i1⟩
  | 53 => ⟨S_, .f32⟩
  | 54 => ⟨S_, .f32⟩
  | 55 => ⟨S64, .f32⟩
  | 56 => ⟨S64, .f32⟩
  | 57 => ⟨S1x64, .f32⟩
  | 58 => ⟨S16384x64, .f32⟩
  | 59 => ⟨S16384x64, .f32⟩
  | 60 => ⟨S1x64, .f32⟩
  | 61 => ⟨S16384x64, .f32⟩
  | 62 => ⟨S16384x64, .f32⟩
  | 63 => ⟨S_, .f32⟩
  | 64 => ⟨S64, .f32⟩
  | 65 => ⟨S64, .f32⟩
  | 66 => ⟨S64, .f32⟩
  | 67 => ⟨S1x64, .f32⟩
  | 68 => ⟨S16384x64, .f32⟩
  | 69 => ⟨S16384x64, .f32⟩
  | 70 => ⟨S1x64, .f32⟩
  | 71 => ⟨S16384x64, .f32⟩
  | 72 => ⟨S16384x64, .f32⟩
  | 73 => ⟨S_, .f32⟩
  | 74 => ⟨S16384x64, .f32⟩
  | 75 => ⟨S16384x64, .f32⟩
  | 76 => ⟨S16384x64, .f32⟩
  | 77 => ⟨S1x64, .f32⟩
  | 78 => ⟨S16384x64, .f32⟩
  | 79 => ⟨S16384x64, .f32⟩
  | 80 => ⟨S_, .f32⟩
  | 81 => ⟨S64, .f32⟩
  | 82 => ⟨S_, .f32⟩
  | 83 => ⟨S64, .f32⟩
  | 84 => ⟨S64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S16384x64, .f32⟩
  | 93 => ⟨S16384x64, .f32⟩
  | 94 => ⟨S16384x64, .f32⟩
  | 95 => ⟨S_, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S_, .i1⟩
  | 104 => ⟨S_, .f32⟩
  | 105 => ⟨S_, .f32⟩
  | 106 => ⟨S64, .f32⟩
  | 107 => ⟨S64, .f32⟩
  | 108 => ⟨S1x64, .f32⟩
  | 109 => ⟨S16384x64, .f32⟩
  | 110 => ⟨S16384x64, .f32⟩
  | 111 => ⟨S1x64, .f32⟩
  | 112 => ⟨S16384x64, .f32⟩
  | 113 => ⟨S16384x64, .f32⟩
  | 114 => ⟨S_, .f32⟩
  | 115 => ⟨S64, .f32⟩
  | 116 => ⟨S64, .f32⟩
  | 117 => ⟨S64, .f32⟩
  | 118 => ⟨S1x64, .f32⟩
  | 119 => ⟨S16384x64, .f32⟩
  | 120 => ⟨S16384x64, .f32⟩
  | 121 => ⟨S1x64, .f32⟩
  | 122 => ⟨S16384x64, .f32⟩
  | 123 => ⟨S16384x64, .f32⟩
  | 124 => ⟨S_, .f32⟩
  | 125 => ⟨S16384x64, .f32⟩
  | 126 => ⟨S16384x64, .f32⟩
  | 127 => ⟨S16384x64, .f32⟩
  | _ => ⟨S16384x64, .f32⟩

abbrev hbmTy0_1 (i : Nat) : BufTy := match i % 128 with
  | 0 => ⟨S16384x64, .f32⟩
  | 1 => ⟨S16384x64, .f32⟩
  | 2 => ⟨S16384x64, .f32⟩
  | 3 => ⟨S1x64, .f32⟩
  | 4 => ⟨S16384x64, .f32⟩
  | 5 => ⟨S16384x64, .f32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S16384x64, .f32⟩
  | 19 => ⟨S16384x64, .f32⟩
  | 20 => ⟨S16384x64, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S1x64, .f32⟩
  | 35 => ⟨S16384x64, .f32⟩
  | 36 => ⟨S16384x64, .f32⟩
  | 37 => ⟨S1x64, .f32⟩
  | 38 => ⟨S16384x64, .f32⟩
  | 39 => ⟨S16384x64, .f32⟩
  | 40 => ⟨S_, .f32⟩
  | 41 => ⟨S64, .f32⟩
  | 42 => ⟨S64, .f32⟩
  | 43 => ⟨S64, .f32⟩
  | 44 => ⟨S1x64, .f32⟩
  | 45 => ⟨S16384x64, .f32⟩
  | 46 => ⟨S16384x64, .f32⟩
  | 47 => ⟨S1x64, .f32⟩
  | 48 => ⟨S16384x64, .f32⟩
  | 49 => ⟨S16384x64, .f32⟩
  | 50 => ⟨S_, .f32⟩
  | 51 => ⟨S16384x64, .f32⟩
  | 52 => ⟨S16384x64, .f32⟩
  | 53 => ⟨S16384x64, .f32⟩
  | 54 => ⟨S1x64, .f32⟩
  | 55 => ⟨S16384x64, .f32⟩
  | 56 => ⟨S16384x64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S16384x64, .f32⟩
  | 70 => ⟨S16384x64, .f32⟩
  | 71 => ⟨S16384x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x64, .f32⟩
  | 86 => ⟨S16384x64, .f32⟩
  | 87 => ⟨S16384x64, .f32⟩
  | 88 => ⟨S1x64, .f32⟩
  | 89 => ⟨S16384x64, .f32⟩
  | 90 => ⟨S16384x64, .f32⟩
  | 91 => ⟨S_, .f32⟩
  | 92 => ⟨S64, .f32⟩
  | 93 => ⟨S64, .f32⟩
  | 94 => ⟨S64, .f32⟩
  | 95 => ⟨S1x64, .f32⟩
  | 96 => ⟨S16384x64, .f32⟩
  | 97 => ⟨S16384x64, .f32⟩
  | 98 => ⟨S1x64, .f32⟩
  | 99 => ⟨S16384x64, .f32⟩
  | 100 => ⟨S16384x64, .f32⟩
  | 101 => ⟨S_, .f32⟩
  | 102 => ⟨S16384x64, .f32⟩
  | 103 => ⟨S16384x64, .f32⟩
  | 104 => ⟨S128x64, .f32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_call1_cst : Ref sig .tc := ⟨.hbm, 73, rfl⟩
abbrev main_call1_v0 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_3 : Ref sig .tc := ⟨.hbm, 80, rfl⟩
abbrev main_v33 : Ref sig .tc := ⟨.hbm, 81, rfl⟩
abbrev main_cst_4 : Ref sig .tc := ⟨.hbm, 82, rfl⟩
abbrev main_v34 : Ref sig .tc := ⟨.hbm, 83, rfl⟩
abbrev main_v35 : Ref sig .tc := ⟨.hbm, 84, rfl⟩
abbrev main_c_5 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_cst_6 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_call3_cst : Ref sig .tc := ⟨.hbm, 124, rfl⟩
abbrev main_call3_v0 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_cst_7 : Ref sig .tc := ⟨.hbm, 134, rfl⟩
abbrev main_v60 : Ref sig .tc := ⟨.hbm, 135, rfl⟩
abbrev main_cst_8 : Ref sig .tc := ⟨.hbm, 136, rfl⟩
abbrev main_v61 : Ref sig .tc := ⟨.hbm, 137, rfl⟩
abbrev main_v62 : Ref sig .tc := ⟨.hbm, 138, rfl⟩
abbrev main_c_9 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_cst_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_cst_2 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_cst_3 : Ref sig .tc := ⟨.hbm, 156, rfl⟩
abbrev main_call4_v12 : Ref sig .tc := ⟨.hbm, 157, rfl⟩
abbrev main_call4_cst_4 : Ref sig .tc := ⟨.hbm, 158, rfl⟩
abbrev main_call4_call0_v0 : Ref sig .tc := ⟨.hbm, 159, rfl⟩
abbrev main_call4_call0_v1 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_10 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_call5_cst : Ref sig .tc := ⟨.hbm, 178, rfl⟩
abbrev main_call5_v0 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_cst_11 : Ref sig .tc := ⟨.hbm, 185, rfl⟩
abbrev main_v84 : Ref sig .tc := ⟨.hbm, 186, rfl⟩
abbrev main_cst_12 : Ref sig .tc := ⟨.hbm, 187, rfl⟩
abbrev main_v85 : Ref sig .tc := ⟨.hbm, 188, rfl⟩
abbrev main_v86 : Ref sig .tc := ⟨.hbm, 189, rfl⟩
abbrev main_c_13 : Ref sig .tc := ⟨.hbm, 190, rfl⟩
abbrev main_call6_cst : Ref sig .tc := ⟨.hbm, 191, rfl⟩
abbrev main_call6_v0 : Ref sig .tc := ⟨.hbm, 192, rfl⟩
abbrev main_call6_v1 : Ref sig .tc := ⟨.hbm, 193, rfl⟩
abbrev main_call6_cst_0 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_v5 : Ref sig .tc := ⟨.hbm, 198, rfl⟩
abbrev main_call6_v6 : Ref sig .tc := ⟨.hbm, 199, rfl⟩
abbrev main_call6_v7 : Ref sig .tc := ⟨.hbm, 200, rfl⟩
abbrev main_call6_cst_1 : Ref sig .tc := ⟨.hbm, 201, rfl⟩
abbrev main_call6_v8 : Ref sig .tc := ⟨.hbm, 202, rfl⟩
abbrev main_call6_cst_2 : Ref sig .tc := ⟨.hbm, 203, rfl⟩
abbrev main_call6_v9 : Ref sig .tc := ⟨.hbm, 204, rfl⟩
abbrev main_call6_v10 : Ref sig .tc := ⟨.hbm, 205, rfl⟩
abbrev main_call6_v11 : Ref sig .tc := ⟨.hbm, 206, rfl⟩
abbrev main_call6_cst_3 : Ref sig .tc := ⟨.hbm, 207, rfl⟩
abbrev main_call6_v12 : Ref sig .tc := ⟨.hbm, 208, rfl⟩
abbrev main_call6_cst_4 : Ref sig .tc := ⟨.hbm, 209, rfl⟩
abbrev main_call6_call0_v0 : Ref sig .tc := ⟨.hbm, 210, rfl⟩
abbrev main_call6_call0_v1 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_cst_14 : Ref sig .tc := ⟨.hbm, 219, rfl⟩
abbrev main_v94 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_call7_cst : Ref sig .tc := ⟨.hbm, 229, rfl⟩
abbrev main_call7_v0 : Ref sig .tc := ⟨.hbm, 230, rfl⟩
abbrev main_v103 : Ref sig .tc := ⟨.hbm, 231, rfl⟩
abbrev main_v104 : Ref sig .tc := ⟨.hbm, 232, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S16384x64 : S_.BroadcastsInDim S16384x64 (![] : Fin 0 → Fin S16384x64.rank)
  dot_S16384x16384_S16384x1_S16384x1_1_0_0_1_n_n_wf : DotDims.WF S16384x16384 S16384x1 S16384x1 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S128x16384_S16384x64_S128x64_1_0_0_1_n_n_wf : DotDims.WF S128x16384 S16384x64 S128x64 [1] [0] [0] [1] [] []

variable [Facts₀]

def dot_S16384x16384_S16384x1_S16384x1_1_0_0_1_n_n : DotDims S16384x16384 S16384x1 S16384x1 where
  lhsContracting := [1]
  rhsContracting := [0]
  lhsNonContracting := [0]
  rhsNonContracting := [1]
  lhsBatch := []
  rhsBatch := []
  wf := dot_S16384x16384_S16384x1_S16384x1_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf

class Facts : Prop extends Facts₀ where

variable [Facts]
-- ==== Proof.KIBase.lean ====
/- The aggregation kernel's two launches: what the runs of its body are stated over. Each launch walks a grid of
   8 row tiles by 16 reduction steps; the body adds one [2048, 1024] tile of the adjacency times the matching
   1024 rows of the right-hand side into a running sum, adds the tile's row sums into a running degree, and at
   the last step stores their quotient. Here: the two branch conditions in closed form over the grid, the points
   at which the output window is idle, and the memrefs the body is called with. -/
import proofs.«153131_j8177617732272_2_alg».proof.Proof.Gen.KernelIdeal.Launch
import proofs.«153131_j8177617732272_2_alg».proof.Proof.Gen.KernelIdeal.Skeleton
import proofs.«153131_j8177617732272_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0: the two conditions of the body, over the grid

The grid is 8 row tiles by 16 reduction steps; point `t` is row tile `t / 16` at step `t % 16`. The first
`scf.if` (zero the two accumulators) is taken at step 0, the second (divide and store the output block) at step 15. -/

abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last reduction step the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last reduction step it is live. -/
theorem liveAt0_2 : ∀ t : Fin cfg0.N, cond0_1 (grid0.coords t) → cfg0.idle 2 (grid0.coords t) = false := by decide +kernel

/-- The windows' current staging memrefs at a point, as the pipeline passes them to the body. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
/-- The two accumulators: the running product sum [2048, 64] and the running row sum [2048, 1]. -/
abbrev scM0_0 : Memref sig .tc .vmem S2048x64 .f32 := Memref.whole cc0_scratch0
abbrev scM0_1 : Memref sig .tc .vmem S2048x1 .f32 := Memref.whole cc0_scratch1
abbrev VS0_0 : View sig .tc .vmem S2048x64 .f32 := (scM0_0).view
abbrev VS0_1 : View sig .tc .vmem S2048x1 .f32 := (scM0_1).view
/-- One staging buffer of the output window, through which its contents are stated. -/
abbrev VO0_2 : View sig .tc .vmem S2048x64 .f32 := (Memref.whole cc0_stg2_0 : Memref sig .tc .vmem S2048x64 .f32).view

/-! ## Region 1: the two conditions of the body, over the grid

The grid is 8 row tiles by 16 reduction steps; point `t` is row tile `t / 16` at step `t % 16`. The first
`scf.if` (zero the two accumulators) is taken at step 0, the second (divide and store the output block) at step 15. -/

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last reduction step the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last reduction step it is live. -/
theorem liveAt1_2 : ∀ t : Fin cfg1.N, cond1_1 (grid1.coords t) → cfg1.idle 2 (grid1.coords t) = false := by decide +kernel

/-- The windows' current staging memrefs at a point, as the pipeline passes them to the body. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The two accumulators: the running product sum [2048, 64] and the running row sum [2048, 1]. -/
abbrev scM1_0 : Memref sig .tc .vmem S2048x64 .f32 := Memref.whole cc1_scratch0
abbrev scM1_1 : Memref sig .tc .vmem S2048x1 .f32 := Memref.whole cc1_scratch1
abbrev VS1_0 : View sig .tc .vmem S2048x64 .f32 := (scM1_0).view
abbrev VS1_1 : View sig .tc .vmem S2048x1 .f32 := (scM1_1).view
/-- One staging buffer of the output window, through which its contents are stated. -/
abbrev VO1_2 : View sig .tc .vmem S2048x64 .f32 := (Memref.whole cc1_stg2_0 : Memref sig .tc .vmem S2048x64 .f32).view

end Cert.KernelIdeal.Hand

end
-- ==== Proof.KIRun0A.lean ====
/- The body of launch 0 run whole at the first reduction step of a row tile: both accumulators are zeroed, then the step's tile is added; the output block is left alone. -/
import proofs.«153131_j8177617732272_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun0_A (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRun0B.lean ====
/- The body of launch 0 run whole at a middle reduction step: the step's tile is added into both accumulators; the output block is left alone. -/
import proofs.«153131_j8177617732272_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun0_B (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRun0C.lean ====
/- The body of launch 0 run whole at the last reduction step of a row tile: the step's tile is added into both accumulators, and their quotient is stored into the output block. -/
import proofs.«153131_j8177617732272_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun0_C (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KIDat0.lean ====
/- Launch 0: what each kind of reduction step leaves in the two accumulators and the output block, the
   accumulation over the grid's points, the invariant that carries the accumulators from one point to the next, and
   the body's obligation at every point. Stated at any contents `V` the launch is entered from. -/
import proofs.«153131_j8177617732272_2_alg».proof.Proof.KIRun0A
import proofs.«153131_j8177617732272_2_alg».proof.Proof.KIRun0B
import proofs.«153131_j8177617732272_2_alg».proof.Proof.KIRun0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Off the last reduction step nothing is stored into the output block: a placeholder nothing reads. -/
def outIdle0 : Vec F S2048x64 .f32 := VO0_2.read (Elt F) (VO0_2.writes (Elt F) VO0_2.junk [])

/-- The stores of case A into the running product sum cover it. -/
theorem scover0_A_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) (y : S2048x64.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x64.size (by sl_kernel_rfl) y
/-- What case A leaves in the running product sum. -/
def sout0_A_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) : Vec F S2048x64 .f32 :=
  VS0_0.read (Elt F) (VS0_0.writes (Elt F) VS0_0.junk (kernelRun0_A c i arg2 harg2 arg3 harg3 arg4 harg4 arg5 harg5 arg6 harg6 hc0 hc1 x0 x1).2.1)
/-- The stores of case A into the running row sum cover it. -/
theorem scover0_A_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) (y : S2048x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x1.size (by sl_kernel_rfl) y
/-- What case A leaves in the running row sum. -/
def sout0_A_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) : Vec F S2048x1 .f32 :=
  VS0_1.read (Elt F) (VS0_1.writes (Elt F) VS0_1.junk (kernelRun0_A c i arg2 harg2 arg3 harg3 arg4 harg4 arg5 harg5 arg6 harg6 hc0 hc1 x0 x1).2.2.1)

/-- The stores of case B into the running product sum cover it. -/
theorem scover0_B_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) (y : S2048x64.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S2048x64.size (by sl_kernel_rfl) y
/-- What case B leaves in the running product sum. -/
def sout0_B_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) : Vec F S2048x64 .f32 :=
  VS0_0.read (Elt F) (VS0_0.writes (Elt F) VS0_0.junk (kernelRun0_B c i arg2 harg2 arg3 harg3 arg4 harg4 arg5 harg5 arg6 harg6 hc0 hc1 x0 x1 xs0 xs1).2.1)
/-- The stores of case B into the running row sum cover it. -/
theorem scover0_B_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) (y : S2048x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S2048x1.size (by sl_kernel_rfl) y
/-- What case B leaves in the running row sum. -/
def sout0_B_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- At the last reduction step the body's one store into the output block covers it. -/
theorem cover0_C_2 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) (y : S2048x64.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S2048x64.size (by sl_kernel_rfl) y
/-- What the last reduction step leaves in the output block's buffer. -/
def out0_C_2 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) : Vec F S2048x64 .f32 :=
  VO0_2.read (Elt F) (VO0_2.writes (Elt F) VO0_2.junk (kernelRun0_C c i arg2 harg2 arg3 harg3 arg4 harg4 arg5 harg5 arg6 harg6 hc0 hc1 x0 x1 xs0 xs1).1)

/-- The stores of case C into the running product sum cover it. -/
theorem scover0_C_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) (y : S2048x64.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S2048x64.size (by sl_kernel_rfl) y
/-- What case C leaves in the running product sum. -/
def sout0_C_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) : Vec F S2048x64 .f32 :=
  VS0_0.read (Elt F) (VS0_0.writes (Elt F) VS0_0.junk (kernelRun0_C c i arg2 harg2 arg3 harg3 arg4 harg4 arg5 harg5 arg6 harg6 hc0 hc1 x0 x1 xs0 xs1).2.1)
/-- The stores of case C into the running row sum cover it. -/
theorem scover0_C_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) (y : S2048x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S2048x1.size (by sl_kernel_rfl) y
/-- What case C leaves in the running row sum. -/
def sout0_C_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## The accumulation over the grid's points -/

/-- After a first reduction step: the accumulators hold that step's tile added to zero. -/
def stepA0 (c : Dev nD) (t : Fin cfg0.N) (h0 : t.val % 16 = 0) : Vec F S2048x64 .f32 × Vec F S2048x64 .f32 × Vec F S2048x1 .f32 :=
  (outIdle0, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t))
/-- After a middle reduction step: that step's tile added to what the step before left. -/
def stepB0 (c : Dev nD) (t : Fin cfg0.N) (h0 : ¬t.val % 16 = 0) (h1 : ¬t.val % 16 = 15) (prev : Vec F S2048x64 .f32 × Vec F S2048x1 .f32) : Vec F S2048x64 .f32 × Vec F S2048x64 .f32 × Vec F S2048x1 .f32 :=
  (outIdle0, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2)
/-- After a last reduction step: the same, and the output block at the quotient of the two accumulators. -/
def stepC0 (c : Dev nD) (t : Fin cfg0.N) (h0 : ¬t.val % 16 = 0) (h1 : t.val % 16 = 15) (prev : Vec F S2048x64 .f32 × Vec F S2048x1 .f32) : Vec F S2048x64 .f32 × Vec F S2048x64 .f32 × Vec F S2048x1 .f32 :=
  (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2)

/-- What the output block's buffer and the two accumulators hold after the body at position `n`. -/
def outsAt0 (c : Dev nD) : (n : ℕ) → n < cfg0.N → Vec F S2048x64 .f32 × Vec F S2048x64 .f32 × Vec F S2048x1 .f32
  | 0, hn => stepA0 V c ⟨0, hn⟩ (Nat.zero_mod _)
  | n + 1, hn =>
    if h0 : (n + 1) % 16 = 0 then stepA0 V c ⟨n + 1, hn⟩ h0
    else if h1 : (n + 1) % 16 = 15 then stepC0 V c ⟨n + 1, hn⟩ h0 h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 16 = 0) :
    outsAt0 V c t.val t.isLt = stepA0 V c t h0 := by
  obtain ⟨n, hn⟩ := t
  cases n with
  | zero => exact rfl
  | succ n => exact (dif_pos h0).trans rfl
theorem outsAt0_B (c : Dev nD) (t : Fin cfg0.N) (h0 : ¬t.val % 16 = 0) (h1 : ¬t.val % 16 = 15) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 16 = 0) (h1 : t.val % 16 = 15) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- Before the first point: every scoped buffer no window stages at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-- Before position `n`: at the start the launch's own; afterwards the two accumulators at what the point before left
    in them, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  cases n with
  | zero => exact absurd rfl hz
  | succ n => rfl

/-! ## The proof data -/

/-- The proof data of launch 0 on core `c`: the arrays as the launch finds them; after the body at a point each
    input's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the inputs' memrefs hold their blocks; the point's reduction step says which case it is in;
    the invariant hands the body the two accumulators at what the point before left (at anything at the very first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · rw [Dat.leavesExact_idle (dat0 V c) 2 t (idleAt0_2 t (fun h => absurd ((hcond0_1 t).mp h) (by omega))) (noFlush0_2 t (fun h => absurd ((hcond0_1 t).mp h) (by omega)))]
    rw [outsAt0_A V c t h0]
    unfold stepA0 sout0_A_0 sout0_A_1; (try dsimp only)
    by_cases hz : t.val = 0
    · rw [PhiS0_castSucc V c t, PhiS0_zero V c _ _ hz, PhiA0_eq]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      iexists _; iexact H2
  · by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC0 out0_C_2 sout0_C_0 sout0_C_1; (try dsimp only)
      have hz : t.val ≠ 0 := by omega
      rw [PhiS0_castSucc V c t, PhiS0_pos V c _ _ hz]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB0 sout0_B_0 sout0_B_1; (try dsimp only)
      have hz : t.val ≠ 0 := by omega
      rw [PhiS0_castSucc V c t, PhiS0_pos V c _ _ hz]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's own back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr2, Hr3, Hr4, Hr5, Hr6, Hr7, Hr8⟩, Hg⟩
  isplitl [HS0 HS1 Hr2 Hr3 Hr4 Hr5 Hr6 Hr7 Hr8]
  · isplitl [HS0]; · iexists _; iexact HS0
    isplitl [HS1]; · iexists _; iexact HS1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexact Hr8
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.KIRun1A.lean ====
/- The body of launch 1 run whole at the first reduction step of a row tile: both accumulators are zeroed, then the step's tile is added; the output block is left alone. -/
import proofs.«153131_j8177617732272_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun1_A (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRun1B.lean ====
/- The body of launch 1 run whole at a middle reduction step: the step's tile is added into both accumulators; the output block is left alone. -/
import proofs.«153131_j8177617732272_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun1_B (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRun1C.lean ====
/- The body of launch 1 run whole at the last reduction step of a row tile: the step's tile is added into both accumulators, and their quotient is stored into the output block. -/
import proofs.«153131_j8177617732272_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun1_C (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨?_, ?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KIDat1.lean ====
/- Launch 1: what each kind of reduction step leaves in the two accumulators and the output block, the
   accumulation over the grid's points, the invariant that carries the accumulators from one point to the next, and
   the body's obligation at every point. Stated at any contents `V` the launch is entered from. -/
import proofs.«153131_j8177617732272_2_alg».proof.Proof.KIRun1A
import proofs.«153131_j8177617732272_2_alg».proof.Proof.KIRun1B
import proofs.«153131_j8177617732272_2_alg».proof.Proof.KIRun1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Off the last reduction step nothing is stored into the output block: a placeholder nothing reads. -/
def outIdle1 : Vec F S2048x64 .f32 := VO1_2.read (Elt F) (VO1_2.writes (Elt F) VO1_2.junk [])

/-- The stores of case A into the running product sum cover it. -/
theorem scover1_A_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) (y : S2048x64.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S2048x64.size (by sl_kernel_rfl) y
/-- What case A leaves in the running product sum. -/
def sout1_A_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) : Vec F S2048x64 .f32 :=
  VS1_0.read (Elt F) (VS1_0.writes (Elt F) VS1_0.junk (kernelRun1_A c i arg2 harg2 arg3 harg3 arg4 harg4 arg5 harg5 arg6 harg6 hc0 hc1 x0 x1).2.1)
/-- The stores of case A into the running row sum cover it. -/
theorem scover1_A_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) (y : S2048x1.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S2048x1.size (by sl_kernel_rfl) y
/-- What case A leaves in the running row sum. -/
def sout1_A_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) : Vec F S2048x1 .f32 :=
  VS1_1.read (Elt F) (VS1_1.writes (Elt F) VS1_1.junk (kernelRun1_A c i arg2 harg2 arg3 harg3 arg4 harg4 arg5 harg5 arg6 harg6 hc0 hc1 x0 x1).2.2.1)

/-- The stores of case B into the running product sum cover it. -/
theorem scover1_B_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) (y : S2048x64.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S2048x64.size (by sl_kernel_rfl) y
/-- What case B leaves in the running product sum. -/
def sout1_B_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) : Vec F S2048x64 .f32 :=
  VS1_0.read (Elt F) (VS1_0.writes (Elt F) VS1_0.junk (kernelRun1_B c i arg2 harg2 arg3 harg3 arg4 harg4 arg5 harg5 arg6 harg6 hc0 hc1 x0 x1 xs0 xs1).2.1)
/-- The stores of case B into the running row sum cover it. -/
theorem scover1_B_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) (y : S2048x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S2048x1.size (by sl_kernel_rfl) y
/-- What case B leaves in the running row sum. -/
def sout1_B_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- At the last reduction step the body's one store into the output block covers it. -/
theorem cover1_C_2 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) (y : S2048x64.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S2048x64.size (by sl_kernel_rfl) y
/-- What the last reduction step leaves in the output block's buffer. -/
def out1_C_2 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) : Vec F S2048x64 .f32 :=
  VO1_2.read (Elt F) (VO1_2.writes (Elt F) VO1_2.junk (kernelRun1_C c i arg2 harg2 arg3 harg3 arg4 harg4 arg5 harg5 arg6 harg6 hc0 hc1 x0 x1 xs0 xs1).1)

/-- The stores of case C into the running product sum cover it. -/
theorem scover1_C_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) (y : S2048x64.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S2048x64.size (by sl_kernel_rfl) y
/-- What case C leaves in the running product sum. -/
def sout1_C_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) : Vec F S2048x64 .f32 :=
  VS1_0.read (Elt F) (VS1_0.writes (Elt F) VS1_0.junk (kernelRun1_C c i arg2 harg2 arg3 harg3 arg4 harg4 arg5 harg5 arg6 harg6 hc0 hc1 x0 x1 xs0 xs1).2.1)
/-- The stores of case C into the running row sum cover it. -/
theorem scover1_C_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) (y : S2048x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S2048x1.size (by sl_kernel_rfl) y
/-- What case C leaves in the running row sum. -/
def sout1_C_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

/-! ## The accumulation over the grid's points -/

/-- After a first reduction step: the accumulators hold that step's tile added to zero. -/
def stepA1 (c : Dev nD) (t : Fin cfg1.N) (h0 : t.val % 16 = 0) : Vec F S2048x64 .f32 × Vec F S2048x64 .f32 × Vec F S2048x1 .f32 :=
  (outIdle1, sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t))
/-- After a middle reduction step: that step's tile added to what the step before left. -/
def stepB1 (c : Dev nD) (t : Fin cfg1.N) (h0 : ¬t.val % 16 = 0) (h1 : ¬t.val % 16 = 15) (prev : Vec F S2048x64 .f32 × Vec F S2048x1 .f32) : Vec F S2048x64 .f32 × Vec F S2048x64 .f32 × Vec F S2048x1 .f32 :=
  (outIdle1, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2)
/-- After a last reduction step: the same, and the output block at the quotient of the two accumulators. -/
def stepC1 (c : Dev nD) (t : Fin cfg1.N) (h0 : ¬t.val % 16 = 0) (h1 : t.val % 16 = 15) (prev : Vec F S2048x64 .f32 × Vec F S2048x1 .f32) : Vec F S2048x64 .f32 × Vec F S2048x64 .f32 × Vec F S2048x1 .f32 :=
  (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2)

/-- What the output block's buffer and the two accumulators hold after the body at position `n`. -/
def outsAt1 (c : Dev nD) : (n : ℕ) → n < cfg1.N → Vec F S2048x64 .f32 × Vec F S2048x64 .f32 × Vec F S2048x1 .f32
  | 0, hn => stepA1 V c ⟨0, hn⟩ (Nat.zero_mod _)
  | n + 1, hn =>
    if h0 : (n + 1) % 16 = 0 then stepA1 V c ⟨n + 1, hn⟩ h0
    else if h1 : (n + 1) % 16 = 15 then stepC1 V c ⟨n + 1, hn⟩ h0 h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 16 = 0) :
    outsAt1 V c t.val t.isLt = stepA1 V c t h0 := by
  obtain ⟨n, hn⟩ := t
  cases n with
  | zero => exact rfl
  | succ n => exact (dif_pos h0).trans rfl
theorem outsAt1_B (c : Dev nD) (t : Fin cfg1.N) (h0 : ¬t.val % 16 = 0) (h1 : ¬t.val % 16 = 15) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 16 = 0) (h1 : t.val % 16 = 15) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- Before the first point: every scoped buffer no window stages at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- Before position `n`: at the start the launch's own; afterwards the two accumulators at what the point before left
    in them, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The proof data of launch 1 on core `c`: the arrays as the launch finds them; after the body at a point each
    input's buffer at its block and the output's at the accumulation's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the inputs' memrefs hold their blocks; the point's reduction step says which case it is in;
    the invariant hands the body the two accumulators at what the point before left (at anything at the very first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · rw [Dat.leavesExact_idle (dat1 V c) 2 t (idleAt1_2 t (fun h => absurd ((hcond1_1 t).mp h) (by omega))) (noFlush1_2 t (fun h => absurd ((hcond1_1 t).mp h) (by omega)))]
    rw [outsAt1_A V c t h0]
    unfold stepA1 sout1_A_0 sout1_A_1; (try dsimp only)
    by_cases hz : t.val = 0
    · rw [PhiS1_castSucc V c t, PhiS1_zero V c _ _ hz, PhiA1_eq]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
        iexact Hg
      isplitl [Ho]; · iexact Ho
      isplitl [H0]; · iexact H0
      isplitl [H1]; · iexact H1
      iexists _; iexact H2
  · by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC1 out1_C_2 sout1_C_0 sout1_C_1; (try dsimp only)
      have hz : t.val ≠ 0 := by omega
      rw [PhiS1_castSucc V c t, PhiS1_pos V c _ _ hz]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_C_0 c _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold stepB1 sout1_B_0 sout1_B_1; (try dsimp only)
      have hz : t.val ≠ 0 := by omega
      rw [PhiS1_castSucc V c t, PhiS1_pos V c _ _ hz]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_B_0 c _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's own back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, HS0, HS1⟩, Hg⟩
  isplitl [Hr0 Hr1 Hr2 Hr3 Hr4 Hr5 Hr6 HS0 HS1]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KIFrame.lean ====
/- The whole run of the program: the contents of every unscoped buffer after each item of @main — nineteen host
   stretches and the two launches of the aggregation kernel —, each launch as a segment over the thread state, and the
   run itself: every weakly fair execution terminates with every unscoped buffer at the last of those contents. The
   argument arrays are written by no item, so they end as launched. -/
import proofs.«153131_j8177617732272_2_alg».proof.Proof.KIDat0
import proofs.«153131_j8177617732272_2_alg».proof.Proof.KIDat1
import proofs.«153131_j8177617732272_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
/-- What launch 0 is entered from, read at the TensorCore's references. -/
abbrev E1 : (c : Dev nD) → (b : Ref sig .tc) → Buf (Elt F) ((c : Thread nD τ).loc b) := fun c b => W1 m ρ c b
/-- At launch 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev W11 : Dev nD → Valuation τ sig (Elt F) := fun c => StableHlo.after hostOps1_8 (W10 m ρ c)
/-- What launch 1 is entered from. -/
abbrev E11 : (c : Dev nD) → (b : Ref sig .tc) → Buf (Elt F) ((c : Thread nD τ).loc b) := fun c b => W11 m ρ c b
def W12 (c : Dev nD) : Valuation τ sig (Elt F) :=
  Pipeline.withArrays spec1 c (W11 m ρ c) fun w => (dat1 (E11 m ρ) c).arrAt w cfg1.N
theorem W12_arr (c : Dev nD) (w : Fin cfg1.W) :
    W12 m ρ c (Proc.devRef .tc (Pipeline.arrRef spec1 w)) = (dat1 (E11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev X12 : (c : Dev nD) → (b : Ref sig .tc) → Buf (Elt F) ((c : Thread nD τ).loc b) := fun c b => W12 m ρ c b
theorem hF1 (c : Dev nD) (w : Fin cfg1.W) : (dat1 (E11 m ρ) c).arrAt w cfg1.N = X12 m ρ c (Pipeline.arrRef spec1 w) :=
  (W12_arr m ρ c w).symm
theorem hrest1 (c : Dev nD) : ∀ b, b ∉ Finset.univ.image (Pipeline.arrRef spec1) → X12 m ρ c b = E11 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)
abbrev W14 : Dev nD → Valuation τ sig (Elt F) := fun c => StableHlo.after hostOps2_1 (W13 m ρ c)
abbrev W15 : Dev nD → Valuation τ sig (Elt F) := fun c => StableHlo.after hostOps2_2 (W14 m ρ c)
abbrev W16 : Dev nD → Valuation τ sig (Elt F) := fun c => StableHlo.after hostOps2_3 (W15 m ρ c)
abbrev W17 : Dev nD → Valuation τ sig (Elt F) := fun c => StableHlo.after hostOps2_4 (W16 m ρ c)
abbrev W18 : Dev nD → Valuation τ sig (Elt F) := fun c => StableHlo.after hostOps2_5 (W17 m ρ c)
abbrev W19 : Dev nD → Valuation τ sig (Elt F) := fun c => StableHlo.after hostOps2_6 (W18 m ρ c)
abbrev W20 : Dev nD → Valuation τ sig (Elt F) := fun c => StableHlo.after hostOps2_7 (W19 m ρ c)
abbrev W21 : Dev nD → Valuation τ sig (Elt F) := fun c => StableHlo.after hostOps2_8 (W20 m ρ c)

/-- A host stretch leaves a buffer it does not write as it was. -/
theorem Wh (ops : List (HloOp τ sig (Elt F))) (Wl : List (Ref sig .tc))
    (hw : ops.Forall fun op => op.writes ⊆ (Wl.map (Proc.devRef (τ := τ) .tc)).toFinset)
    (V : Valuation τ sig (Elt F)) (r : Ref sig .tc) (h : r ∉ Wl) :
    StableHlo.after ops V (Proc.devRef .tc r) = V (Proc.devRef .tc r) :=
  StableHlo.after_of_writes_sub ops _ hw h

/-! ## The arguments end as launched -/

theorem W21_main_arg0 (c : Dev nD) : W21 m ρ c (Proc.devRef .tc main_arg0) = m ((c : Thread nD τ).loc main_arg0) :=
  (Wh hostOps2_8 hostOps2_8_W hostOps2_8_writes _ main_arg0 (by decide)).trans <|
  (Wh hostOps2_7 hostOps2_7_W hostOps2_7_writes _ main_arg0 (by decide)).trans <|
  (Wh hostOps2_6 hostOps2_6_W hostOps2_6_writes _ main_arg0 (by decide)).trans <|
  (Wh hostOps2_5 hostOps2_5_W hostOps2_5_writes _ main_arg0 (by decide)).trans <|
  (Wh hostOps2_4 hostOps2_4_W hostOps2_4_writes _ main_arg0 (by decide)).trans <|
  (Wh hostOps2_3 hostOps2_3_W hostOps2_3_writes _ main_arg0 (by decide)).trans <|
  (Wh hostOps2_2 hostOps2_2_W hostOps2_2_writes _ main_arg0 (by decide)).trans <|
  (Wh hostOps2_1 hostOps2_1_W hostOps2_1_writes _ main_arg0 (by decide)).trans <|
  (Wh hostOps2 hostOps2_W hostOps2_writes _ main_arg0 (by decide)).trans <|
  (W12_of_ne m ρ c main_arg0 (by decide)).trans <|
  (Wh hostOps1_8 hostOps1_8_W hostOps1_8_writes _ main_arg0 (by decide)).trans <|
  (Wh hostOps1_7 hostOps1_7_W hostOps1_7_writes _ main_arg0 (by decide)).trans <|
  (Wh hostOps1_6 hostOps1_6_W hostOps1_6_writes _ main_arg0 (by decide)).trans <|
  (Wh hostOps1_5 hostOps1_5_W hostOps1_5_writes _ main_arg0 (by decide)).trans <|
  (Wh hostOps1_4 hostOps1_4_W hostOps1_4_writes _ main_arg0 (by decide)).trans <|
  (Wh hostOps1_3 hostOps1_3_W hostOps1_3_writes _ main_arg0 (by decide)).trans <|
  (Wh hostOps1_2 hostOps1_2_W hostOps1_2_writes _ main_arg0 (by decide)).trans <|
  (Wh hostOps1_1 hostOps1_1_W hostOps1_1_writes _ main_arg0 (by decide)).trans <|
  (Wh hostOps1 hostOps1_W hostOps1_writes _ main_arg0 (by decide)).trans <|
  (W2_of_ne m ρ c main_arg0 (by decide)).trans <|
  (Wh hostOps0 hostOps0_W hostOps0_writes _ main_arg0 (by decide)).trans rfl
theorem W21_main_arg1 (c : Dev nD) : W21 m ρ c (Proc.devRef .tc main_arg1) = m ((c : Thread nD τ).loc main_arg1) :=
  (Wh hostOps2_8 hostOps2_8_W hostOps2_8_writes _ main_arg1 (by decide)).trans <|
  (Wh hostOps2_7 hostOps2_7_W hostOps2_7_writes _ main_arg1 (by decide)).trans <|
  (Wh hostOps2_6 hostOps2_6_W hostOps2_6_writes _ main_arg1 (by decide)).trans <|
  (Wh hostOps2_5 hostOps2_5_W hostOps2_5_writes _ main_arg1 (by decide)).trans <|
  (Wh hostOps2_4 hostOps2_4_W hostOps2_4_writes _ main_arg1 (by decide)).trans <|
  (Wh hostOps2_3 hostOps2_3_W hostOps2_3_writes _ main_arg1 (by decide)).trans <|
  (Wh hostOps2_2 hostOps2_2_W hostOps2_2_writes _ main_arg1 (by decide)).trans <|
  (Wh hostOps2_1 hostOps2_1_W hostOps2_1_writes _ main_arg1 (by decide)).trans <|
  (Wh hostOps2 hostOps2_W hostOps2_writes _ main_arg1 (by decide)).trans <|
  ((W12_arr m ρ c 0).trans (((dat1 (E11 m ρ) c).arrAt_in 0 rfl _).trans (A_eq1 (E11 m ρ) c 0))).trans <|
  (Wh hostOps1_8 hostOps1_8_W hostOps1_8_writes _ main_arg1 (by decide)).trans <|
  (Wh hostOps1_7 hostOps1_7_W hostOps1_7_writes _ main_arg1 (by decide)).trans <|
  (Wh hostOps1_6 hostOps1_6_W hostOps1_6_writes _ main_arg1 (by decide)).trans <|
  (Wh hostOps1_5 hostOps1_5_W hostOps1_5_writes _ main_arg1 (by decide)).trans <|
  (Wh hostOps1_4 hostOps1_4_W hostOps1_4_writes _ main_arg1 (by decide)).trans <|
  (Wh hostOps1_3 hostOps1_3_W hostOps1_3_writes _ main_arg1 (by decide)).trans <|
  (Wh hostOps1_2 hostOps1_2_W hostOps1_2_writes _ main_arg1 (by decide)).trans <|
  (Wh hostOps1_1 hostOps1_1_W hostOps1_1_writes _ main_arg1 (by decide)).trans <|
  (Wh hostOps1 hostOps1_W hostOps1_writes _ main_arg1 (by decide)).trans <|
  ((W2_arr m ρ c 0).trans (((dat0 (E1 m ρ) c).arrAt_in 0 rfl _).trans (A_eq0 (E1 m ρ) c 0))).trans <|
  (Wh hostOps0 hostOps0_W hostOps0_writes _ main_arg1 (by decide)).trans rfl
theorem W21_main_arg2 (c : Dev nD) : W21 m ρ c (Proc.devRef .tc main_arg2) = m ((c : Thread nD τ).loc main_arg2) :=
  (Wh hostOps2_8 hostOps2_8_W hostOps2_8_writes _ main_arg2 (by decide)).trans <|
  (Wh hostOps2_7 hostOps2_7_W hostOps2_7_writes _ main_arg2 (by decide)).trans <|
  (Wh hostOps2_6 hostOps2_6_W hostOps2_6_writes _ main_arg2 (by decide)).trans <|
  (Wh hostOps2_5 hostOps2_5_W hostOps2_5_writes _ main_arg2 (by decide)).trans <|
  (Wh hostOps2_4 hostOps2_4_W hostOps2_4_writes _ main_arg2 (by decide)).trans <|
  (Wh hostOps2_3 hostOps2_3_W hostOps2_3_writes _ main_arg2 (by decide)).trans <|
  (Wh hostOps2_2 hostOps2_2_W hostOps2_2_writes _ main_arg2 (by decide)).trans <|
  (Wh hostOps2_1 hostOps2_1_W hostOps2_1_writes _ main_arg2 (by decide)).trans <|
  (Wh hostOps2 hostOps2_W hostOps2_writes _ main_arg2 (by decide)).trans <|
  (W12_of_ne m ρ c main_arg2 (by decide)).trans <|
  (Wh hostOps1_8 hostOps1_8_W hostOps1_8_writes _ main_arg2 (by decide)).trans <|
  (Wh hostOps1_7 hostOps1_7_W hostOps1_7_writes _ main_arg2 (by decide)).trans <|
  (Wh hostOps1_6 hostOps1_6_W hostOps1_6_writes _ main_arg2 (by decide)).trans <|
  (Wh hostOps1_5 hostOps1_5_W hostOps1_5_writes _ main_arg2 (by decide)).trans <|
  (Wh hostOps1_4 hostOps1_4_W hostOps1_4_writes _ main_arg2 (by decide)).trans <|
  (Wh hostOps1_3 hostOps1_3_W hostOps1_3_writes _ main_arg2 (by decide)).trans <|
  (Wh hostOps1_2 hostOps1_2_W hostOps1_2_writes _ main_arg2 (by decide)).trans <|
  (Wh hostOps1_1 hostOps1_1_W hostOps1_1_writes _ main_arg2 (by decide)).trans <|
  (Wh hostOps1 hostOps1_W hostOps1_writes _ main_arg2 (by decide)).trans <|
  (W2_of_ne m ρ c main_arg2 (by decide)).trans <|
  (Wh hostOps0 hostOps0_W hostOps0_writes _ main_arg2 (by decide)).trans rfl
theorem W21_main_arg3 (c : Dev nD) : W21 m ρ c (Proc.devRef .tc main_arg3) = m ((c : Thread nD τ).loc main_arg3) :=
  (Wh hostOps2_8 hostOps2_8_W hostOps2_8_writes _ main_arg3 (by decide)).trans <|
  (Wh hostOps2_7 hostOps2_7_W hostOps2_7_writes _ main_arg3 (by decide)).trans <|
  (Wh hostOps2_6 hostOps2_6_W hostOps2_6_writes _ main_arg3 (by decide)).trans <|
  (Wh hostOps2_5 hostOps2_5_W hostOps2_5_writes _ main_arg3 (by decide)).trans <|
  (Wh hostOps2_4 hostOps2_4_W hostOps2_4_writes _ main_arg3 (by decide)).trans <|
  (Wh hostOps2_3 hostOps2_3_W hostOps2_3_writes _ main_arg3 (by decide)).trans <|
  (Wh hostOps2_2 hostOps2_2_W hostOps2_2_writes _ main_arg3 (by decide)).trans <|
  (Wh hostOps2_1 hostOps2_1_W hostOps2_1_writes _ main_arg3 (by decide)).trans <|
  (Wh hostOps2 hostOps2_W hostOps2_writes _ main_arg3 (by decide)).trans <|
  (W12_of_ne m ρ c main_arg3 (by decide)).trans <|
  (Wh hostOps1_8 hostOps1_8_W hostOps1_8_writes _ main_arg3 (by decide)).trans <|
  (Wh hostOps1_7 hostOps1_7_W hostOps1_7_writes _ main_arg3 (by decide)).trans <|
  (Wh hostOps1_6 hostOps1_6_W hostOps1_6_writes _ main_arg3 (by decide)).trans <|
  (Wh hostOps1_5 hostOps1_5_W hostOps1_5_writes _ main_arg3 (by decide)).trans <|
  (Wh hostOps1_4 hostOps1_4_W hostOps1_4_writes _ main_arg3 (by decide)).trans <|
  (Wh hostOps1_3 hostOps1_3_W hostOps1_3_writes _ main_arg3 (by decide)).trans <|
  (Wh hostOps1_2 hostOps1_2_W hostOps1_2_writes _ main_arg3 (by decide)).trans <|
  (Wh hostOps1_1 hostOps1_1_W hostOps1_1_writes _ main_arg3 (by decide)).trans <|
  (Wh hostOps1 hostOps1_W hostOps1_writes _ main_arg3 (by decide)).trans <|
  (W2_of_ne m ρ c main_arg3 (by decide)).trans <|
  (Wh hostOps0 hostOps0_W hostOps0_writes _ main_arg3 (by decide)).trans rfl
theorem W21_main_arg4 (c : Dev nD) : W21 m ρ c (Proc.devRef .tc main_arg4) = m ((c : Thread nD τ).loc main_arg4) :=
  (Wh hostOps2_8 hostOps2_8_W hostOps2_8_writes _ main_arg4 (by decide)).trans <|
  (Wh hostOps2_7 hostOps2_7_W hostOps2_7_writes _ main_arg4 (by decide)).trans <|
  (Wh hostOps2_6 hostOps2_6_W hostOps2_6_writes _ main_arg4 (by decide)).trans <|
  (Wh hostOps2_5 hostOps2_5_W hostOps2_5_writes _ main_arg4 (by decide)).trans <|
  (Wh hostOps2_4 hostOps2_4_W hostOps2_4_writes _ main_arg4 (by decide)).trans <|
  (Wh hostOps2_3 hostOps2_3_W hostOps2_3_writes _ main_arg4 (by decide)).trans <|
  (Wh hostOps2_2 hostOps2_2_W hostOps2_2_writes _ main_arg4 (by decide)).trans <|
  (Wh hostOps2_1 hostOps2_1_W hostOps2_1_writes _ main_arg4 (by decide)).trans <|
  (Wh hostOps2 hostOps2_W hostOps2_writes _ main_arg4 (by decide)).trans <|
  (W12_of_ne m ρ c main_arg4 (by decide)).trans <|
  (Wh hostOps1_8 hostOps1_8_W hostOps1_8_writes _ main_arg4 (by decide)).trans <|
  (Wh hostOps1_7 hostOps1_7_W hostOps1_7_writes _ main_arg4 (by decide)).trans <|
  (Wh hostOps1_6 hostOps1_6_W hostOps1_6_writes _ main_arg4 (by decide)).trans <|
  (Wh hostOps1_5 hostOps1_5_W hostOps1_5_writes _ main_arg4 (by decide)).trans <|
  (Wh hostOps1_4 hostOps1_4_W hostOps1_4_writes _ main_arg4 (by decide)).trans <|
  (Wh hostOps1_3 hostOps1_3_W hostOps1_3_writes _ main_arg4 (by decide)).trans <|
  (Wh hostOps1_2 hostOps1_2_W hostOps1_2_writes _ main_arg4 (by decide)).trans <|
  (Wh hostOps1_1 hostOps1_1_W hostOps1_1_writes _ main_arg4 (by decide)).trans <|
  (Wh hostOps1 hostOps1_W hostOps1_writes _ main_arg4 (by decide)).trans <|
  (W2_of_ne m ρ c main_arg4 (by decide)).trans <|
  (Wh hostOps0 hostOps0_W hostOps0_writes _ main_arg4 (by decide)).trans rfl
theorem W21_main_arg5 (c : Dev nD) : W21 m ρ c (Proc.devRef .tc main_arg5) = m ((c : Thread nD τ).loc main_arg5) :=
  (Wh hostOps2_8 hostOps2_8_W hostOps2_8_writes _ main_arg5 (by decide)).trans <|
  (Wh hostOps2_7 hostOps2_7_W hostOps2_7_writes _ main_arg5 (by decide)).trans <|
  (Wh hostOps2_6 hostOps2_6_W hostOps2_6_writes _ main_arg5 (by decide)).trans <|
  (Wh hostOps2_5 hostOps2_5_W hostOps2_5_writes _ main_arg5 (by decide)).trans <|
  (Wh hostOps2_4 hostOps2_4_W hostOps2_4_writes _ main_arg5 (by decide)).trans <|
  (Wh hostOps2_3 hostOps2_3_W hostOps2_3_writes _ main_arg5 (by decide)).trans <|
  (Wh hostOps2_2 hostOps2_2_W hostOps2_2_writes _ main_arg5 (by decide)).trans <|
  (Wh hostOps2_1 hostOps2_1_W hostOps2_1_writes _ main_arg5 (by decide)).trans <|
  (Wh hostOps2 hostOps2_W hostOps2_writes _ main_arg5 (by decide)).trans <|
  (W12_of_ne m ρ c main_arg5 (by decide)).trans <|
  (Wh hostOps1_8 hostOps1_8_W hostOps1_8_writes _ main_arg5 (by decide)).trans <|
  (Wh hostOps1_7 hostOps1_7_W hostOps1_7_writes _ main_arg5 (by decide)).trans <|
  (Wh hostOps1_6 hostOps1_6_W hostOps1_6_writes _ main_arg5 (by decide)).trans <|
  (Wh hostOps1_5 hostOps1_5_W hostOps1_5_writes _ main_arg5 (by decide)).trans <|
  (Wh hostOps1_4 hostOps1_4_W hostOps1_4_writes _ main_arg5 (by decide)).trans <|
  (Wh hostOps1_3 hostOps1_3_W hostOps1_3_writes _ main_arg5 (by decide)).trans <|
  (Wh hostOps1_2 hostOps1_2_W hostOps1_2_writes _ main_arg5 (by decide)).trans <|
  (Wh hostOps1_1 hostOps1_1_W hostOps1_1_writes _ main_arg5 (by decide)).trans <|
  (Wh hostOps1 hostOps1_W hostOps1_writes _ main_arg5 (by decide)).trans <|
  (W2_of_ne m ρ c main_arg5 (by decide)).trans <|
  (Wh hostOps0 hostOps0_W hostOps0_writes _ main_arg5 (by decide)).trans rfl
theorem W21_main_arg6 (c : Dev nD) : W21 m ρ c (Proc.devRef .tc main_arg6) = m ((c : Thread nD τ).loc main_arg6) :=
  (Wh hostOps2_8 hostOps2_8_W hostOps2_8_writes _ main_arg6 (by decide)).trans <|
  (Wh hostOps2_7 hostOps2_7_W hostOps2_7_writes _ main_arg6 (by decide)).trans <|
  (Wh hostOps2_6 hostOps2_6_W hostOps2_6_writes _ main_arg6 (by decide)).trans <|
  (Wh hostOps2_5 hostOps2_5_W hostOps2_5_writes _ main_arg6 (by decide)).trans <|
  (Wh hostOps2_4 hostOps2_4_W hostOps2_4_writes _ main_arg6 (by decide)).trans <|
  (Wh hostOps2_3 hostOps2_3_W hostOps2_3_writes _ main_arg6 (by decide)).trans <|
  (Wh hostOps2_2 hostOps2_2_W hostOps2_2_writes _ main_arg6 (by decide)).trans <|
  (Wh hostOps2_1 hostOps2_1_W hostOps2_1_writes _ main_arg6 (by decide)).trans <|
  (Wh hostOps2 hostOps2_W hostOps2_writes _ main_arg6 (by decide)).trans <|
  (W12_of_ne m ρ c main_arg6 (by decide)).trans <|
  (Wh hostOps1_8 hostOps1_8_W hostOps1_8_writes _ main_arg6 (by decide)).trans <|
  (Wh hostOps1_7 hostOps1_7_W hostOps1_7_writes _ main_arg6 (by decide)).trans <|
  (Wh hostOps1_6 hostOps1_6_W hostOps1_6_writes _ main_arg6 (by decide)).trans <|
  (Wh hostOps1_5 hostOps1_5_W hostOps1_5_writes _ main_arg6 (by decide)).trans <|
  (Wh hostOps1_4 hostOps1_4_W hostOps1_4_writes _ main_arg6 (by decide)).trans <|
  (Wh hostOps1_3 hostOps1_3_W hostOps1_3_writes _ main_arg6 (by decide)).trans <|
  (Wh hostOps1_2 hostOps1_2_W hostOps1_2_writes _ main_arg6 (by decide)).trans <|
  (Wh hostOps1_1 hostOps1_1_W hostOps1_1_writes _ main_arg6 (by decide)).trans <|
  (Wh hostOps1 hostOps1_W hostOps1_writes _ main_arg6 (by decide)).trans <|
  (W2_of_ne m ρ c main_arg6 (by decide)).trans <|
  (Wh hostOps0 hostOps0_W hostOps0_writes _ main_arg6 (by decide)).trans rfl
theorem W21_main_arg7 (c : Dev nD) : W21 m ρ c (Proc.devRef .tc main_arg7) = m ((c : Thread nD τ).loc main_arg7) :=
  (Wh hostOps2_8 hostOps2_8_W hostOps2_8_writes _ main_arg7 (by decide)).trans <|
  (Wh hostOps2_7 hostOps2_7_W hostOps2_7_writes _ main_arg7 (by decide)).trans <|
  (Wh hostOps2_6 hostOps2_6_W hostOps2_6_writes _ main_arg7 (by decide)).trans <|
  (Wh hostOps2_5 hostOps2_5_W hostOps2_5_writes _ main_arg7 (by decide)).trans <|
  (Wh hostOps2_4 hostOps2_4_W hostOps2_4_writes _ main_arg7 (by decide)).trans <|
  (Wh hostOps2_3 hostOps2_3_W hostOps2_3_writes _ main_arg7 (by decide)).trans <|
  (Wh hostOps2_2 hostOps2_2_W hostOps2_2_writes _ main_arg7 (by decide)).trans <|
  (Wh hostOps2_1 hostOps2_1_W hostOps2_1_writes _ main_arg7 (by decide)).trans <|
  (Wh hostOps2 hostOps2_W hostOps2_writes _ main_arg7 (by decide)).trans <|
  (W12_of_ne m ρ c main_arg7 (by decide)).trans <|
  (Wh hostOps1_8 hostOps1_8_W hostOps1_8_writes _ main_arg7 (by decide)).trans <|
  (Wh hostOps1_7 hostOps1_7_W hostOps1_7_writes _ main_arg7 (by decide)).trans <|
  (Wh hostOps1_6 hostOps1_6_W hostOps1_6_writes _ main_arg7 (by decide)).trans <|
  (Wh hostOps1_5 hostOps1_5_W hostOps1_5_writes _ main_arg7 (by decide)).trans <|
  (Wh hostOps1_4 hostOps1_4_W hostOps1_4_writes _ main_arg7 (by decide)).trans <|
  (Wh hostOps1_3 hostOps1_3_W hostOps1_3_writes _ main_arg7 (by decide)).trans <|
  (Wh hostOps1_2 hostOps1_2_W hostOps1_2_writes _ main_arg7 (by decide)).trans <|
  (Wh hostOps1_1 hostOps1_1_W hostOps1_1_writes _ main_arg7 (by decide)).trans <|
  (Wh hostOps1 hostOps1_W hostOps1_writes _ main_arg7 (by decide)).trans <|
  (W2_of_ne m ρ c main_arg7 (by decide)).trans <|
  (Wh hostOps0 hostOps0_W hostOps0_writes _ main_arg7 (by decide)).trans rfl
theorem W21_main_arg8 (c : Dev nD) : W21 m ρ c (Proc.devRef .tc main_arg8) = m ((c : Thread nD τ).loc main_arg8) :=
  (Wh hostOps2_8 hostOps2_8_W hostOps2_8_writes _ main_arg8 (by decide)).trans <|
  (Wh hostOps2_7 hostOps2_7_W hostOps2_7_writes _ main_arg8 (by decide)).trans <|
  (Wh hostOps2_6 hostOps2_6_W hostOps2_6_writes _ main_arg8 (by decide)).trans <|
  (Wh hostOps2_5 hostOps2_5_W hostOps2_5_writes _ main_arg8 (by decide)).trans <|
  (Wh hostOps2_4 hostOps2_4_W hostOps2_4_writes _ main_arg8 (by decide)).trans <|
  (Wh hostOps2_3 hostOps2_3_W hostOps2_3_writes _ main_arg8 (by decide)).trans <|
  (Wh hostOps2_2 hostOps2_2_W hostOps2_2_writes _ main_arg8 (by decide)).trans <|
  (Wh hostOps2_1 hostOps2_1_W hostOps2_1_writes _ main_arg8 (by decide)).trans <|
  (Wh hostOps2 hostOps2_W hostOps2_writes _ main_arg8 (by decide)).trans <|
  (W12_of_ne m ρ c main_arg8 (by decide)).trans <|
  (Wh hostOps1_8 hostOps1_8_W hostOps1_8_writes _ main_arg8 (by decide)).trans <|
  (Wh hostOps1_7 hostOps1_7_W hostOps1_7_writes _ main_arg8 (by decide)).trans <|
  (Wh hostOps1_6 hostOps1_6_W hostOps1_6_writes _ main_arg8 (by decide)).trans <|
  (Wh hostOps1_5 hostOps1_5_W hostOps1_5_writes _ main_arg8 (by decide)).trans <|
  (Wh hostOps1_4 hostOps1_4_W hostOps1_4_writes _ main_arg8 (by decide)).trans <|
  (Wh hostOps1_3 hostOps1_3_W hostOps1_3_writes _ main_arg8 (by decide)).trans <|
  (Wh hostOps1_2 hostOps1_2_W hostOps1_2_writes _ main_arg8 (by decide)).trans <|
  (Wh hostOps1_1 hostOps1_1_W hostOps1_1_writes _ main_arg8 (by decide)).trans <|
  (Wh hostOps1 hostOps1_W hostOps1_writes _ main_arg8 (by decide)).trans <|
  (W2_of_ne m ρ c main_arg8 (by decide)).trans <|
  (Wh hostOps0 hostOps0_W hostOps0_writes _ main_arg8 (by decide)).trans rfl
theorem W21_main_arg9 (c : Dev nD) : W21 m ρ c (Proc.devRef .tc main_arg9) = m ((c : Thread nD τ).loc main_arg9) :=
  (Wh hostOps2_8 hostOps2_8_W hostOps2_8_writes _ main_arg9 (by decide)).trans <|
  (Wh hostOps2_7 hostOps2_7_W hostOps2_7_writes _ main_arg9 (by decide)).trans <|
  (Wh hostOps2_6 hostOps2_6_W hostOps2_6_writes _ main_arg9 (by decide)).trans <|
  (Wh hostOps2_5 hostOps2_5_W hostOps2_5_writes _ main_arg9 (by decide)).trans <|
  (Wh hostOps2_4 hostOps2_4_W hostOps2_4_writes _ main_arg9 (by decide)).trans <|
  (Wh hostOps2_3 hostOps2_3_W hostOps2_3_writes _ main_arg9 (by decide)).trans <|
  (Wh hostOps2_2 hostOps2_2_W hostOps2_2_writes _ main_arg9 (by decide)).trans <|
  (Wh hostOps2_1 hostOps2_1_W hostOps2_1_writes _ main_arg9 (by decide)).trans <|
  (Wh hostOps2 hostOps2_W hostOps2_writes _ main_arg9 (by decide)).trans <|
  (W12_of_ne m ρ c main_arg9 (by decide)).trans <|
  (Wh hostOps1_8 hostOps1_8_W hostOps1_8_writes _ main_arg9 (by decide)).trans <|
  (Wh hostOps1_7 hostOps1_7_W hostOps1_7_writes _ main_arg9 (by decide)).trans <|
  (Wh hostOps1_6 hostOps1_6_W hostOps1_6_writes _ main_arg9 (by decide)).trans <|
  (Wh hostOps1_5 hostOps1_5_W hostOps1_5_writes _ main_arg9 (by decide)).trans <|
  (Wh hostOps1_4 hostOps1_4_W hostOps1_4_writes _ main_arg9 (by decide)).trans <|
  (Wh hostOps1_3 hostOps1_3_W hostOps1_3_writes _ main_arg9 (by decide)).trans <|
  (Wh hostOps1_2 hostOps1_2_W hostOps1_2_writes _ main_arg9 (by decide)).trans <|
  (Wh hostOps1_1 hostOps1_1_W hostOps1_1_writes _ main_arg9 (by decide)).trans <|
  (Wh hostOps1 hostOps1_W hostOps1_writes _ main_arg9 (by decide)).trans <|
  (W2_of_ne m ρ c main_arg9 (by decide)).trans <|
  (Wh hostOps0 hostOps0_W hostOps0_writes _ main_arg9 (by decide)).trans rfl
theorem W21_main_arg10 (c : Dev nD) : W21 m ρ c (Proc.devRef .tc main_arg10) = m ((c : Thread nD τ).loc main_arg10) :=
  (Wh hostOps2_8 hostOps2_8_W hostOps2_8_writes _ main_arg10 (by decide)).trans <|
  (Wh hostOps2_7 hostOps2_7_W hostOps2_7_writes _ main_arg10 (by decide)).trans <|
  (Wh hostOps2_6 hostOps2_6_W hostOps2_6_writes _ main_arg10 (by decide)).trans <|
  (Wh hostOps2_5 hostOps2_5_W hostOps2_5_writes _ main_arg10 (by decide)).trans <|
  (Wh hostOps2_4 hostOps2_4_W hostOps2_4_writes _ main_arg10 (by decide)).trans <|
  (Wh hostOps2_3 hostOps2_3_W hostOps2_3_writes _ main_arg10 (by decide)).trans <|
  (Wh hostOps2_2 hostOps2_2_W hostOps2_2_writes _ main_arg10 (by decide)).trans <|
  (Wh hostOps2_1 hostOps2_1_W hostOps2_1_writes _ main_arg10 (by decide)).trans <|
  (Wh hostOps2 hostOps2_W hostOps2_writes _ main_arg10 (by decide)).trans <|
  (W12_of_ne m ρ c main_arg10 (by decide)).trans <|
  (Wh hostOps1_8 hostOps1_8_W hostOps1_8_writes _ main_arg10 (by decide)).trans <|
  (Wh hostOps1_7 hostOps1_7_W hostOps1_7_writes _ main_arg10 (by decide)).trans <|
  (Wh hostOps1_6 hostOps1_6_W hostOps1_6_writes _ main_arg10 (by decide)).trans <|
  (Wh hostOps1_5 hostOps1_5_W hostOps1_5_writes _ main_arg10 (by decide)).trans <|
  (Wh hostOps1_4 hostOps1_4_W hostOps1_4_writes _ main_arg10 (by decide)).trans <|
  (Wh hostOps1_3 hostOps1_3_W hostOps1_3_writes _ main_arg10 (by decide)).trans <|
  (Wh hostOps1_2 hostOps1_2_W hostOps1_2_writes _ main_arg10 (by decide)).trans <|
  (Wh hostOps1_1 hostOps1_1_W hostOps1_1_writes _ main_arg10 (by decide)).trans <|
  (Wh hostOps1 hostOps1_W hostOps1_writes _ main_arg10 (by decide)).trans <|
  (W2_of_ne m ρ c main_arg10 (by decide)).trans <|
  (Wh hostOps0 hostOps0_W hostOps0_writes _ main_arg10 (by decide)).trans rfl
theorem W21_main_arg11 (c : Dev nD) : W21 m ρ c (Proc.devRef .tc main_arg11) = m ((c : Thread nD τ).loc main_arg11) :=
  (Wh hostOps2_8 hostOps2_8_W hostOps2_8_writes _ main_arg11 (by decide)).trans <|
  (Wh hostOps2_7 hostOps2_7_W hostOps2_7_writes _ main_arg11 (by decide)).trans <|
  (Wh hostOps2_6 hostOps2_6_W hostOps2_6_writes _ main_arg11 (by decide)).trans <|
  (Wh hostOps2_5 hostOps2_5_W hostOps2_5_writes _ main_arg11 (by decide)).trans <|
  (Wh hostOps2_4 hostOps2_4_W hostOps2_4_writes _ main_arg11 (by decide)).trans <|
  (Wh hostOps2_3 hostOps2_3_W hostOps2_3_writes _ main_arg11 (by decide)).trans <|
  (Wh hostOps2_2 hostOps2_2_W hostOps2_2_writes _ main_arg11 (by decide)).trans <|
  (Wh hostOps2_1 hostOps2_1_W hostOps2_1_writes _ main_arg11 (by decide)).trans <|
  (Wh hostOps2 hostOps2_W hostOps2_writes _ main_arg11 (by decide)).trans <|
  (W12_of_ne m ρ c main_arg11 (by decide)).trans <|
  (Wh hostOps1_8 hostOps1_8_W hostOps1_8_writes _ main_arg11 (by decide)).trans <|
  (Wh hostOps1_7 hostOps1_7_W hostOps1_7_writes _ main_arg11 (by decide)).trans <|
  (Wh hostOps1_6 hostOps1_6_W hostOps1_6_writes _ main_arg11 (by decide)).trans <|
  (Wh hostOps1_5 hostOps1_5_W hostOps1_5_writes _ main_arg11 (by decide)).trans <|
  (Wh hostOps1_4 hostOps1_4_W hostOps1_4_writes _ main_arg11 (by decide)).trans <|
  (Wh hostOps1_3 hostOps1_3_W hostOps1_3_writes _ main_arg11 (by decide)).trans <|
  (Wh hostOps1_2 hostOps1_2_W hostOps1_2_writes _ main_arg11 (by decide)).trans <|
  (Wh hostOps1_1 hostOps1_1_W hostOps1_1_writes _ main_arg11 (by decide)).trans <|
  (Wh hostOps1 hostOps1_W hostOps1_writes _ main_arg11 (by decide)).trans <|
  (W2_of_ne m ρ c main_arg11 (by decide)).trans <|
  (Wh hostOps0 hostOps0_W hostOps0_writes _ main_arg11 (by decide)).trans rfl
theorem W21_main_arg12 (c : Dev nD) : W21 m ρ c (Proc.devRef .tc main_arg12) = m ((c : Thread nD τ).loc main_arg12) :=
  (Wh hostOps2_8 hostOps2_8_W hostOps2_8_writes _ main_arg12 (by decide)).trans <|
  (Wh hostOps2_7 hostOps2_7_W hostOps2_7_writes _ main_arg12 (by decide)).trans <|
  (Wh hostOps2_6 hostOps2_6_W hostOps2_6_writes _ main_arg12 (by decide)).trans <|
  (Wh hostOps2_5 hostOps2_5_W hostOps2_5_writes _ main_arg12 (by decide)).trans <|
  (Wh hostOps2_4 hostOps2_4_W hostOps2_4_writes _ main_arg12 (by decide)).trans <|
  (Wh hostOps2_3 hostOps2_3_W hostOps2_3_writes _ main_arg12 (by decide)).trans <|
  (Wh hostOps2_2 hostOps2_2_W hostOps2_2_writes _ main_arg12 (by decide)).trans <|
  (Wh hostOps2_1 hostOps2_1_W hostOps2_1_writes _ main_arg12 (by decide)).trans <|
  (Wh hostOps2 hostOps2_W hostOps2_writes _ main_arg12 (by decide)).trans <|
  (W12_of_ne m ρ c main_arg12 (by decide)).trans <|
  (Wh hostOps1_8 hostOps1_8_W hostOps1_8_writes _ main_arg12 (by decide)).trans <|
  (Wh hostOps1_7 hostOps1_7_W hostOps1_7_writes _ main_arg12 (by decide)).trans <|
  (Wh hostOps1_6 hostOps1_6_W hostOps1_6_writes _ main_arg12 (by decide)).trans <|
  (Wh hostOps1_5 hostOps1_5_W hostOps1_5_writes _ main_arg12 (by decide)).trans <|
  (Wh hostOps1_4 hostOps1_4_W hostOps1_4_writes _ main_arg12 (by decide)).trans <|
  (Wh hostOps1_3 hostOps1_3_W hostOps1_3_writes _ main_arg12 (by decide)).trans <|
  (Wh hostOps1_2 hostOps1_2_W hostOps1_2_writes _ main_arg12 (by decide)).trans <|
  (Wh hostOps1_1 hostOps1_1_W hostOps1_1_writes _ main_arg12 (by decide)).trans <|
  (Wh hostOps1 hostOps1_W hostOps1_writes _ main_arg12 (by decide)).trans <|
  (W2_of_ne m ρ c main_arg12 (by decide)).trans <|
  (Wh hostOps0 hostOps0_W hostOps0_writes _ main_arg12 (by decide)).trans rfl
theorem W21_main_arg13 (c : Dev nD) : W21 m ρ c (Proc.devRef .tc main_arg13) = m ((c : Thread nD τ).loc main_arg13) :=
  (Wh hostOps2_8 hostOps2_8_W hostOps2_8_writes _ main_arg13 (by decide)).trans <|
  (Wh hostOps2_7 hostOps2_7_W hostOps2_7_writes _ main_arg13 (by decide)).trans <|
  (Wh hostOps2_6 hostOps2_6_W hostOps2_6_writes _ main_arg13 (by decide)).trans <|
  (Wh hostOps2_5 hostOps2_5_W hostOps2_5_writes _ main_arg13 (by decide)).trans <|
  (Wh hostOps2_4 hostOps2_4_W hostOps2_4_writes _ main_arg13 (by decide)).trans <|
  (Wh hostOps2_3 hostOps2_3_W hostOps2_3_writes _ main_arg13 (by decide)).trans <|
  (Wh hostOps2_2 hostOps2_2_W hostOps2_2_writes _ main_arg13 (by decide)).trans <|
  (Wh hostOps2_1 hostOps2_1_W hostOps2_1_writes _ main_arg13 (by decide)).trans <|
  (Wh hostOps2 hostOps2_W hostOps2_writes _ main_arg13 (by decide)).trans <|
  (W12_of_ne m ρ c main_arg13 (by decide)).trans <|
  (Wh hostOps1_8 hostOps1_8_W hostOps1_8_writes _ main_arg13 (by decide)).trans <|
  (Wh hostOps1_7 hostOps1_7_W hostOps1_7_writes _ main_arg13 (by decide)).trans <|
  (Wh hostOps1_6 hostOps1_6_W hostOps1_6_writes _ main_arg13 (by decide)).trans <|
  (Wh hostOps1_5 hostOps1_5_W hostOps1_5_writes _ main_arg13 (by decide)).trans <|
  (Wh hostOps1_4 hostOps1_4_W hostOps1_4_writes _ main_arg13 (by decide)).trans <|
  (Wh hostOps1_3 hostOps1_3_W hostOps1_3_writes _ main_arg13 (by decide)).trans <|
  (Wh hostOps1_2 hostOps1_2_W hostOps1_2_writes _ main_arg13 (by decide)).trans <|
  (Wh hostOps1_1 hostOps1_1_W hostOps1_1_writes _ main_arg13 (by decide)).trans <|
  (Wh hostOps1 hostOps1_W hostOps1_writes _ main_arg13 (by decide)).trans <|
  (W2_of_ne m ρ c main_arg13 (by decide)).trans <|
  (Wh hostOps0 hostOps0_W hostOps0_writes _ main_arg13 (by decide)).trans rfl
theorem W21_main_arg14 (c : Dev nD) : W21 m ρ c (Proc.devRef .tc main_arg14) = m ((c : Thread nD τ).loc main_arg14) :=
  (Wh hostOps2_8 hostOps2_8_W hostOps2_8_writes _ main_arg14 (by decide)).trans <|
  (Wh hostOps2_7 hostOps2_7_W hostOps2_7_writes _ main_arg14 (by decide)).trans <|
  (Wh hostOps2_6 hostOps2_6_W hostOps2_6_writes _ main_arg14 (by decide)).trans <|
  (Wh hostOps2_5 hostOps2_5_W hostOps2_5_writes _ main_arg14 (by decide)).trans <|
  (Wh hostOps2_4 hostOps2_4_W hostOps2_4_writes _ main_arg14 (by decide)).trans <|
  (Wh hostOps2_3 hostOps2_3_W hostOps2_3_writes _ main_arg14 (by decide)).trans <|
  (Wh hostOps2_2 hostOps2_2_W hostOps2_2_writes _ main_arg14 (by decide)).trans <|
  (Wh hostOps2_1 hostOps2_1_W hostOps2_1_writes _ main_arg14 (by decide)).trans <|
  (Wh hostOps2 hostOps2_W hostOps2_writes _ main_arg14 (by decide)).trans <|
  (W12_of_ne m ρ c main_arg14 (by decide)).trans <|
  (Wh hostOps1_8 hostOps1_8_W hostOps1_8_writes _ main_arg14 (by decide)).trans <|
  (Wh hostOps1_7 hostOps1_7_W hostOps1_7_writes _ main_arg14 (by decide)).trans <|
  (Wh hostOps1_6 hostOps1_6_W hostOps1_6_writes _ main_arg14 (by decide)).trans <|
  (Wh hostOps1_5 hostOps1_5_W hostOps1_5_writes _ main_arg14 (by decide)).trans <|
  (Wh hostOps1_4 hostOps1_4_W hostOps1_4_writes _ main_arg14 (by decide)).trans <|
  (Wh hostOps1_3 hostOps1_3_W hostOps1_3_writes _ main_arg14 (by decide)).trans <|
  (Wh hostOps1_2 hostOps1_2_W hostOps1_2_writes _ main_arg14 (by decide)).trans <|
  (Wh hostOps1_1 hostOps1_1_W hostOps1_1_writes _ main_arg14 (by decide)).trans <|
  (Wh hostOps1 hostOps1_W hostOps1_writes _ main_arg14 (by decide)).trans <|
  (W2_of_ne m ρ c main_arg14 (by decide)).trans <|
  (Wh hostOps0 hostOps0_W hostOps0_writes _ main_arg14 (by decide)).trans rfl
theorem W21_main_arg15 (c : Dev nD) : W21 m ρ c (Proc.devRef .tc main_arg15) = m ((c : Thread nD τ).loc main_arg15) :=
  (Wh hostOps2_8 hostOps2_8_W hostOps2_8_writes _ main_arg15 (by decide)).trans <|
  (Wh hostOps2_7 hostOps2_7_W hostOps2_7_writes _ main_arg15 (by decide)).trans <|
  (Wh hostOps2_6 hostOps2_6_W hostOps2_6_writes _ main_arg15 (by decide)).trans <|
  (Wh hostOps2_5 hostOps2_5_W hostOps2_5_writes _ main_arg15 (by decide)).trans <|
  (Wh hostOps2_4 hostOps2_4_W hostOps2_4_writes _ main_arg15 (by decide)).trans <|
  (Wh hostOps2_3 hostOps2_3_W hostOps2_3_writes _ main_arg15 (by decide)).trans <|
  (Wh hostOps2_2 hostOps2_2_W hostOps2_2_writes _ main_arg15 (by decide)).trans <|
  (Wh hostOps2_1 hostOps2_1_W hostOps2_1_writes _ main_arg15 (by decide)).trans <|
  (Wh hostOps2 hostOps2_W hostOps2_writes _ main_arg15 (by decide)).trans <|
  (W12_of_ne m ρ c main_arg15 (by decide)).trans <|
  (Wh hostOps1_8 hostOps1_8_W hostOps1_8_writes _ main_arg15 (by decide)).trans <|
  (Wh hostOps1_7 hostOps1_7_W hostOps1_7_writes _ main_arg15 (by decide)).trans <|
  (Wh hostOps1_6 hostOps1_6_W hostOps1_6_writes _ main_arg15 (by decide)).trans <|
  (Wh hostOps1_5 hostOps1_5_W hostOps1_5_writes _ main_arg15 (by decide)).trans <|
  (Wh hostOps1_4 hostOps1_4_W hostOps1_4_writes _ main_arg15 (by decide)).trans <|
  (Wh hostOps1_3 hostOps1_3_W hostOps1_3_writes _ main_arg15 (by decide)).trans <|
  (Wh hostOps1_2 hostOps1_2_W hostOps1_2_writes _ main_arg15 (by decide)).trans <|
  (Wh hostOps1_1 hostOps1_1_W hostOps1_1_writes _ main_arg15 (by decide)).trans <|
  (Wh hostOps1 hostOps1_W hostOps1_writes _ main_arg15 (by decide)).trans <|
  (W2_of_ne m ρ c main_arg15 (by decide)).trans <|
  (Wh hostOps0 hostOps0_W hostOps0_writes _ main_arg15 (by decide)).trans rfl
theorem W21_main_arg16 (c : Dev nD) : W21 m ρ c (Proc.devRef .tc main_arg16) = m ((c : Thread nD τ).loc main_arg16) :=
  (Wh hostOps2_8 hostOps2_8_W hostOps2_8_writes _ main_arg16 (by decide)).trans <|
  (Wh hostOps2_7 hostOps2_7_W hostOps2_7_writes _ main_arg16 (by decide)).trans <|
  (Wh hostOps2_6 hostOps2_6_W hostOps2_6_writes _ main_arg16 (by decide)).trans <|
  (Wh hostOps2_5 hostOps2_5_W hostOps2_5_writes _ main_arg16 (by decide)).trans <|
  (Wh hostOps2_4 hostOps2_4_W hostOps2_4_writes _ main_arg16 (by decide)).trans <|
  (Wh hostOps2_3 hostOps2_3_W hostOps2_3_writes _ main_arg16 (by decide)).trans <|
  (Wh hostOps2_2 hostOps2_2_W hostOps2_2_writes _ main_arg16 (by decide)).trans <|
  (Wh hostOps2_1 hostOps2_1_W hostOps2_1_writes _ main_arg16 (by decide)).trans <|
  (Wh hostOps2 hostOps2_W hostOps2_writes _ main_arg16 (by decide)).trans <|
  (W12_of_ne m ρ c main_arg16 (by decide)).trans <|
  (Wh hostOps1_8 hostOps1_8_W hostOps1_8_writes _ main_arg16 (by decide)).trans <|
  (Wh hostOps1_7 hostOps1_7_W hostOps1_7_writes _ main_arg16 (by decide)).trans <|
  (Wh hostOps1_6 hostOps1_6_W hostOps1_6_writes _ main_arg16 (by decide)).trans <|
  (Wh hostOps1_5 hostOps1_5_W hostOps1_5_writes _ main_arg16 (by decide)).trans <|
  (Wh hostOps1_4 hostOps1_4_W hostOps1_4_writes _ main_arg16 (by decide)).trans <|
  (Wh hostOps1_3 hostOps1_3_W hostOps1_3_writes _ main_arg16 (by decide)).trans <|
  (Wh hostOps1_2 hostOps1_2_W hostOps1_2_writes _ main_arg16 (by decide)).trans <|
  (Wh hostOps1_1 hostOps1_1_W hostOps1_1_writes _ main_arg16 (by decide)).trans <|
  (Wh hostOps1 hostOps1_W hostOps1_writes _ main_arg16 (by decide)).trans <|
  (W2_of_ne m ρ c main_arg16 (by decide)).trans <|
  (Wh hostOps0 hostOps0_W hostOps0_writes _ main_arg16 (by decide)).trans rfl
theorem W21_main_arg17 (c : Dev nD) : W21 m ρ c (Proc.devRef .tc main_arg17) = m ((c : Thread nD τ).loc main_arg17) :=
  (Wh hostOps2_8 hostOps2_8_W hostOps2_8_writes _ main_arg17 (by decide)).trans <|
  (Wh hostOps2_7 hostOps2_7_W hostOps2_7_writes _ main_arg17 (by decide)).trans <|
  (Wh hostOps2_6 hostOps2_6_W hostOps2_6_writes _ main_arg17 (by decide)).trans <|
  (Wh hostOps2_5 hostOps2_5_W hostOps2_5_writes _ main_arg17 (by decide)).trans <|
  (Wh hostOps2_4 hostOps2_4_W hostOps2_4_writes _ main_arg17 (by decide)).trans <|
  (Wh hostOps2_3 hostOps2_3_W hostOps2_3_writes _ main_arg17 (by decide)).trans <|
  (Wh hostOps2_2 hostOps2_2_W hostOps2_2_writes _ main_arg17 (by decide)).trans <|
  (Wh hostOps2_1 hostOps2_1_W hostOps2_1_writes _ main_arg17 (by decide)).trans <|
  (Wh hostOps2 hostOps2_W hostOps2_writes _ main_arg17 (by decide)).trans <|
  (W12_of_ne m ρ c main_arg17 (by decide)).trans <|
  (Wh hostOps1_8 hostOps1_8_W hostOps1_8_writes _ main_arg17 (by decide)).trans <|
  (Wh hostOps1_7 hostOps1_7_W hostOps1_7_writes _ main_arg17 (by decide)).trans <|
  (Wh hostOps1_6 hostOps1_6_W hostOps1_6_writes _ main_arg17 (by decide)).trans <|
  (Wh hostOps1_5 hostOps1_5_W hostOps1_5_writes _ main_arg17 (by decide)).trans <|
  (Wh hostOps1_4 hostOps1_4_W hostOps1_4_writes _ main_arg17 (by decide)).trans <|
  (Wh hostOps1_3 hostOps1_3_W hostOps1_3_writes _ main_arg17 (by decide)).trans <|
  (Wh hostOps1_2 hostOps1_2_W hostOps1_2_writes _ main_arg17 (by decide)).trans <|
  (Wh hostOps1_1 hostOps1_1_W hostOps1_1_writes _ main_arg17 (by decide)).trans <|
  (Wh hostOps1 hostOps1_W hostOps1_writes _ main_arg17 (by decide)).trans <|
  (W2_of_ne m ρ c main_arg17 (by decide)).trans <|
  (Wh hostOps0 hostOps0_W hostOps0_writes _ main_arg17 (by decide)).trans rfl
theorem W21_main_arg18 (c : Dev nD) : W21 m ρ c (Proc.devRef .tc main_arg18) = m ((c : Thread nD τ).loc main_arg18) :=
  (Wh hostOps2_8 hostOps2_8_W hostOps2_8_writes _ main_arg18 (by decide)).trans <|
  (Wh hostOps2_7 hostOps2_7_W hostOps2_7_writes _ main_arg18 (by decide)).trans <|
  (Wh hostOps2_6 hostOps2_6_W hostOps2_6_writes _ main_arg18 (by decide)).trans <|
  (Wh hostOps2_5 hostOps2_5_W hostOps2_5_writes _ main_arg18 (by decide)).trans <|
  (Wh hostOps2_4 hostOps2_4_W hostOps2_4_writes _ main_arg18 (by decide)).trans <|
  (Wh hostOps2_3 hostOps2_3_W hostOps2_3_writes _ main_arg18 (by decide)).trans <|
  (Wh hostOps2_2 hostOps2_2_W hostOps2_2_writes _ main_arg18 (by decide)).trans <|
  (Wh hostOps2_1 hostOps2_1_W hostOps2_1_writes _ main_arg18 (by decide)).trans <|
  (Wh hostOps2 hostOps2_W hostOps2_writes _ main_arg18 (by decide)).trans <|
  (W12_of_ne m ρ c main_arg18 (by decide)).trans <|
  (Wh hostOps1_8 hostOps1_8_W hostOps1_8_writes _ main_arg18 (by decide)).trans <|
  (Wh hostOps1_7 hostOps1_7_W hostOps1_7_writes _ main_arg18 (by decide)).trans <|
  (Wh hostOps1_6 hostOps1_6_W hostOps1_6_writes _ main_arg18 (by decide)).trans <|
  (Wh hostOps1_5 hostOps1_5_W hostOps1_5_writes _ main_arg18 (by decide)).trans <|
  (Wh hostOps1_4 hostOps1_4_W hostOps1_4_writes _ main_arg18 (by decide)).trans <|
  (Wh hostOps1_3 hostOps1_3_W hostOps1_3_writes _ main_arg18 (by decide)).trans <|
  (Wh hostOps1_2 hostOps1_2_W hostOps1_2_writes _ main_arg18 (by decide)).trans <|
  (Wh hostOps1_1 hostOps1_1_W hostOps1_1_writes _ main_arg18 (by decide)).trans <|
  (Wh hostOps1 hostOps1_W hostOps1_writes _ main_arg18 (by decide)).trans <|
  (W2_of_ne m ρ c main_arg18 (by decide)).trans <|
  (Wh hostOps0 hostOps0_W hostOps0_writes _ main_arg18 (by decide)).trans rfl

/-! ## The proof data family and the thread state -/

abbrev tabs : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) tabs p) c
  | ⟨0, _⟩ => fun c => dat0 (E1 m ρ) c
  | ⟨1, _⟩ => fun c => dat1 (E11 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0 over the thread state: entered from every unscoped buffer at the contents before it, left at the contents
    after it. Its arrays are split out of the unscoped buffers and put back at the exit contents; the generator register
    and the scoped buffers go into the invariant and come out; nothing is owed; the kernel has no semaphore of its own. -/
def reg0 : Pipeline.RegionSeg (pcfgs (F := F)) tabs (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tabs (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (E1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ (Pipeline.ΦA spec0 c : sProp 𝕄) from hout0 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the contents
    after it. Its arrays are split out of the unscoped buffers and put back at the exit contents; the generator register
    and the scoped buffers go into the invariant and come out; nothing is owed; the kernel has no semaphore of its own. -/
def reg1 : Pipeline.RegionSeg (pcfgs (F := F)) tabs (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (E11 m ρ c)
  hentry c := by
    rw [Pipeline.ownSems0_none]
    have hsplit := Pipeline.arrays_of_unscopedBufs (p := 1) (pcfgs (F := F)) tabs (pdats m ρ) launch1.win launch1.arr_whole c
      ((pdats m ρ 1 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (E11 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (E11 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m ρ) ((pdats m ρ 1 c).share_full fun _ => rfl)
      (E11 m ρ c) (X12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev items : List (Pipeline.Seg (pcfgs (F := F)) tabs (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .host (hseg hostOps2_5 hostOps2_5_sub hostOps2_5_fresh (W17 m ρ)),
    .host (hseg hostOps2_6 hostOps2_6_sub hostOps2_6_fresh (W18 m ρ)),
    .host (hseg hostOps2_7 hostOps2_7_sub hostOps2_7_fresh (W19 m ρ)),
    .host (hseg hostOps2_8 hostOps2_8_sub hostOps2_8_fresh (W20 m ρ)) ]

set_option backward.isDefEq.respectTransparency.types false in
set_option maxHeartbeats 4000000 in
/-- THE RUN. From any memory with zero counters every weakly fair execution of @main terminates, nothing faulting, and
    every unscoped buffer ends at the last contents of the chain above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) tabs (pdats m ρ) () cellOf_inj emb₁ defs₀ 𝒱₀ L lv m ρ main (items m ρ)
    (fun c Q => by
      rewrite [main_chain c, Pipeline.Seg.run_eq_chain,
        show (items m ρ).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W21 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => sep_mono .rfl (show R c ⊢ _ from by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨Hh, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c),
      (h c _ (mem_uc main_arg9 (by decide))).trans (W21_main_arg9 m ρ c),
      (h c _ (mem_uc main_arg10 (by decide))).trans (W21_main_arg10 m ρ c),
      (h c _ (mem_uc main_arg11 (by decide))).trans (W21_main_arg11 m ρ c),
      (h c _ (mem_uc main_arg12 (by decide))).trans (W21_main_arg12 m ρ c),
      (h c _ (mem_uc main_arg13 (by decide))).trans (W21_main_arg13 m ρ c),
      (h c _ (mem_uc main_arg14 (by decide))).trans (W21_main_arg14 m ρ c),
      (h c _ (mem_uc main_arg15 (by decide))).trans (W21_main_arg15 m ρ c),
      (h c _ (mem_uc main_arg16 (by decide))).trans (W21_main_arg16 m ρ c),
      (h c _ (mem_uc main_arg17 (by decide))).trans (W21_main_arg17 m ρ c),
      (h c _ (mem_uc main_arg18 (by decide))).trans (W21_main_arg18 m ρ c)⟩) (run_all m ρ)

end Cert.KernelIdeal.Hand

end
-- ==== Proof.RefStages.lean ====
/- The reference's results as staged pure functions of its argument arrays.
   In formulas, with N = 16384 nodes and 64 features: deg = adj · 1 (the row sums of the adjacency);
   pool(adj, h) = (adj · h) / deg row by row (the neighbour average); one block is
   half(p, W, b, g, be) = max(g ⊙ (z − mean z) ⊙ rsqrt(var z + 1e-5) + be, 0) with z = p · W + b, the mean and the
   (biased) variance taken down each column; a layer is two blocks; the network is two layers, each fed the neighbour
   average of the features before it; the readout is graph_pool · h. Each stage is written as the composition of the host
   operations exactly as the program applies them (nothing simplified), so that the program's run meets it by unfolding
   alone. The terms are stated for any float family and are read at the extended reals where the two programs are compared. -/
import proofs.«153131_j8177617732272_2_alg».proof.Proof.Gen.ReferenceIdeal
import Idealize.ShloMosaic.PureOps

noncomputable section

namespace Cert.ReferenceIdeal.Hand

open Cert.ReferenceIdeal Cert.ReferenceIdeal.Gen Idealize.ShloMosaic

variable {F : FTy → Type} [FloatOps F]

/-- The row sums of the adjacency, as its product with a column of ones: a column [N, 1]. -/
def deg (adj : FVec F S16384x16384 .f32) : FVec F S16384x1 .f32 :=
  Host.dotGeneral (F := F) dot_S16384x16384_S16384x1_S16384x1_1_0_0_1_n_n none adj (broadcastInDim S16384x1 ![] bcast_S_S16384x1 (constant (F := F) S_ .f32 0x3F800000#32))

/-- The neighbour average: the adjacency times the features, each row divided by that row's sum. -/
def pool (adj : FVec F S16384x16384 .f32) (h : FVec F S16384x64 .f32) : FVec F S16384x64 .f32 :=
  Host.divf (F := F) (Host.dotGeneral (F := F) dot_S16384x16384_S16384x64_S16384x64_1_0_0_1_n_n none adj h) (broadcastInDim S16384x64 ![0, 1] bcast_S16384x1_S16384x64_0_1 (deg adj))

/-- One block: z = p · W + b; the column mean of z (its column sum over N); the column variance of z (the column sum of
    the squared deviations from the column sum over N, over N − 0, the quotient kept only where that divisor is positive
    and a not-a-number otherwise — the guard the outlined variance carries); then
    g ⊙ (z − mean) ⊙ rsqrt(variance + 1e-5) + be, and its positive part. The term is the program's operations composed,
    z written out at each of its six uses. -/
def half (p : FVec F S16384x64 .f32) (W : FVec F S64x64 .f32) (b g be : FVec F S64 .f32) : FVec F S16384x64 .f32 :=
  maximumf (addf (mulf (mulf (broadcastInDim S16384x64 ![0, 1] bcast_S1x64_S16384x64_0_1 (broadcastInDim S1x64 ![1] bcast_S64_S1x64_1 g)) (subf (addf (Host.dotGeneral (F := F) dot_S16384x64_S64x64_S16384x64_1_0_0_1_n_n none p W) (broadcastInDim S16384x64 ![0, 1] bcast_S1x64_S16384x64_0_1 (broadcastInDim S1x64 ![1] bcast_S64_S1x64_1 b))) (broadcastInDim S16384x64 ![0, 1] bcast_S1x64_S16384x64_0_1 (broadcastInDim S1x64 ![1] bcast_S64_S1x64_1 (Host.divf (F := F) (Host.reduceAdd (F := F) (addf (Host.dotGeneral (F := F) dot_S16384x64_S64x64_S16384x64_1_0_0_1_n_n none p W) (broadcastInDim S16384x64 ![0, 1] bcast_S1x64_S16384x64_0_1 (broadcastInDim S1x64 ![1] bcast_S64_S1x64_1 b))) (constant (F := F) S_ .f32 0x00000000#32) reducesTo_S16384x64_S64_d0 h_S_) (broadcastInDim S64 ![] bcast_S_S64 (constant (F := F) S_ .f32 0x46800000#32))))))) (broadcastInDim S16384x64 ![0, 1] bcast_S1x64_S16384x64_0_1 (broadcastInDim S1x64 ![1] bcast_S64_S1x64_1 (Host.rsqrt (F := F) (addf (select (broadcastInDim S64 ![] bcast_S_S64 (cmpf .ogt (subf (constant (F := F) S_ .f32 0x46800000#32) (sitofp (F := F) .f32 (constantI S_ 32 0#32))) (constant (F := F) S_ .f32 0x00000000#32))) (Host.divf (F := F) (Host.reduceAdd (F := F) (mulf (subf (addf (Host.dotGeneral (F := F) dot_S16384x64_S64x64_S16384x64_1_0_0_1_n_n none p W) (broadcastInDim S16384x64 ![0, 1] bcast_S1x64_S16384x64_0_1 (broadcastInDim S1x64 ![1] bcast_S64_S1x64_1 b))) (broadcastInDim S16384x64 ![0, 1] bcast_S1x64_S16384x64_0_1 (Host.divf (F := F) (broadcastInDim S1x64 ![1] bcast_S64_S1x64_1 (Host.reduceAdd (F := F) (addf (Host.dotGeneral (F := F) dot_S16384x64_S64x64_S16384x64_1_0_0_1_n_n none p W) (broadcastInDim S16384x64 ![0, 1] bcast_S1x64_S16384x64_0_1 (broadcastInDim S1x64 ![1] bcast_S64_S1x64_1 b))) (constant (F := F) S_ .f32 0x00000000#32) reducesTo_S16384x64_S64_d0 h_S_)) (broadcastInDim S1x64 ![] bcast_S_S1x64 (constant (F := F) S_ .f32 0x46800000#32))))) (subf (addf (Host.dotGeneral (F := F) dot_S16384x64_S64x64_S16384x64_1_0_0_1_n_n none p W) (broadcastInDim S16384x64 ![0, 1] bcast_S1x64_S16384x64_0_1 (broadcastInDim S1x64 ![1] bcast_S64_S1x64_1 b))) (broadcastInDim S16384x64 ![0, 1] bcast_S1x64_S16384x64_0_1 (Host.divf (F := F) (broadcastInDim S1x64 ![1] bcast_S64_S1x64_1 (Host.reduceAdd (F := F) (addf (Host.dotGeneral (F := F) dot_S16384x64_S64x64_S16384x64_1_0_0_1_n_n none p W) (broadcastInDim S16384x64 ![0, 1] bcast_S1x64_S16384x64_0_1 (broadcastInDim S1x64 ![1] bcast_S64_S1x64_1 b))) (constant (F := F) S_ .f32 0x00000000#32) reducesTo_S16384x64_S64_d0 h_S_)) (broadcastInDim S1x64 ![] bcast_S_S1x64 (constant (F := F) S_ .f32 0x46800000#32)))))) (constant (F := F) S_ .f32 0x00000000#32) reducesTo_S16384x64_S64_d0 h_S_) (broadcastInDim S64 ![] bcast_S_S64 (subf (constant (F := F) S_ .f32 0x46800000#32) (sitofp (F := F) .f32 (constantI S_ 32 0#32))))) (broadcastInDim S64 ![] bcast_S_S64 (id (constant (F := F) S_ .f32 0x7FC00000#32)))) (broadcastInDim S64 ![] bcast_S_S64 (constant (F := F) S_ .f32 0x3727C5AC#32))))))) (broadcastInDim S16384x64 ![0, 1] bcast_S1x64_S16384x64_0_1 (broadcastInDim S1x64 ![1] bcast_S64_S1x64_1 be))) (broadcastInDim S16384x64 ![] bcast_S_S16384x64 (constant (F := F) S_ .f32 0x00000000#32))

/-- Layer 0: two blocks, the second fed the first. -/
def layer0 (p : FVec F S16384x64 .f32) (W1 : FVec F S64x64 .f32) (b1 g1 be1 : FVec F S64 .f32)
    (W2 : FVec F S64x64 .f32) (b2 g be : FVec F S64 .f32) : FVec F S16384x64 .f32 :=
  half (half p W1 b1 g1 be1) W2 b2 g be

/-- Layer 1: the same two blocks over layer 1's parameters. -/
def layer1 (p : FVec F S16384x64 .f32) (W1 : FVec F S64x64 .f32) (b1 g1 be1 : FVec F S64 .f32)
    (W2 : FVec F S64x64 .f32) (b2 g be : FVec F S64 .f32) : FVec F S16384x64 .f32 :=
  half (half p W1 b1 g1 be1) W2 b2 g be

/-- The two layers are one function of their parameters. -/
theorem layer1_eq_layer0 : @layer1 F _ = @layer0 F _ := rfl

/-- The graph readout: the pooling matrix times the node features. -/
def readout (gp : FVec F S128x16384 .f32) (h : FVec F S16384x64 .f32) : FVec F S128x64 .f32 :=
  Host.dotGeneral (F := F) dot_S128x16384_S16384x64_S128x64_1_0_0_1_n_n none gp h

/-- The node features the reference returns: layer 1 of the neighbour average of layer 0 of the neighbour average of x. -/
def res1 (x : FVec F S16384x64 .f32) (adj : FVec F S16384x16384 .f32)
    (W1_0 : FVec F S64x64 .f32) (b1_0 g1_0 be1_0 : FVec F S64 .f32) (W2_0 : FVec F S64x64 .f32) (b2_0 g_0 be_0 : FVec F S64 .f32)
    (W1_1 : FVec F S64x64 .f32) (b1_1 g1_1 be1_1 : FVec F S64 .f32) (W2_1 : FVec F S64x64 .f32) (b2_1 g_1 be_1 : FVec F S64 .f32) :
    FVec F S16384x64 .f32 :=
  layer1 (pool adj (layer0 (pool adj x) W1_0 b1_0 g1_0 be1_0 W2_0 b2_0 g_0 be_0)) W1_1 b1_1 g1_1 be1_1 W2_1 b2_1 g_1 be_1

/-- The graph features the reference returns: the readout of the node features. -/
def res0 (x : FVec F S16384x64 .f32) (adj : FVec F S16384x16384 .f32) (gp : FVec F S128x16384 .f32)
    (W1_0 : FVec F S64x64 .f32) (b1_0 g1_0 be1_0 : FVec F S64 .f32) (W2_0 : FVec F S64x64 .f32) (b2_0 g_0 be_0 : FVec F S64 .f32)
    (W1_1 : FVec F S64x64 .f32) (b1_1 g1_1 be1_1 : FVec F S64 .f32) (W2_1 : FVec F S64x64 .f32) (b2_1 g_1 be_1 : FVec F S64 .f32) :
    FVec F S128x64 .f32 :=
  readout gp (res1 x adj W1_0 b1_0 g1_0 be1_0 W2_0 b2_0 g_0 be_0 W1_1 b1_1 g1_1 be1_1 W2_1 b2_1 g_1 be_1)

end Cert.ReferenceIdeal.Hand

end
-- ==== Proof.KIHost.lean ====
/- The host side of the program read as the reference's stage functions. Between the two launches and after the
   second the program applies, to what a launch left, the same blocks the reference applies to its neighbour averages:
   a block is z = p · W + b, normalised down each column by its mean and variance, scaled, shifted and rectified; two
   blocks make a layer; the last operation is the product with the pooling matrix. Each stretch of host operations is
   read off its list one operation at a time and the composed term is the stage by unfolding. -/
import proofs.«153131_j8177617732272_2_alg».proof.Proof.KIFrame
import proofs.«153131_j8177617732272_2_alg».proof.Proof.RefStages
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem after_app' : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app' l₁ l₂]

/-! ## The four blocks, the two changes of format and the readout, from any contents -/

set_option maxRecDepth 16384 in
set_option maxHeartbeats 4000000 in
theorem blockA (V : Valuation τ sig (Elt F)) :
    StableHlo.after hostOps1_3 (StableHlo.after hostOps1_2 (StableHlo.after hostOps1_1 (StableHlo.after hostOps1 (V)))) (Proc.devRef .tc main_v25)
      = Cert.ReferenceIdeal.Hand.half (V (Proc.devRef .tc main_v1)) (V (Proc.devRef .tc main_arg3)) (V (Proc.devRef .tc main_arg4)) (V (Proc.devRef .tc main_arg5)) (V (Proc.devRef .tc main_arg6)) := by
  rw [← after_app', ← after_app', ← after_app']
  simp only [hostOps1, hostOps1_1, hostOps1_2, hostOps1_3, List.cons_append, List.nil_append, List.append_assoc]
  after_results_simp
  rfl

set_option maxRecDepth 16384 in
set_option maxHeartbeats 4000000 in
theorem blockB (V : Valuation τ sig (Elt F)) :
    StableHlo.after hostOps1_7 (StableHlo.after hostOps1_6 (StableHlo.after hostOps1_5 (StableHlo.after hostOps1_4 (V)))) (Proc.devRef .tc main_v49)
      = Cert.ReferenceIdeal.Hand.half (V (Proc.devRef .tc main_v25)) (V (Proc.devRef .tc main_arg7)) (V (Proc.devRef .tc main_arg8)) (V (Proc.devRef .tc main_arg9)) (V (Proc.devRef .tc main_arg10)) := by
  rw [← after_app', ← after_app', ← after_app']
  simp only [hostOps1_4, hostOps1_5, hostOps1_6, hostOps1_7, List.cons_append, List.nil_append, List.append_assoc]
  after_results_simp
  rfl

set_option maxRecDepth 16384 in
set_option maxHeartbeats 4000000 in
theorem blockC (V : Valuation τ sig (Elt F)) :
    StableHlo.after hostOps2_3 (StableHlo.after hostOps2_2 (StableHlo.after hostOps2_1 (StableHlo.after hostOps2 (V)))) (Proc.devRef .tc main_v75)
      = Cert.ReferenceIdeal.Hand.half (V (Proc.devRef .tc main_v51)) (V (Proc.devRef .tc main_arg11)) (V (Proc.devRef .tc main_arg12)) (V (Proc.devRef .tc main_arg13)) (V (Proc.devRef .tc main_arg14)) := by
  rw [← after_app', ← after_app', ← after_app']
  simp only [hostOps2, hostOps2_1, hostOps2_2, hostOps2_3, List.cons_append, List.nil_append, List.append_assoc]
  after_results_simp
  rfl

set_option maxRecDepth 16384 in
set_option maxHeartbeats 4000000 in
theorem blockD (V : Valuation τ sig (Elt F)) :
    StableHlo.after hostOps2_7 (StableHlo.after hostOps2_6 (StableHlo.after hostOps2_5 (StableHlo.after hostOps2_4 (V)))) (Proc.devRef .tc main_v99)
      = Cert.ReferenceIdeal.Hand.half (V (Proc.devRef .tc main_v75)) (V (Proc.devRef .tc main_arg15)) (V (Proc.devRef .tc main_arg16)) (V (Proc.devRef .tc main_arg17)) (V (Proc.devRef .tc main_arg18)) := by
  rw [← after_app', ← after_app', ← after_app']
  simp only [hostOps2_4, hostOps2_5, hostOps2_6, hostOps2_7, List.cons_append, List.nil_append, List.append_assoc]
  after_results_simp
  rfl

theorem conv0 (V : Valuation τ sig (Elt F)) :
    StableHlo.after hostOps0 V (Proc.devRef .tc main_v0) = truncf .bf16 (V (Proc.devRef .tc main_arg0)) bitsLt_bf16_f32 := by
  simp only [hostOps0]; after_results_simp
theorem conv1 (V : Valuation τ sig (Elt F)) :
    StableHlo.after hostOps1_8 V (Proc.devRef .tc main_v50) = truncf .bf16 (V (Proc.devRef .tc main_v49)) bitsLt_bf16_f32 := by
  simp only [hostOps1_8]; after_results_simp
theorem readoutK (V : Valuation τ sig (Elt F)) :
    StableHlo.after hostOps2_8 V (Proc.devRef .tc main_v100) = Cert.ReferenceIdeal.Hand.readout (V (Proc.devRef .tc main_arg2)) (V (Proc.devRef .tc main_v99)) := by
  simp only [hostOps2_8]; after_results_simp; rfl

variable (m : (ℓ : Loc nD τ sig) → Buf (Elt F) ℓ) (ρ : Dev nD → PrngReg)

/-! ## The parameters reach each block as launched -/

theorem W2_main_arg3 (c : Dev nD) : W2 m ρ c (Proc.devRef .tc main_arg3) = m ((c : Thread nD τ).loc main_arg3) :=
  (W2_of_ne m ρ c main_arg3 (by decide)).trans <|
  (Wh hostOps0 hostOps0_W hostOps0_writes _ main_arg3 (by decide)).trans rfl
theorem W2_main_arg4 (c : Dev nD) : W2 m ρ c (Proc.devRef .tc main_arg4) = m ((c : Thread nD τ).loc main_arg4) :=
  (W2_of_ne m ρ c main_arg4 (by decide)).trans <|
  (Wh hostOps0 hostOps0_W hostOps0_writes _ main_arg4 (by decide)).trans rfl
theorem W2_main_arg5 (c : Dev nD) : W2 m ρ c (Proc.devRef .tc main_arg5) = m ((c : Thread nD τ).loc main_arg5) :=
  (W2_of_ne m ρ c main_arg5 (by decide)).trans <|
  (Wh hostOps0 hostOps0_W hostOps0_writes _ main_arg5 (by decide)).trans rfl
theorem W2_main_arg6 (c : Dev nD) : W2 m ρ c (Proc.devRef .tc main_arg6) = m ((c : Thread nD τ).loc main_arg6) :=
  (W2_of_ne m ρ c main_arg6 (by decide)).trans <|
  (Wh hostOps0 hostOps0_W hostOps0_writes _ main_arg6 (by decide)).trans rfl
theorem W6_main_arg7 (c : Dev nD) : W6 m ρ c (Proc.devRef .tc main_arg7) = m ((c : Thread nD τ).loc main_arg7) :=
  (Wh hostOps1_3 hostOps1_3_W hostOps1_3_writes _ main_arg7 (by decide)).trans <|
  (Wh hostOps1_2 hostOps1_2_W hostOps1_2_writes _ main_arg7 (by decide)).trans <|
  (Wh hostOps1_1 hostOps1_1_W hostOps1_1_writes _ main_arg7 (by decide)).trans <|
  (Wh hostOps1 hostOps1_W hostOps1_writes _ main_arg7 (by decide)).trans <|
  (W2_of_ne m ρ c main_arg7 (by decide)).trans <|
  (Wh hostOps0 hostOps0_W hostOps0_writes _ main_arg7 (by decide)).trans rfl
theorem W6_main_arg8 (c : Dev nD) : W6 m ρ c (Proc.devRef .tc main_arg8) = m ((c : Thread nD τ).loc main_arg8) :=
  (Wh hostOps1_3 hostOps1_3_W hostOps1_3_writes _ main_arg8 (by decide)).trans <|
  (Wh hostOps1_2 hostOps1_2_W hostOps1_2_writes _ main_arg8 (by decide)).trans <|
  (Wh hostOps1_1 hostOps1_1_W hostOps1_1_writes _ main_arg8 (by decide)).trans <|
  (Wh hostOps1 hostOps1_W hostOps1_writes _ main_arg8 (by decide)).trans <|
  (W2_of_ne m ρ c main_arg8 (by decide)).trans <|
  (Wh hostOps0 hostOps0_W hostOps0_writes _ main_arg8 (by decide)).trans rfl
theorem W6_main_arg9 (c : Dev nD) : W6 m ρ c (Proc.devRef .tc main_arg9) = m ((c : Thread nD τ).loc main_arg9) :=
  (Wh hostOps1_3 hostOps1_3_W hostOps1_3_writes _ main_arg9 (by decide)).trans <|
  (Wh hostOps1_2 hostOps1_2_W hostOps1_2_writes _ main_arg9 (by decide)).trans <|
  (Wh hostOps1_1 hostOps1_1_W hostOps1_1_writes _ main_arg9 (by decide)).trans <|
  (Wh hostOps1 hostOps1_W hostOps1_writes _ main_arg9 (by decide)).trans <|
  (W2_of_ne m ρ c main_arg9 (by decide)).trans <|
  (Wh hostOps0 hostOps0_W hostOps0_writes _ main_arg9 (by decide)).trans rfl
theorem W6_main_arg10 (c : Dev nD) : W6 m ρ c (Proc.devRef .tc main_arg10) = m ((c : Thread nD τ).loc main_arg10) :=
  (Wh hostOps1_3 hostOps1_3_W hostOps1_3_writes _ main_arg10 (by decide)).trans <|
  (Wh hostOps1_2 hostOps1_2_W hostOps1_2_writes _ main_arg10 (by decide)).trans <|
  (Wh hostOps1_1 hostOps1_1_W hostOps1_1_writes _ main_arg10 (by decide)).trans <|
  (Wh hostOps1 hostOps1_W hostOps1_writes _ main_arg10 (by decide)).trans <|
  (W2_of_ne m ρ c main_arg10 (by decide)).trans <|
  (Wh hostOps0 hostOps0_W hostOps0_writes _ main_arg10 (by decide)).trans rfl
theorem W12_main_arg11 (c : Dev nD) : W12 m ρ c (Proc.devRef .tc main_arg11) = m ((c : Thread nD τ).loc main_arg11) :=
  (W12_of_ne m ρ c main_arg11 (by decide)).trans <|
  (Wh hostOps1_8 hostOps1_8_W hostOps1_8_writes _ main_arg11 (by decide)).trans <|
  (Wh hostOps1_7 hostOps1_7_W hostOps1_7_writes _ main_arg11 (by decide)).trans <|
  (Wh hostOps1_6 hostOps1_6_W hostOps1_6_writes _ main_arg11 (by decide)).trans <|
  (Wh hostOps1_5 hostOps1_5_W hostOps1_5_writes _ main_arg11 (by decide)).trans <|
  (Wh hostOps1_4 hostOps1_4_W hostOps1_4_writes _ main_arg11 (by decide)).trans <|
  (Wh hostOps1_3 hostOps1_3_W hostOps1_3_writes _ main_arg11 (by decide)).trans <|
  (Wh hostOps1_2 hostOps1_2_W hostOps1_2_writes _ main_arg11 (by decide)).trans <|
  (Wh hostOps1_1 hostOps1_1_W hostOps1_1_writes _ main_arg11 (by decide)).trans <|
  (Wh hostOps1 hostOps1_W hostOps1_writes _ main_arg11 (by decide)).trans <|
  (W2_of_ne m ρ c main_arg11 (by decide)).trans <|
  (Wh hostOps0 hostOps0_W hostOps0_writes _ main_arg11 (by decide)).trans rfl
theorem W12_main_arg12 (c : Dev nD) : W12 m ρ c (Proc.devRef .tc main_arg12) = m ((c : Thread nD τ).loc main_arg12) :=
  (W12_of_ne m ρ c main_arg12 (by decide)).trans <|
  (Wh hostOps1_8 hostOps1_8_W hostOps1_8_writes _ main_arg12 (by decide)).trans <|
  (Wh hostOps1_7 hostOps1_7_W hostOps1_7_writes _ main_arg12 (by decide)).trans <|
  (Wh hostOps1_6 hostOps1_6_W hostOps1_6_writes _ main_arg12 (by decide)).trans <|
  (Wh hostOps1_5 hostOps1_5_W hostOps1_5_writes _ main_arg12 (by decide)).trans <|
  (Wh hostOps1_4 hostOps1_4_W hostOps1_4_writes _ main_arg12 (by decide)).trans <|
  (Wh hostOps1_3 hostOps1_3_W hostOps1_3_writes _ main_arg12 (by decide)).trans <|
  (Wh hostOps1_2 hostOps1_2_W hostOps1_2_writes _ main_arg12 (by decide)).trans <|
  (Wh hostOps1_1 hostOps1_1_W hostOps1_1_writes _ main_arg12 (by decide)).trans <|
  (Wh hostOps1 hostOps1_W hostOps1_writes _ main_arg12 (by decide)).trans <|
  (W2_of_ne m ρ c main_arg12 (by decide)).trans <|
  (Wh hostOps0 hostOps0_W hostOps0_writes _ main_arg12 (by decide)).trans rfl
theorem W12_main_arg13 (c : Dev nD) : W12 m ρ c (Proc.devRef .tc main_arg13) = m ((c : Thread nD τ).loc main_arg13) :=
  (W12_of_ne m ρ c main_arg13 (by decide)).trans <|
  (Wh hostOps1_8 hostOps1_8_W hostOps1_8_writes _ main_arg13 (by decide)).trans <|
  (Wh hostOps1_7 hostOps1_7_W hostOps1_7_writes _ main_arg13 (by decide)).trans <|
  (Wh hostOps1_6 hostOps1_6_W hostOps1_6_writes _ main_arg13 (by decide)).trans <|
  (Wh hostOps1_5 hostOps1_5_W hostOps1_5_writes _ main_arg13 (by decide)).trans <|
  (Wh hostOps1_4 hostOps1_4_W hostOps1_4_writes _ main_arg13 (by decide)).trans <|
  (Wh hostOps1_3 hostOps1_3_W hostOps1_3_writes _ main_arg13 (by decide)).trans <|
  (Wh hostOps1_2 hostOps1_2_W hostOps1_2_writes _ main_arg13 (by decide)).trans <|
  (Wh hostOps1_1 hostOps1_1_W hostOps1_1_writes _ main_arg13 (by decide)).trans <|
  (Wh hostOps1 hostOps1_W hostOps1_writes _ main_arg13 (by decide)).trans <|
  (W2_of_ne m ρ c main_arg13 (by decide)).trans <|
  (Wh hostOps0 hostOps0_W hostOps0_writes _ main_arg13 (by decide)).trans rfl
theorem W12_main_arg14 (c : Dev nD) : W12 m ρ c (Proc.devRef .tc main_arg14) = m ((c : Thread nD τ).loc main_arg14) :=
  (W12_of_ne m ρ c main_arg14 (by decide)).trans <|
  (Wh hostOps1_8 hostOps1_8_W hostOps1_8_writes _ main_arg14 (by decide)).trans <|
  (Wh hostOps1_7 hostOps1_7_W hostOps1_7_writes _ main_arg14 (by decide)).trans <|
  (Wh hostOps1_6 hostOps1_6_W hostOps1_6_writes _ main_arg14 (by decide)).trans <|
  (Wh hostOps1_5 hostOps1_5_W hostOps1_5_writes _ main_arg14 (by decide)).trans <|
  (Wh hostOps1_4 hostOps1_4_W hostOps1_4_writes _ main_arg14 (by decide)).trans <|
  (Wh hostOps1_3 hostOps1_3_W hostOps1_3_writes _ main_arg14 (by decide)).trans <|
  (Wh hostOps1_2 hostOps1_2_W hostOps1_2_writes _ main_arg14 (by decide)).trans <|
  (Wh hostOps1_1 hostOps1_1_W hostOps1_1_writes _ main_arg14 (by decide)).trans <|
  (Wh hostOps1 hostOps1_W hostOps1_writes _ main_arg14 (by decide)).trans <|
  (W2_of_ne m ρ c main_arg14 (by decide)).trans <|
  (Wh hostOps0 hostOps0_W hostOps0_writes _ main_arg14 (by decide)).trans rfl
theorem W16_main_arg15 (c : Dev nD) : W16 m ρ c (Proc.devRef .tc main_arg15) = m ((c : Thread nD τ).loc main_arg15) :=
  (Wh hostOps2_3 hostOps2_3_W hostOps2_3_writes _ main_arg15 (by decide)).trans <|
  (Wh hostOps2_2 hostOps2_2_W hostOps2_2_writes _ main_arg15 (by decide)).trans <|
  (Wh hostOps2_1 hostOps2_1_W hostOps2_1_writes _ main_arg15 (by decide)).trans <|
  (Wh hostOps2 hostOps2_W hostOps2_writes _ main_arg15 (by decide)).trans <|
  (W12_of_ne m ρ c main_arg15 (by decide)).trans <|
  (Wh hostOps1_8 hostOps1_8_W hostOps1_8_writes _ main_arg15 (by decide)).trans <|
  (Wh hostOps1_7 hostOps1_7_W hostOps1_7_writes _ main_arg15 (by decide)).trans <|
  (Wh hostOps1_6 hostOps1_6_W hostOps1_6_writes _ main_arg15 (by decide)).trans <|
  (Wh hostOps1_5 hostOps1_5_W hostOps1_5_writes _ main_arg15 (by decide)).trans <|
  (Wh hostOps1_4 hostOps1_4_W hostOps1_4_writes _ main_arg15 (by decide)).trans <|
  (Wh hostOps1_3 hostOps1_3_W hostOps1_3_writes _ main_arg15 (by decide)).trans <|
  (Wh hostOps1_2 hostOps1_2_W hostOps1_2_writes _ main_arg15 (by decide)).trans <|
  (Wh hostOps1_1 hostOps1_1_W hostOps1_1_writes _ main_arg15 (by decide)).trans <|
  (Wh hostOps1 hostOps1_W hostOps1_writes _ main_arg15 (by decide)).trans <|
  (W2_of_ne m ρ c main_arg15 (by decide)).trans <|
  (Wh hostOps0 hostOps0_W hostOps0_writes _ main_arg15 (by decide)).trans rfl
theorem W16_main_arg16 (c : Dev nD) : W16 m ρ c (Proc.devRef .tc main_arg16) = m ((c : Thread nD τ).loc main_arg16) :=
  (Wh hostOps2_3 hostOps2_3_W hostOps2_3_writes _ main_arg16 (by decide)).trans <|
  (Wh hostOps2_2 hostOps2_2_W hostOps2_2_writes _ main_arg16 (by decide)).trans <|
  (Wh hostOps2_1 hostOps2_1_W hostOps2_1_writes _ main_arg16 (by decide)).trans <|
  (Wh hostOps2 hostOps2_W hostOps2_writes _ main_arg16 (by decide)).trans <|
  (W12_of_ne m ρ c main_arg16 (by decide)).trans <|
  (Wh hostOps1_8 hostOps1_8_W hostOps1_8_writes _ main_arg16 (by decide)).trans <|
  (Wh hostOps1_7 hostOps1_7_W hostOps1_7_writes _ main_arg16 (by decide)).trans <|
  (Wh hostOps1_6 hostOps1_6_W hostOps1_6_writes _ main_arg16 (by decide)).trans <|
  (Wh hostOps1_5 hostOps1_5_W hostOps1_5_writes _ main_arg16 (by decide)).trans <|
  (Wh hostOps1_4 hostOps1_4_W hostOps1_4_writes _ main_arg16 (by decide)).trans <|
  (Wh hostOps1_3 hostOps1_3_W hostOps1_3_writes _ main_arg16 (by decide)).trans <|
  (Wh hostOps1_2 hostOps1_2_W hostOps1_2_writes _ main_arg16 (by decide)).trans <|
  (Wh hostOps1_1 hostOps1_1_W hostOps1_1_writes _ main_arg16 (by decide)).trans <|
  (Wh hostOps1 hostOps1_W hostOps1_writes _ main_arg16 (by decide)).trans <|
  (W2_of_ne m ρ c main_arg16 (by decide)).trans <|
  (Wh hostOps0 hostOps0_W hostOps0_writes _ main_arg16 (by decide)).trans rfl
theorem W16_main_arg17 (c : Dev nD) : W16 m ρ c (Proc.devRef .tc main_arg17) = m ((c : Thread nD τ).loc main_arg17) :=
  (Wh hostOps2_3 hostOps2_3_W hostOps2_3_writes _ main_arg17 (by decide)).trans <|
  (Wh hostOps2_2 hostOps2_2_W hostOps2_2_writes _ main_arg17 (by decide)).trans <|
  (Wh hostOps2_1 hostOps2_1_W hostOps2_1_writes _ main_arg17 (by decide)).trans <|
  (Wh hostOps2 hostOps2_W hostOps2_writes _ main_arg17 (by decide)).trans <|
  (W12_of_ne m ρ c main_arg17 (by decide)).trans <|
  (Wh hostOps1_8 hostOps1_8_W hostOps1_8_writes _ main_arg17 (by decide)).trans <|
  (Wh hostOps1_7 hostOps1_7_W hostOps1_7_writes _ main_arg17 (by decide)).trans <|
  (Wh hostOps1_6 hostOps1_6_W hostOps1_6_writes _ main_arg17 (by decide)).trans <|
  (Wh hostOps1_5 hostOps1_5_W hostOps1_5_writes _ main_arg17 (by decide)).trans <|
  (Wh hostOps1_4 hostOps1_4_W hostOps1_4_writes _ main_arg17 (by decide)).trans <|
  (Wh hostOps1_3 hostOps1_3_W hostOps1_3_writes _ main_arg17 (by decide)).trans <|
  (Wh hostOps1_2 hostOps1_2_W hostOps1_2_writes _ main_arg17 (by decide)).trans <|
  (Wh hostOps1_1 hostOps1_1_W hostOps1_1_writes _ main_arg17 (by decide)).trans <|
  (Wh hostOps1 hostOps1_W hostOps1_writes _ main_arg17 (by decide)).trans <|
  (W2_of_ne m ρ c main_arg17 (by decide)).trans <|
  (Wh hostOps0 hostOps0_W hostOps0_writes _ main_arg17 (by decide)).trans rfl
theorem W16_main_arg18 (c : Dev nD) : W16 m ρ c (Proc.devRef .tc main_arg18) = m ((c : Thread nD τ).loc main_arg18) :=
  (Wh hostOps2_3 hostOps2_3_W hostOps2_3_writes _ main_arg18 (by decide)).trans <|
  (Wh hostOps2_2 hostOps2_2_W hostOps2_2_writes _ main_arg18 (by decide)).trans <|
  (Wh hostOps2_1 hostOps2_1_W hostOps2_1_writes _ main_arg18 (by decide)).trans <|
  (Wh hostOps2 hostOps2_W hostOps2_writes _ main_arg18 (by decide)).trans <|
  (W12_of_ne m ρ c main_arg18 (by decide)).trans <|
  (Wh hostOps1_8 hostOps1_8_W hostOps1_8_writes _ main_arg18 (by decide)).trans <|
  (Wh hostOps1_7 hostOps1_7_W hostOps1_7_writes _ main_arg18 (by decide)).trans <|
  (Wh hostOps1_6 hostOps1_6_W hostOps1_6_writes _ main_arg18 (by decide)).trans <|
  (Wh hostOps1_5 hostOps1_5_W hostOps1_5_writes _ main_arg18 (by decide)).trans <|
  (Wh hostOps1_4 hostOps1_4_W hostOps1_4_writes _ main_arg18 (by decide)).trans <|
  (Wh hostOps1_3 hostOps1_3_W hostOps1_3_writes _ main_arg18 (by decide)).trans <|
  (Wh hostOps1_2 hostOps1_2_W hostOps1_2_writes _ main_arg18 (by decide)).trans <|
  (Wh hostOps1_1 hostOps1_1_W hostOps1_1_writes _ main_arg18 (by decide)).trans <|
  (Wh hostOps1 hostOps1_W hostOps1_writes _ main_arg18 (by decide)).trans <|
  (W2_of_ne m ρ c main_arg18 (by decide)).trans <|
  (Wh hostOps0 hostOps0_W hostOps0_writes _ main_arg18 (by decide)).trans rfl
theorem W20_main_arg2 (c : Dev nD) : W20 m ρ c (Proc.devRef .tc main_arg2) = m ((c : Thread nD τ).loc main_arg2) :=
  (Wh hostOps2_7 hostOps2_7_W hostOps2_7_writes _ main_arg2 (by decide)).trans <|
  (Wh hostOps2_6 hostOps2_6_W hostOps2_6_writes _ main_arg2 (by decide)).trans <|
  (Wh hostOps2_5 hostOps2_5_W hostOps2_5_writes _ main_arg2 (by decide)).trans <|
  (Wh hostOps2_4 hostOps2_4_W hostOps2_4_writes _ main_arg2 (by decide)).trans <|
  (Wh hostOps2_3 hostOps2_3_W hostOps2_3_writes _ main_arg2 (by decide)).trans <|
  (Wh hostOps2_2 hostOps2_2_W hostOps2_2_writes _ main_arg2 (by decide)).trans <|
  (Wh hostOps2_1 hostOps2_1_W hostOps2_1_writes _ main_arg2 (by decide)).trans <|
  (Wh hostOps2 hostOps2_W hostOps2_writes _ main_arg2 (by decide)).trans <|
  (W12_of_ne m ρ c main_arg2 (by decide)).trans <|
  (Wh hostOps1_8 hostOps1_8_W hostOps1_8_writes _ main_arg2 (by decide)).trans <|
  (Wh hostOps1_7 hostOps1_7_W hostOps1_7_writes _ main_arg2 (by decide)).trans <|
  (Wh hostOps1_6 hostOps1_6_W hostOps1_6_writes _ main_arg2 (by decide)).trans <|
  (Wh hostOps1_5 hostOps1_5_W hostOps1_5_writes _ main_arg2 (by decide)).trans <|
  (Wh hostOps1_4 hostOps1_4_W hostOps1_4_writes _ main_arg2 (by decide)).trans <|
  (Wh hostOps1_3 hostOps1_3_W hostOps1_3_writes _ main_arg2 (by decide)).trans <|
  (Wh hostOps1_2 hostOps1_2_W hostOps1_2_writes _ main_arg2 (by decide)).trans <|
  (Wh hostOps1_1 hostOps1_1_W hostOps1_1_writes _ main_arg2 (by decide)).trans <|
  (Wh hostOps1 hostOps1_W hostOps1_writes _ main_arg2 (by decide)).trans <|
  (W2_of_ne m ρ c main_arg2 (by decide)).trans <|
  (Wh hostOps0 hostOps0_W hostOps0_writes _ main_arg2 (by decide)).trans rfl
theorem W1_main_arg1 (c : Dev nD) : W1 m ρ c (Proc.devRef .tc main_arg1) = m ((c : Thread nD τ).loc main_arg1) :=
  (Wh hostOps0 hostOps0_W hostOps0_writes _ main_arg1 (by decide)).trans rfl
theorem W11_main_arg1 (c : Dev nD) : W11 m ρ c (Proc.devRef .tc main_arg1) = m ((c : Thread nD τ).loc main_arg1) :=
  (Wh hostOps1_8 hostOps1_8_W hostOps1_8_writes _ main_arg1 (by decide)).trans <|
  (Wh hostOps1_7 hostOps1_7_W hostOps1_7_writes _ main_arg1 (by decide)).trans <|
  (Wh hostOps1_6 hostOps1_6_W hostOps1_6_writes _ main_arg1 (by decide)).trans <|
  (Wh hostOps1_5 hostOps1_5_W hostOps1_5_writes _ main_arg1 (by decide)).trans <|
  (Wh hostOps1_4 hostOps1_4_W hostOps1_4_writes _ main_arg1 (by decide)).trans <|
  (Wh hostOps1_3 hostOps1_3_W hostOps1_3_writes _ main_arg1 (by decide)).trans <|
  (Wh hostOps1_2 hostOps1_2_W hostOps1_2_writes _ main_arg1 (by decide)).trans <|
  (Wh hostOps1_1 hostOps1_1_W hostOps1_1_writes _ main_arg1 (by decide)).trans <|
  (Wh hostOps1 hostOps1_W hostOps1_writes _ main_arg1 (by decide)).trans <|
  ((W2_arr m ρ c 0).trans (((dat0 (E1 m ρ) c).arrAt_in 0 rfl _).trans (A_eq0 (E1 m ρ) c 0))).trans <|
  (Wh hostOps0 hostOps0_W hostOps0_writes _ main_arg1 (by decide)).trans rfl

/-! ## The chain of contents, stage by stage -/

/-- Launch 0 reads the adjacency as launched and the input features changed to the short format. -/
theorem E1_adj (c : Dev nD) : E1 m ρ c main_arg1 = m ((c : Thread nD τ).loc main_arg1) := W1_main_arg1 m ρ c
theorem E1_rhs (c : Dev nD) : E1 m ρ c main_v0 = truncf .bf16 (m ((c : Thread nD τ).loc main_arg0)) bitsLt_bf16_f32 := conv0 (W0 m ρ c)
/-- What launch 0 leaves in its output array. -/
theorem W2_out (c : Dev nD) : W2 m ρ c (Proc.devRef .tc main_v1) = (dat0 (E1 m ρ) c).arrAt 2 cfg0.N := W2_arr m ρ c 2
/-- Layer 0 of what launch 0 left. -/
theorem W6_h (c : Dev nD) : W6 m ρ c (Proc.devRef .tc main_v25)
    = Cert.ReferenceIdeal.Hand.half (W2 m ρ c (Proc.devRef .tc main_v1)) (m ((c : Thread nD τ).loc main_arg3)) (m ((c : Thread nD τ).loc main_arg4)) (m ((c : Thread nD τ).loc main_arg5)) (m ((c : Thread nD τ).loc main_arg6)) := by
  rw [← W2_main_arg3 m ρ c, ← W2_main_arg4 m ρ c, ← W2_main_arg5 m ρ c, ← W2_main_arg6 m ρ c]
  exact blockA (W2 m ρ c)
theorem W10_h (c : Dev nD) : W10 m ρ c (Proc.devRef .tc main_v49)
    = Cert.ReferenceIdeal.Hand.half (W6 m ρ c (Proc.devRef .tc main_v25)) (m ((c : Thread nD τ).loc main_arg7)) (m ((c : Thread nD τ).loc main_arg8)) (m ((c : Thread nD τ).loc main_arg9)) (m ((c : Thread nD τ).loc main_arg10)) := by
  rw [← W6_main_arg7 m ρ c, ← W6_main_arg8 m ρ c, ← W6_main_arg9 m ρ c, ← W6_main_arg10 m ρ c]
  exact blockB (W6 m ρ c)
/-- Launch 1 reads the adjacency as launched and layer 0's features changed to the short format. -/
theorem E11_adj (c : Dev nD) : E11 m ρ c main_arg1 = m ((c : Thread nD τ).loc main_arg1) := W11_main_arg1 m ρ c
theorem E11_rhs (c : Dev nD) : E11 m ρ c main_v50 = truncf .bf16 (W10 m ρ c (Proc.devRef .tc main_v49)) bitsLt_bf16_f32 := conv1 (W10 m ρ c)
theorem W12_out (c : Dev nD) : W12 m ρ c (Proc.devRef .tc main_v51) = (dat1 (E11 m ρ) c).arrAt 2 cfg1.N := W12_arr m ρ c 2
/-- Layer 1 of what launch 1 left. -/
theorem W16_h (c : Dev nD) : W16 m ρ c (Proc.devRef .tc main_v75)
    = Cert.ReferenceIdeal.Hand.half (W12 m ρ c (Proc.devRef .tc main_v51)) (m ((c : Thread nD τ).loc main_arg11)) (m ((c : Thread nD τ).loc main_arg12)) (m ((c : Thread nD τ).loc main_arg13)) (m ((c : Thread nD τ).loc main_arg14)) := by
  rw [← W12_main_arg11 m ρ c, ← W12_main_arg12 m ρ c, ← W12_main_arg13 m ρ c, ← W12_main_arg14 m ρ c]
  exact blockC (W12 m ρ c)
theorem W20_h (c : Dev nD) : W20 m ρ c (Proc.devRef .tc main_v99)
    = Cert.ReferenceIdeal.Hand.half (W16 m ρ c (Proc.devRef .tc main_v75)) (m ((c : Thread nD τ).loc main_arg15)) (m ((c : Thread nD τ).loc main_arg16)) (m ((c : Thread nD τ).loc main_arg17)) (m ((c : Thread nD τ).loc main_arg18)) := by
  rw [← W16_main_arg15 m ρ c, ← W16_main_arg16 m ρ c, ← W16_main_arg17 m ρ c, ← W16_main_arg18 m ρ c]
  exact blockD (W16 m ρ c)
/-- The two results: the node features are what layer 1 left (the readout's stretch writes its own buffer only), the graph
    features their product with the pooling matrix. -/
theorem W21_nodes (c : Dev nD) : W21 m ρ c (Proc.devRef .tc main_v99) = W20 m ρ c (Proc.devRef .tc main_v99) :=
  Wh hostOps2_8 hostOps2_8_W hostOps2_8_writes _ main_v99 (by decide)
theorem W21_graphs (c : Dev nD) : W21 m ρ c (Proc.devRef .tc main_v100) = Cert.ReferenceIdeal.Hand.readout (m ((c : Thread nD τ).loc main_arg2)) (W20 m ρ c (Proc.devRef .tc main_v99)) := by
  rw [← W20_main_arg2 m ρ c]
  exact readoutK (W20 m ρ c)

end Cert.KernelIdeal.Hand

end
-- ==== Proof.KIResult.lean ====
/- The two results of the idealized kernel program as the reference's functions of the argument arrays: given that
   each launch leaves, in its output array, the neighbour average of the features it was handed (the product of the
   adjacency with them, each row divided by the adjacency's row sum), the node features are layer 1 of the neighbour
   average of layer 0 of the neighbour average of the input, and the graph features their product with the pooling
   matrix. On the extended reals a change of float format is the identity, so the short-format copies the launches
   read are the features themselves. -/
import proofs.«153131_j8177617732272_2_alg».proof.Proof.KIHost
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What is asked of the two launches: from any contents, the output array ends at the neighbour average of the
    right-hand side the launch read. -/
def AggOK : Prop :=
  (∀ (V : (c : Dev nD) → (b : Ref sig .tc) → Buf (Elt Ideal) ((c : Thread nD τ).loc b)) (c : Dev nD),
      (dat0 (F := Ideal) V c).arrAt 2 cfg0.N = Cert.ReferenceIdeal.Hand.pool (F := Ideal) (V c main_arg1) (V c main_v0))
  ∧ (∀ (V : (c : Dev nD) → (b : Ref sig .tc) → Buf (Elt Ideal) ((c : Thread nD τ).loc b)) (c : Dev nD),
      (dat1 (F := Ideal) V c).arrAt 2 cfg1.N = Cert.ReferenceIdeal.Hand.pool (F := Ideal) (V c main_arg1) (V c main_v50))

variable (m : (ℓ : Loc nD τ sig) → Buf (Elt Ideal) ℓ) (ρ : Dev nD → PrngReg)

/-- On the extended reals a change to the short format leaves an array as it is. -/
theorem truncf_ideal (S : Shape) (x : FVec Ideal S .f32) : truncf (F := Ideal) .bf16 x bitsLt_bf16_f32 = x := rfl

/-- The node features. -/
theorem nodes_eq (h : AggOK) (c : Dev nD) :
    W21 (F := Ideal) m ρ c (Proc.devRef .tc main_v99) = Cert.ReferenceIdeal.Hand.res1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [W21_nodes, W20_h, W16_h, W12_out, h.2, E11_adj, E11_rhs, W10_h, W6_h, W2_out, h.1, E1_adj, E1_rhs]
  rfl

/-- The graph features. -/
theorem graphs_eq (h : AggOK) (c : Dev nD) :
    W21 (F := Ideal) m ρ c (Proc.devRef .tc main_v100) = Cert.ReferenceIdeal.Hand.res0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [W21_graphs, ← W21_nodes, nodes_eq m ρ h c]
  rfl

/-- The run of the idealized kernel program with both results named: every weakly fair execution terminates with the
    graph features and the node features at the reference's functions of the argument arrays, the arguments unchanged. -/
theorem run_results (h : AggOK) : θ_run defs (onTc (τ := τ) (main (F := Ideal))) ⟨m, fun _ => 0, ρ⟩ (fun r => ∀ c : Dev nD,
      r.2.mem ((c.tc : Thread nD τ).loc main_v100) = Cert.ReferenceIdeal.Hand.res0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v99) = Cert.ReferenceIdeal.Hand.res1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r hr c =>
    ⟨(hr c _ (mem_uc main_v100 (by decide))).trans (graphs_eq m ρ h c),
      (hr c _ (mem_uc main_v99 (by decide))).trans (nodes_eq m ρ h c),
      (hr c _ (mem_uc main_arg0 (by decide))).trans (W21_main_arg0 m ρ c),
      (hr c _ (mem_uc main_arg1 (by decide))).trans (W21_main_arg1 m ρ c),
      (hr c _ (mem_uc main_arg2 (by decide))).trans (W21_main_arg2 m ρ c),
      (hr c _ (mem_uc main_arg3 (by decide))).trans (W21_main_arg3 m ρ c),
      (hr c _ (mem_uc main_arg4 (by decide))).trans (W21_main_arg4 m ρ c),
      (hr c _ (mem_uc main_arg5 (by decide))).trans (W21_main_arg5 m ρ c),
      (hr c _ (mem_uc main_arg6 (by decide))).trans (W21_main_arg6 m ρ c),
      (hr c _ (mem_uc main_arg7 (by decide))).trans (W21_main_arg7 m ρ c),
      (hr c _ (mem_uc main_arg8 (by decide))).trans (W21_main_arg8 m ρ c),
      (hr c _ (mem_uc main_arg9 (by decide))).trans (W21_main_arg9 m ρ c),
      (hr c _ (mem_uc main_arg10 (by decide))).trans (W21_main_arg10 m ρ c),
      (hr c _ (mem_uc main_arg11 (by decide))).trans (W21_main_arg11 m ρ c),
      (hr c _ (mem_uc main_arg12 (by decide))).trans (W21_main_arg12 m ρ c),
      (hr c _ (mem_uc main_arg13 (by decide))).trans (W21_main_arg13 m ρ c),
      (hr c _ (mem_uc main_arg14 (by decide))).trans (W21_main_arg14 m ρ c),
      (hr c _ (mem_uc main_arg15 (by decide))).trans (W21_main_arg15 m ρ c),
      (hr c _ (mem_uc main_arg16 (by decide))).trans (W21_main_arg16 m ρ c),
      (hr c _ (mem_uc main_arg17 (by decide))).trans (W21_main_arg17 m ρ c),
      (hr c _ (mem_uc main_arg18 (by decide))).trans (W21_main_arg18 m ρ c)⟩) (run_all m ρ)

end Cert.KernelIdeal.Hand

end
-- ==== Proof.KBase.lean ====
/- The aggregation kernel's two launches: what the runs of its body are stated over. Each launch walks a grid of
   8 row tiles by 16 reduction steps; the body adds one [2048, 1024] tile of the adjacency times the matching
   1024 rows of the right-hand side into a running sum, adds the tile's row sums into a running degree, and at
   the last step stores their quotient. Here: the two branch conditions in closed form over the grid, the points
   at which the output window is idle, and the memrefs the body is called with. -/
import proofs.«153131_j8177617732272_2_alg».proof.Proof.Gen.Kernel.Launch
import proofs.«153131_j8177617732272_2_alg».proof.Proof.Gen.Kernel.Skeleton
import proofs.«153131_j8177617732272_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0: the two conditions of the body, over the grid

The grid is 8 row tiles by 16 reduction steps; point `t` is row tile `t / 16` at step `t % 16`. The first
`scf.if` (zero the two accumulators) is taken at step 0, the second (divide and store the output block) at step 15. -/

abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last reduction step the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last reduction step it is live. -/
theorem liveAt0_2 : ∀ t : Fin cfg0.N, cond0_1 (grid0.coords t) → cfg0.idle 2 (grid0.coords t) = false := by decide +kernel

/-- The windows' current staging memrefs at a point, as the pipeline passes them to the body. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
/-- The two accumulators: the running product sum [2048, 64] and the running row sum [2048, 1]. -/
abbrev scM0_0 : Memref sig .tc .vmem S2048x64 .f32 := Memref.whole cc0_scratch0
abbrev scM0_1 : Memref sig .tc .vmem S2048x1 .f32 := Memref.whole cc0_scratch1
abbrev VS0_0 : View sig .tc .vmem S2048x64 .f32 := (scM0_0).view
abbrev VS0_1 : View sig .tc .vmem S2048x1 .f32 := (scM0_1).view
/-- One staging buffer of the output window, through which its contents are stated. -/
abbrev VO0_2 : View sig .tc .vmem S2048x64 .f32 := (Memref.whole cc0_stg2_0 : Memref sig .tc .vmem S2048x64 .f32).view

/-! ## Region 1: the two conditions of the body, over the grid

The grid is 8 row tiles by 16 reduction steps; point `t` is row tile `t / 16` at step `t % 16`. The first
`scf.if` (zero the two accumulators) is taken at step 0, the second (divide and store the output block) at step 15. -/

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last reduction step the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last reduction step it is live. -/
theorem liveAt1_2 : ∀ t : Fin cfg1.N, cond1_1 (grid1.coords t) → cfg1.idle 2 (grid1.coords t) = false := by decide +kernel

/-- The windows' current staging memrefs at a point, as the pipeline passes them to the body. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The two accumulators: the running product sum [2048, 64] and the running row sum [2048, 1]. -/
abbrev scM1_0 : Memref sig .tc .vmem S2048x64 .f32 := Memref.whole cc1_scratch0
abbrev scM1_1 : Memref sig .tc .vmem S2048x1 .f32 := Memref.whole cc1_scratch1
abbrev VS1_0 : View sig .tc .vmem S2048x64 .f32 := (scM1_0).view
abbrev VS1_1 : View sig .tc .vmem S2048x1 .f32 := (scM1_1).view
/-- One staging buffer of the output window, through which its contents are stated. -/
abbrev VO1_2 : View sig .tc .vmem S2048x64 .f32 := (Memref.whole cc1_stg2_0 : Memref sig .tc .vmem S2048x64 .f32).view

end Cert.Kernel.Hand

end
-- ==== Proof.KRun0A.lean ====
/- The body of launch 0 run whole at the first reduction step of a row tile: both accumulators are zeroed, then the step's tile is added; the output block is left alone. -/
import proofs.«153131_j8177617732272_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun0_A (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRun0B.lean ====
/- The body of launch 0 run whole at a middle reduction step: the step's tile is added into both accumulators; the output block is left alone. -/
import proofs.«153131_j8177617732272_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun0_B (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRun0C.lean ====
/- The body of launch 0 run whole at the last reduction step of a row tile: the step's tile is added into both accumulators, and their quotient is stored into the output block. -/
import proofs.«153131_j8177617732272_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun0_C (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KDat0.lean ====
/- Launch 0: what each kind of reduction step leaves in the two accumulators and the output block, the
   accumulation over the grid's points, the invariant that carries the accumulators from one point to the next, and
   the body's obligation at every point. Stated at any contents `V` the launch is entered from. -/
import proofs.«153131_j8177617732272_2_alg».proof.Proof.KRun0A
import proofs.«153131_j8177617732272_2_alg».proof.Proof.KRun0B
import proofs.«153131_j8177617732272_2_alg».proof.Proof.KRun0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Off the last reduction step nothing is stored into the output block: a placeholder nothing reads. -/
def outIdle0 : Vec F S2048x64 .f32 := VO0_2.read (Elt F) (VO0_2.writes (Elt F) VO0_2.junk [])

/-- The stores of case A into the running product sum cover it. -/
theorem scover0_A_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) (y : S2048x64.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x64.size (by sl_kernel_rfl) y
/-- What case A leaves in the running product sum. -/
def sout0_A_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) : Vec F S2048x64 .f32 :=
  VS0_0.read (Elt F) (VS0_0.writes (Elt F) VS0_0.junk (kernelRun0_A c i arg2 harg2 arg3 harg3 arg4 harg4 arg5 harg5 arg6 harg6 hc0 hc1 x0 x1).2.1)
/-- The stores of case A into the running row sum cover it. -/
theorem scover0_A_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) (y : S2048x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x1.size (by sl_kernel_rfl) y
/-- What case A leaves in the running row sum. -/
def sout0_A_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i)
    (x0 : Vec F S2048x1024 .f32) (x1 : Vec F S16384x64 .bf16) : Vec F S2048x1 .f32 :=
  VS0_1.read (Elt F) (VS0_1.writes (Elt F) VS0_1.junk (kernelRun0_A c i arg2 harg2 arg3 harg3 arg4 harg4 arg5 harg5 arg6 harg6 hc0 hc1 x0 x1).2.2.1)

/-- The stores of case B into the running product sum cover it. -/
theorem scover0_B_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) (y : S2048x64.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S2048x64.size (by sl_kernel_rfl) y
/-- What case B leaves in the running product sum. -/
def sout0_B_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) : Vec F S2048x64 .f32 :=
  VS0_0.read (Elt F) (VS0_0.writes (Elt F) VS0_0.junk (kernelRun0_B c i arg2 harg2 arg3 harg3 arg4 harg4 arg5 harg5 arg6 harg6 hc0 hc1 x0 x1 xs0 xs1).2.1)
/-- The stores of case B into the running row sum cover it. -/
theorem scover0_B_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) (y : S2048x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S2048x1.size (by sl_kernel_rfl) y
/-- What case B leaves in the running row sum. -/
def sout0_B_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i)
    (x0 : Vec F S2048x1024 .f32) (x1 : Vec F S16384x64 .bf16) (xs0 : Vec F S2048x64 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- At the last reduction step the body's one store into the output block covers it. -/
theorem cover0_C_2 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) (y : S2048x64.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S2048x64.size (by sl_kernel_rfl) y
/-- What the last reduction step leaves in the output block's buffer. -/
def out0_C_2 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) : Vec F S2048x64 .f32 :=
  VO0_2.read (Elt F) (VO0_2.writes (Elt F) VO0_2.junk (kernelRun0_C c i arg2 harg2 arg3 harg3 arg4 harg4 arg5 harg5 arg6 harg6 hc0 hc1 x0 x1 xs0 xs1).1)

/-- The stores of case C into the running product sum cover it. -/
theorem scover0_C_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) (y : S2048x64.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S2048x64.size (by sl_kernel_rfl) y
/-- What case C leaves in the running product sum. -/
def sout0_C_0 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) : Vec F S2048x64 .f32 :=
  VS0_0.read (Elt F) (VS0_0.writes (Elt F) VS0_0.junk (kernelRun0_C c i arg2 harg2 arg3 harg3 arg4 harg4 arg5 harg5 arg6 harg6 hc0 hc1 x0 x1 xs0 xs1).2.1)
/-- The stores of case C into the running row sum cover it. -/
theorem scover0_C_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) (y : S2048x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S2048x1.size (by sl_kernel_rfl) y
/-- What case C leaves in the running row sum. -/
def sout0_C_1 (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i)
    (x0 : Vec F S2048x1024 .f32) (x1 : Vec F S16384x64 .bf16) (xs0 : Vec F S2048x64 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## The accumulation over the grid's points -/

/-- After a first reduction step: the accumulators hold that step's tile added to zero. -/
def stepA0 (c : Dev nD) (t : Fin cfg0.N) (h0 : t.val % 16 = 0) : Vec F S2048x64 .f32 × Vec F S2048x64 .f32 × Vec F S2048x1 .f32 :=
  (outIdle0, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t))
/-- After a middle reduction step: that step's tile added to what the step before left. -/
def stepB0 (c : Dev nD) (t : Fin cfg0.N) (h0 : ¬t.val % 16 = 0) (h1 : ¬t.val % 16 = 15) (prev : Vec F S2048x64 .f32 × Vec F S2048x1 .f32) : Vec F S2048x64 .f32 × Vec F S2048x64 .f32 × Vec F S2048x1 .f32 :=
  (outIdle0, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2)
/-- After a last reduction step: the same, and the output block at the quotient of the two accumulators. -/
def stepC0 (c : Dev nD) (t : Fin cfg0.N) (h0 : ¬t.val % 16 = 0) (h1 : t.val % 16 = 15) (prev : Vec F S2048x64 .f32 × Vec F S2048x1 .f32) : Vec F S2048x64 .f32 × Vec F S2048x64 .f32 × Vec F S2048x1 .f32 :=
  (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) prev.1 prev.2)

/-- What the output block's buffer and the two accumulators hold after the body at position `n`. -/
def outsAt0 (c : Dev nD) : (n : ℕ) → n < cfg0.N → Vec F S2048x64 .f32 × Vec F S2048x64 .f32 × Vec F S2048x1 .f32
  | 0, hn => stepA0 V c ⟨0, hn⟩ (Nat.zero_mod _)
  | n + 1, hn =>
    if h0 : (n + 1) % 16 = 0 then stepA0 V c ⟨n + 1, hn⟩ h0
    else if h1 : (n + 1) % 16 = 15 then stepC0 V c ⟨n + 1, hn⟩ h0 h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 16 = 0) :
    outsAt0 V c t.val t.isLt = stepA0 V c t h0 := by
  obtain ⟨n, hn⟩ := t
  cases n with
  | zero => exact rfl
  | succ n => exact (dif_pos h0).trans rfl
theorem outsAt0_B (c : Dev nD) (t : Fin cfg0.N) (h0 : ¬t.val % 16 = 0) (h1 : ¬t.val % 16 = 15) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 16 = 0) (h1 : t.val % 16 = 15) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- Before the first point: every scoped buffer no window stages at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-- Before position `n`: at the start the launch's own; afterwards the two accumulators at what the point before left
    in them, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  cases n with
  | zero => exact absurd rfl hz
  | succ n => rfl

/-! ## The proof data -/

/-- The proof data of launch 0 on core `c`: the arrays as the launch finds them; after the body at a point each
    input's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the inputs' memrefs hold their blocks; the point's reduction step says which case it is in;
    the invariant hands the body the two accumulators at what the point before left (at anything at the very first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · rw [Dat.leavesExact_idle (dat0 V c) 2 t (idleAt0_2 t (fun h => absurd ((hcond0_1 t).mp h) (by omega))) (noFlush0_2 t (fun h => absurd ((hcond0_1 t).mp h) (by omega)))]
    rw [outsAt0_A V c t h0]
    unfold stepA0 sout0_A_0 sout0_A_1; (try dsimp only)
    by_cases hz : t.val = 0
    · rw [PhiS0_castSucc V c t, PhiS0_zero V c _ _ hz, PhiA0_eq]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      iexists _; iexact H2
  · by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC0 out0_C_2 sout0_C_0 sout0_C_1; (try dsimp only)
      have hz : t.val ≠ 0 := by omega
      rw [PhiS0_castSucc V c t, PhiS0_pos V c _ _ hz]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB0 sout0_B_0 sout0_B_1; (try dsimp only)
      have hz : t.val ≠ 0 := by omega
      rw [PhiS0_castSucc V c t, PhiS0_pos V c _ _ hz]
      iintro ⟨⟨⟨HS0, HS1, Hr2, Hr3, Hr4, Hr5, Hr6, Hr7, Hr8⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr2 Hr3 Hr4 Hr5 Hr6 Hr7 Hr8 Hg]
      · isplitl [HS0 HS1 Hr2 Hr3 Hr4 Hr5 Hr6 Hr7 Hr8]
        ·
          isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          isplitl [Hr2]
          · iexact Hr2
          isplitl [Hr3]
          · iexact Hr3
          isplitl [Hr4]
          · iexact Hr4
          isplitl [Hr5]
          · iexact Hr5
          isplitl [Hr6]
          · iexact Hr6
          isplitl [Hr7]
          · iexact Hr7
          iexact Hr8
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's own back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr2, Hr3, Hr4, Hr5, Hr6, Hr7, Hr8⟩, Hg⟩
  isplitl [HS0 HS1 Hr2 Hr3 Hr4 Hr5 Hr6 Hr7 Hr8]
  · isplitl [HS0]; · iexists _; iexact HS0
    isplitl [HS1]; · iexists _; iexact HS1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexact Hr8
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.KRun1A.lean ====
/- The body of launch 1 run whole at the first reduction step of a row tile: both accumulators are zeroed, then the step's tile is added; the output block is left alone. -/
import proofs.«153131_j8177617732272_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun1_A (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRun1B.lean ====
/- The body of launch 1 run whole at a middle reduction step: the step's tile is added into both accumulators; the output block is left alone. -/
import proofs.«153131_j8177617732272_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun1_B (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRun1C.lean ====
/- The body of launch 1 run whole at the last reduction step of a row tile: the step's tile is added into both accumulators, and their quotient is stored into the output block. -/
import proofs.«153131_j8177617732272_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave, as pieces (last first), in the output block's buffer (`L2`), the running product sum
    (`LS0`) and the running row sum (`LS1`), with the proof that on whole memrefs — the adjacency tile at `x0`, the
    right-hand side at `x1` — the body runs to a continuation that holds the inputs as they were and each stored
    buffer with its pieces written. -/
noncomputable def kernelRun1_C (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) :
    Σ' (L2 : List (View.Piece (Elt F) S2048x64 .f32)) (LS0 : List (View.Piece (Elt F) S2048x64 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨?_, ?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KDat1.lean ====
/- Launch 1: what each kind of reduction step leaves in the two accumulators and the output block, the
   accumulation over the grid's points, the invariant that carries the accumulators from one point to the next, and
   the body's obligation at every point. Stated at any contents `V` the launch is entered from. -/
import proofs.«153131_j8177617732272_2_alg».proof.Proof.KRun1A
import proofs.«153131_j8177617732272_2_alg».proof.Proof.KRun1B
import proofs.«153131_j8177617732272_2_alg».proof.Proof.KRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Off the last reduction step nothing is stored into the output block: a placeholder nothing reads. -/
def outIdle1 : Vec F S2048x64 .f32 := VO1_2.read (Elt F) (VO1_2.writes (Elt F) VO1_2.junk [])

/-- The stores of case A into the running product sum cover it. -/
theorem scover1_A_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) (y : S2048x64.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S2048x64.size (by sl_kernel_rfl) y
/-- What case A leaves in the running product sum. -/
def sout1_A_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) : Vec F S2048x64 .f32 :=
  VS1_0.read (Elt F) (VS1_0.writes (Elt F) VS1_0.junk (kernelRun1_A c i arg2 harg2 arg3 harg3 arg4 harg4 arg5 harg5 arg6 harg6 hc0 hc1 x0 x1).2.1)
/-- The stores of case A into the running row sum cover it. -/
theorem scover1_A_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) (y : S2048x1.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S2048x1.size (by sl_kernel_rfl) y
/-- What case A leaves in the running row sum. -/
def sout1_A_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i)
    (x0 : Vec F S2048x1024 .f32) (x1 : Vec F S16384x64 .bf16) : Vec F S2048x1 .f32 :=
  VS1_1.read (Elt F) (VS1_1.writes (Elt F) VS1_1.junk (kernelRun1_A c i arg2 harg2 arg3 harg3 arg4 harg4 arg5 harg5 arg6 harg6 hc0 hc1 x0 x1).2.2.1)

/-- The stores of case B into the running product sum cover it. -/
theorem scover1_B_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) (y : S2048x64.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S2048x64.size (by sl_kernel_rfl) y
/-- What case B leaves in the running product sum. -/
def sout1_B_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) : Vec F S2048x64 .f32 :=
  VS1_0.read (Elt F) (VS1_0.writes (Elt F) VS1_0.junk (kernelRun1_B c i arg2 harg2 arg3 harg3 arg4 harg4 arg5 harg5 arg6 harg6 hc0 hc1 x0 x1 xs0 xs1).2.1)
/-- The stores of case B into the running row sum cover it. -/
theorem scover1_B_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) (y : S2048x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S2048x1.size (by sl_kernel_rfl) y
/-- What case B leaves in the running row sum. -/
def sout1_B_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i)
    (x0 : Vec F S2048x1024 .f32) (x1 : Vec F S16384x64 .bf16) (xs0 : Vec F S2048x64 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- At the last reduction step the body's one store into the output block covers it. -/
theorem cover1_C_2 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) (y : S2048x64.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S2048x64.size (by sl_kernel_rfl) y
/-- What the last reduction step leaves in the output block's buffer. -/
def out1_C_2 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) : Vec F S2048x64 .f32 :=
  VO1_2.read (Elt F) (VO1_2.writes (Elt F) VO1_2.junk (kernelRun1_C c i arg2 harg2 arg3 harg3 arg4 harg4 arg5 harg5 arg6 harg6 hc0 hc1 x0 x1 xs0 xs1).1)

/-- The stores of case C into the running product sum cover it. -/
theorem scover1_C_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) (y : S2048x64.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S2048x64.size (by sl_kernel_rfl) y
/-- What case C leaves in the running product sum. -/
def sout1_C_0 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) : Vec F S2048x64 .f32 :=
  VS1_0.read (Elt F) (VS1_0.writes (Elt F) VS1_0.junk (kernelRun1_C c i arg2 harg2 arg3 harg3 arg4 harg4 arg5 harg5 arg6 harg6 hc0 hc1 x0 x1 xs0 xs1).2.1)
/-- The stores of case C into the running row sum cover it. -/
theorem scover1_C_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) (y : S2048x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S2048x1.size (by sl_kernel_rfl) y
/-- What case C leaves in the running row sum. -/
def sout1_C_1 (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i)
    (x0 : Vec F S2048x1024 .f32) (x1 : Vec F S16384x64 .bf16) (xs0 : Vec F S2048x64 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

/-! ## The accumulation over the grid's points -/

/-- After a first reduction step: the accumulators hold that step's tile added to zero. -/
def stepA1 (c : Dev nD) (t : Fin cfg1.N) (h0 : t.val % 16 = 0) : Vec F S2048x64 .f32 × Vec F S2048x64 .f32 × Vec F S2048x1 .f32 :=
  (outIdle1, sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t))
/-- After a middle reduction step: that step's tile added to what the step before left. -/
def stepB1 (c : Dev nD) (t : Fin cfg1.N) (h0 : ¬t.val % 16 = 0) (h1 : ¬t.val % 16 = 15) (prev : Vec F S2048x64 .f32 × Vec F S2048x1 .f32) : Vec F S2048x64 .f32 × Vec F S2048x64 .f32 × Vec F S2048x1 .f32 :=
  (outIdle1, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2)
/-- After a last reduction step: the same, and the output block at the quotient of the two accumulators. -/
def stepC1 (c : Dev nD) (t : Fin cfg1.N) (h0 : ¬t.val % 16 = 0) (h1 : t.val % 16 = 15) (prev : Vec F S2048x64 .f32 × Vec F S2048x1 .f32) : Vec F S2048x64 .f32 × Vec F S2048x64 .f32 × Vec F S2048x1 .f32 :=
  (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2)

/-- What the output block's buffer and the two accumulators hold after the body at position `n`. -/
def outsAt1 (c : Dev nD) : (n : ℕ) → n < cfg1.N → Vec F S2048x64 .f32 × Vec F S2048x64 .f32 × Vec F S2048x1 .f32
  | 0, hn => stepA1 V c ⟨0, hn⟩ (Nat.zero_mod _)
  | n + 1, hn =>
    if h0 : (n + 1) % 16 = 0 then stepA1 V c ⟨n + 1, hn⟩ h0
    else if h1 : (n + 1) % 16 = 15 then stepC1 V c ⟨n + 1, hn⟩ h0 h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 16 = 0) :
    outsAt1 V c t.val t.isLt = stepA1 V c t h0 := by
  obtain ⟨n, hn⟩ := t
  cases n with
  | zero => exact rfl
  | succ n => exact (dif_pos h0).trans rfl
theorem outsAt1_B (c : Dev nD) (t : Fin cfg1.N) (h0 : ¬t.val % 16 = 0) (h1 : ¬t.val % 16 = 15) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 16 = 0) (h1 : t.val % 16 = 15) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- Before the first point: every scoped buffer no window stages at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- Before position `n`: at the start the launch's own; afterwards the two accumulators at what the point before left
    in them, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The proof data of launch 1 on core `c`: the arrays as the launch finds them; after the body at a point each
    input's buffer at its block and the output's at the accumulation's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the inputs' memrefs hold their blocks; the point's reduction step says which case it is in;
    the invariant hands the body the two accumulators at what the point before left (at anything at the very first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · rw [Dat.leavesExact_idle (dat1 V c) 2 t (idleAt1_2 t (fun h => absurd ((hcond1_1 t).mp h) (by omega))) (noFlush1_2 t (fun h => absurd ((hcond1_1 t).mp h) (by omega)))]
    rw [outsAt1_A V c t h0]
    unfold stepA1 sout1_A_0 sout1_A_1; (try dsimp only)
    by_cases hz : t.val = 0
    · rw [PhiS1_castSucc V c t, PhiS1_zero V c _ _ hz, PhiA1_eq]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => absurd ((hcond1_1 t).mp h) (by omega)) (iblk1 V c 0 t) (iblk1 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
        iexact Hg
      isplitl [Ho]; · iexact Ho
      isplitl [H0]; · iexact H0
      isplitl [H1]; · iexact H1
      iexists _; iexact H2
  · by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC1 out1_C_2 sout1_C_0 sout1_C_1; (try dsimp only)
      have hz : t.val ≠ 0 := by omega
      rw [PhiS1_castSucc V c t, PhiS1_pos V c _ _ hz]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_C_0 c _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold stepB1 sout1_B_0 sout1_B_1; (try dsimp only)
      have hz : t.val ≠ 0 := by omega
      rw [PhiS1_castSucc V c t, PhiS1_pos V c _ _ hz]
      iintro ⟨⟨⟨Hr0, Hr1, Hr2, Hr3, Hr4, Hr5, Hr6, HS0, HS1⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hr0 Hr1 Hr2 Hr3 Hr4 Hr5 Hr6 HS0 HS1 Hg]
      · isplitl [Hr0 Hr1 Hr2 Hr3 Hr4 Hr5 Hr6 HS0 HS1]
        ·
          isplitl [Hr0]
          · iexact Hr0
          isplitl [Hr1]
          · iexact Hr1
          isplitl [Hr2]
          · iexact Hr2
          isplitl [Hr3]
          · iexact Hr3
          isplitl [Hr4]
          · iexact Hr4
          isplitl [Hr5]
          · iexact Hr5
          isplitl [Hr6]
          · iexact Hr6
          isplitl [HS0]
          · unfold owns; iexists _; isplitr
            swap; · iexact HS0
            ipureintro; exact View.read_writes_of_cover _ _ _ _ _ (scover1_B_0 c _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's own back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, HS0, HS1⟩, Hg⟩
  isplitl [Hr0 Hr1 Hr2 Hr3 Hr4 Hr5 Hr6 HS0 HS1]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KFrame.lean ====
/- The whole run of the program: the contents of every unscoped buffer after each item of @main — nineteen host
   stretches and the two launches of the aggregation kernel —, each launch as a segment over the thread state, and the
   run itself: every weakly fair execution terminates with every unscoped buffer at the last of those contents. The
   argument arrays are written by no item, so they end as launched. -/
import proofs.«153131_j8177617732272_2_alg».proof.Proof.KDat0
import proofs.«153131_j8177617732272_2_alg».proof.Proof.KDat1
import proofs.«153131_j8177617732272_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
/-- What launch 0 is entered from, read at the TensorCore's references. -/
abbrev E1 : (c : Dev nD) → (b : Ref sig .tc) → Buf (Elt F) ((c : Thread nD τ).loc b) := fun c b => W1 m ρ c b
/-- At launch 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev W11 : Dev nD → Valuation τ sig (Elt F) := fun c => StableHlo.after hostOps1_8 (W10 m ρ c)
/-- What launch 1 is entered from. -/
abbrev E11 : (c : Dev nD) → (b : Ref sig .tc) → Buf (Elt F) ((c : Thread nD τ).loc b) := fun c b => W11 m ρ c b
def W12 (c : Dev nD) : Valuation τ sig (Elt F) :=
  Pipeline.withArrays spec1 c (W11 m ρ c) fun w => (dat1 (E11 m ρ) c).arrAt w cfg1.N
theorem W12_arr (c : Dev nD) (w : Fin cfg1.W) :
    W12 m ρ c (Proc.devRef .tc (Pipeline.arrRef spec1 w)) = (dat1 (E11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev X12 : (c : Dev nD) → (b : Ref sig .tc) → Buf (Elt F) ((c : Thread nD τ).loc b) := fun c b => W12 m ρ c b
theorem hF1 (c : Dev nD) (w : Fin cfg1.W) : (dat1 (E11 m ρ) c).arrAt w cfg1.N = X12 m ρ c (Pipeline.arrRef spec1 w) :=
  (W12_arr m ρ c w).symm
theorem hrest1 (c : Dev nD) : ∀ b, b ∉ Finset.univ.image (Pipeline.arrRef spec1) → X12 m ρ c b = E11 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)
abbrev W14 : Dev nD → Valuation τ sig (Elt F) := fun c => StableHlo.after hostOps2_1 (W13 m ρ c)
abbrev W15 : Dev nD → Valuation τ sig (Elt F) := fun c => StableHlo.after hostOps2_2 (W14 m ρ c)
abbrev W16 : Dev nD → Valuation τ sig (Elt F) := fun c => StableHlo.after hostOps2_3 (W15 m ρ c)
abbrev W17 : Dev nD → Valuation τ sig (Elt F) := fun c => StableHlo.after hostOps2_4 (W16 m ρ c)
abbrev W18 : Dev nD → Valuation τ sig (Elt F) := fun c => StableHlo.after hostOps2_5 (W17 m ρ c)
abbrev W19 : Dev nD → Valuation τ sig (Elt F) := fun c => StableHlo.after hostOps2_6 (W18 m ρ c)
abbrev W20 : Dev nD → Valuation τ sig (Elt F) := fun c => StableHlo.after hostOps2_7 (W19 m ρ c)
abbrev W21 : Dev nD → Valuation τ sig (Elt F) := fun c => StableHlo.after hostOps2_8 (W20 m ρ c)

/-- A host stretch leaves a buffer it does not write as it was. -/
theorem Wh (ops : List (HloOp τ sig (Elt F))) (Wl : List (Ref sig .tc))
    (hw : ops.Forall fun op => op.writes ⊆ (Wl.map (Proc.devRef (τ := τ) .tc)).toFinset)
    (V : Valuation τ sig (Elt F)) (r : Ref sig .tc) (h : r ∉ Wl) :
    StableHlo.after ops V (Proc.devRef .tc r) = V (Proc.devRef .tc r) :=
  StableHlo.after_of_writes_sub ops _ hw h

/-! ## The arguments end as launched -/

theorem W21_main_arg0 (c : Dev nD) : W21 m ρ c (Proc.devRef .tc main_arg0) = m ((c : Thread nD τ).loc main_arg0) :=
  (Wh hostOps2_8 hostOps2_8_W hostOps2_8_writes _ main_arg0 (by decide)).trans <|
  (Wh hostOps2_7 hostOps2_7_W hostOps2_7_writes _ main_arg0 (by decide)).trans <|
  (Wh hostOps2_6 hostOps2_6_W hostOps2_6_writes _ main_arg0 (by decide)).trans <|
  (Wh hostOps2_5 hostOps2_5_W hostOps2_5_writes _ main_arg0 (by decide)).trans <|
  (Wh hostOps2_4 hostOps2_4_W hostOps2_4_writes _ main_arg0 (by decide)).trans <|
  (Wh hostOps2_3 hostOps2_3_W hostOps2_3_writes _ main_arg0 (by decide)).trans <|
  (Wh hostOps2_2 hostOps2_2_W hostOps2_2_writes _ main_arg0 (by decide)).trans <|
  (Wh hostOps2_1 hostOps2_1_W hostOps2_1_writes _ main_arg0 (by decide)).trans <|
  (Wh hostOps2 hostOps2_W hostOps2_writes _ main_arg0 (by decide)).trans <|
  (W12_of_ne m ρ c main_arg0 (by decide)).trans <|
  (Wh hostOps1_8 hostOps1_8_W hostOps1_8_writes _ main_arg0 (by decide)).trans <|
  (Wh hostOps1_7 hostOps1_7_W hostOps1_7_writes _ main_arg0 (by decide)).trans <|
  (Wh hostOps1_6 hostOps1_6_W hostOps1_6_writes _ main_arg0 (by decide)).trans <|
  (Wh hostOps1_5 hostOps1_5_W hostOps1_5_writes _ main_arg0 (by decide)).trans <|
  (Wh hostOps1_4 hostOps1_4_W hostOps1_4_writes _ main_arg0 (by decide)).trans <|
  (Wh hostOps1_3 hostOps1_3_W hostOps1_3_writes _ main_arg0 (by decide)).trans <|
  (Wh hostOps1_2 hostOps1_2_W hostOps1_2_writes _ main_arg0 (by decide)).trans <|
  (Wh hostOps1_1 hostOps1_1_W hostOps1_1_writes _ main_arg0 (by decide)).trans <|
  (Wh hostOps1 hostOps1_W hostOps1_writes _ main_arg0 (by decide)).trans <|
  (W2_of_ne m ρ c main_arg0 (by decide)).trans <|
  (Wh hostOps0 hostOps0_W hostOps0_writes _ main_arg0 (by decide)).trans rfl
theorem W21_main_arg1 (c : Dev nD) : W21 m ρ c (Proc.devRef .tc main_arg1) = m ((c : Thread nD τ).loc main_arg1) :=
  (Wh hostOps2_8 hostOps2_8_W hostOps2_8_writes _ main_arg1 (by decide)).trans <|
  (Wh hostOps2_7 hostOps2_7_W hostOps2_7_writes _ main_arg1 (by decide)).trans <|
  (Wh hostOps2_6 hostOps2_6_W hostOps2_6_writes _ main_arg1 (by decide)).trans <|
  (Wh hostOps2_5 hostOps2_5_W hostOps2_5_writes _ main_arg1 (by decide)).trans <|
  (Wh hostOps2_4 hostOps2_4_W hostOps2_4_writes _ main_arg1 (by decide)).trans <|
  (Wh hostOps2_3 hostOps2_3_W hostOps2_3_writes _ main_arg1 (by decide)).trans <|
  (Wh hostOps2_2 hostOps2_2_W hostOps2_2_writes _ main_arg1 (by decide)).trans <|
  (Wh hostOps2_1 hostOps2_1_W hostOps2_1_writes _ main_arg1 (by decide)).trans <|
  (Wh hostOps2 hostOps2_W hostOps2_writes _ main_arg1 (by decide)).trans <|
  ((W12_arr m ρ c 0).trans (((dat1 (E11 m ρ) c).arrAt_in 0 rfl _).trans (A_eq1 (E11 m ρ) c 0))).trans <|
  (Wh hostOps1_8 hostOps1_8_W hostOps1_8_writes _ main_arg1 (by decide)).trans <|
  (Wh hostOps1_7 hostOps1_7_W hostOps1_7_writes _ main_arg1 (by decide)).trans <|
  (Wh hostOps1_6 hostOps1_6_W hostOps1_6_writes _ main_arg1 (by decide)).trans <|
  (Wh hostOps1_5 hostOps1_5_W hostOps1_5_writes _ main_arg1 (by decide)).trans <|
  (Wh hostOps1_4 hostOps1_4_W hostOps1_4_writes _ main_arg1 (by decide)).trans <|
  (Wh hostOps1_3 hostOps1_3_W hostOps1_3_writes _ main_arg1 (by decide)).trans <|
  (Wh hostOps1_2 hostOps1_2_W hostOps1_2_writes _ main_arg1 (by decide)).trans <|
  (Wh hostOps1_1 hostOps1_1_W hostOps1_1_writes _ main_arg1 (by decide)).trans <|
  (Wh hostOps1 hostOps1_W hostOps1_writes _ main_arg1 (by decide)).trans <|
  ((W2_arr m ρ c 0).trans (((dat0 (E1 m ρ) c).arrAt_in 0 rfl _).trans (A_eq0 (E1 m ρ) c 0))).trans <|
  (Wh hostOps0 hostOps0_W hostOps0_writes _ main_arg1 (by decide)).trans rfl
theorem W21_main_arg2 (c : Dev nD) : W21 m ρ c (Proc.devRef .tc main_arg2) = m ((c : Thread nD τ).loc main_arg2) :=
  (Wh hostOps2_8 hostOps2_8_W hostOps2_8_writes _ main_arg2 (by decide)).trans <|
  (Wh hostOps2_7 hostOps2_7_W hostOps2_7_writes _ main_arg2 (by decide)).trans <|
  (Wh hostOps2_6 hostOps2_6_W hostOps2_6_writes _ main_arg2 (by decide)).trans <|
  (Wh hostOps2_5 hostOps2_5_W hostOps2_5_writes _ main_arg2 (by decide)).trans <|
  (Wh hostOps2_4 hostOps2_4_W hostOps2_4_writes _ main_arg2 (by decide)).trans <|
  (Wh hostOps2_3 hostOps2_3_W hostOps2_3_writes _ main_arg2 (by decide)).trans <|
  (Wh hostOps2_2 hostOps2_2_W hostOps2_2_writes _ main_arg2 (by decide)).trans <|
  (Wh hostOps2_1 hostOps2_1_W hostOps2_1_writes _ main_arg2 (by decide)).trans <|
  (Wh hostOps2 hostOps2_W hostOps2_writes _ main_arg2 (by decide)).trans <|
  (W12_of_ne m ρ c main_arg2 (by decide)).trans <|
  (Wh hostOps1_8 hostOps1_8_W hostOps1_8_writes _ main_arg2 (by decide)).trans <|
  (Wh hostOps1_7 hostOps1_7_W hostOps1_7_writes _ main_arg2 (by decide)).trans <|
  (Wh hostOps1_6 hostOps1_6_W hostOps1_6_writes _ main_arg2 (by decide)).trans <|
  (Wh hostOps1_5 hostOps1_5_W hostOps1_5_writes _ main_arg2 (by decide)).trans <|
  (Wh hostOps1_4 hostOps1_4_W hostOps1_4_writes _ main_arg2 (by decide)).trans <|
  (Wh hostOps1_3 hostOps1_3_W hostOps1_3_writes _ main_arg2 (by decide)).trans <|
  (Wh hostOps1_2 hostOps1_2_W hostOps1_2_writes _ main_arg2 (by decide)).trans <|
  (Wh hostOps1_1 hostOps1_1_W hostOps1_1_writes _ main_arg2 (by decide)).trans <|
  (Wh hostOps1 hostOps1_W hostOps1_writes _ main_arg2 (by decide)).trans <|
  (W2_of_ne m ρ c main_arg2 (by decide)).trans <|
  (Wh hostOps0 hostOps0_W hostOps0_writes _ main_arg2 (by decide)).trans rfl
theorem W21_main_arg3 (c : Dev nD) : W21 m ρ c (Proc.devRef .tc main_arg3) = m ((c : Thread nD τ).loc main_arg3) :=
  (Wh hostOps2_8 hostOps2_8_W hostOps2_8_writes _ main_arg3 (by decide)).trans <|
  (Wh hostOps2_7 hostOps2_7_W hostOps2_7_writes _ main_arg3 (by decide)).trans <|
  (Wh hostOps2_6 hostOps2_6_W hostOps2_6_writes _ main_arg3 (by decide)).trans <|
  (Wh hostOps2_5 hostOps2_5_W hostOps2_5_writes _ main_arg3 (by decide)).trans <|
  (Wh hostOps2_4 hostOps2_4_W hostOps2_4_writes _ main_arg3 (by decide)).trans <|
  (Wh hostOps2_3 hostOps2_3_W hostOps2_3_writes _ main_arg3 (by decide)).trans <|
  (Wh hostOps2_2 hostOps2_2_W hostOps2_2_writes _ main_arg3 (by decide)).trans <|
  (Wh hostOps2_1 hostOps2_1_W hostOps2_1_writes _ main_arg3 (by decide)).trans <|
  (Wh hostOps2 hostOps2_W hostOps2_writes _ main_arg3 (by decide)).trans <|
  (W12_of_ne m ρ c main_arg3 (by decide)).trans <|
  (Wh hostOps1_8 hostOps1_8_W hostOps1_8_writes _ main_arg3 (by decide)).trans <|
  (Wh hostOps1_7 hostOps1_7_W hostOps1_7_writes _ main_arg3 (by decide)).trans <|
  (Wh hostOps1_6 hostOps1_6_W hostOps1_6_writes _ main_arg3 (by decide)).trans <|
  (Wh hostOps1_5 hostOps1_5_W hostOps1_5_writes _ main_arg3 (by decide)).trans <|
  (Wh hostOps1_4 hostOps1_4_W hostOps1_4_writes _ main_arg3 (by decide)).trans <|
  (Wh hostOps1_3 hostOps1_3_W hostOps1_3_writes _ main_arg3 (by decide)).trans <|
  (Wh hostOps1_2 hostOps1_2_W hostOps1_2_writes _ main_arg3 (by decide)).trans <|
  (Wh hostOps1_1 hostOps1_1_W hostOps1_1_writes _ main_arg3 (by decide)).trans <|
  (Wh hostOps1 hostOps1_W hostOps1_writes _ main_arg3 (by decide)).trans <|
  (W2_of_ne m ρ c main_arg3 (by decide)).trans <|
  (Wh hostOps0 hostOps0_W hostOps0_writes _ main_arg3 (by decide)).trans rfl
theorem W21_main_arg4 (c : Dev nD) : W21 m ρ c (Proc.devRef .tc main_arg4) = m ((c : Thread nD τ).loc main_arg4) :=
  (Wh hostOps2_8 hostOps2_8_W hostOps2_8_writes _ main_arg4 (by decide)).trans <|
  (Wh hostOps2_7 hostOps2_7_W hostOps2_7_writes _ main_arg4 (by decide)).trans <|
  (Wh hostOps2_6 hostOps2_6_W hostOps2_6_writes _ main_arg4 (by decide)).trans <|
  (Wh hostOps2_5 hostOps2_5_W hostOps2_5_writes _ main_arg4 (by decide)).trans <|
  (Wh hostOps2_4 hostOps2_4_W hostOps2_4_writes _ main_arg4 (by decide)).trans <|
  (Wh hostOps2_3 hostOps2_3_W hostOps2_3_writes _ main_arg4 (by decide)).trans <|
  (Wh hostOps2_2 hostOps2_2_W hostOps2_2_writes _ main_arg4 (by decide)).trans <|
  (Wh hostOps2_1 hostOps2_1_W hostOps2_1_writes _ main_arg4 (by decide)).trans <|
  (Wh hostOps2 hostOps2_W hostOps2_writes _ main_arg4 (by decide)).trans <|
  (W12_of_ne m ρ c main_arg4 (by decide)).trans <|
  (Wh hostOps1_8 hostOps1_8_W hostOps1_8_writes _ main_arg4 (by decide)).trans <|
  (Wh hostOps1_7 hostOps1_7_W hostOps1_7_writes _ main_arg4 (by decide)).trans <|
  (Wh hostOps1_6 hostOps1_6_W hostOps1_6_writes _ main_arg4 (by decide)).trans <|
  (Wh hostOps1_5 hostOps1_5_W hostOps1_5_writes _ main_arg4 (by decide)).trans <|
  (Wh hostOps1_4 hostOps1_4_W hostOps1_4_writes _ main_arg4 (by decide)).trans <|
  (Wh hostOps1_3 hostOps1_3_W hostOps1_3_writes _ main_arg4 (by decide)).trans <|
  (Wh hostOps1_2 hostOps1_2_W hostOps1_2_writes _ main_arg4 (by decide)).trans <|
  (Wh hostOps1_1 hostOps1_1_W hostOps1_1_writes _ main_arg4 (by decide)).trans <|
  (Wh hostOps1 hostOps1_W hostOps1_writes _ main_arg4 (by decide)).trans <|
  (W2_of_ne m ρ c main_arg4 (by decide)).trans <|
  (Wh hostOps0 hostOps0_W hostOps0_writes _ main_arg4 (by decide)).trans rfl
theorem W21_main_arg5 (c : Dev nD) : W21 m ρ c (Proc.devRef .tc main_arg5) = m ((c : Thread nD τ).loc main_arg5) :=
  (Wh hostOps2_8 hostOps2_8_W hostOps2_8_writes _ main_arg5 (by decide)).trans <|
  (Wh hostOps2_7 hostOps2_7_W hostOps2_7_writes _ main_arg5 (by decide)).trans <|
  (Wh hostOps2_6 hostOps2_6_W hostOps2_6_writes _ main_arg5 (by decide)).trans <|
  (Wh hostOps2_5 hostOps2_5_W hostOps2_5_writes _ main_arg5 (by decide)).trans <|
  (Wh hostOps2_4 hostOps2_4_W hostOps2_4_writes _ main_arg5 (by decide)).trans <|
  (Wh hostOps2_3 hostOps2_3_W hostOps2_3_writes _ main_arg5 (by decide)).trans <|
  (Wh hostOps2_2 hostOps2_2_W hostOps2_2_writes _ main_arg5 (by decide)).trans <|
  (Wh hostOps2_1 hostOps2_1_W hostOps2_1_writes _ main_arg5 (by decide)).trans <|
  (Wh hostOps2 hostOps2_W hostOps2_writes _ main_arg5 (by decide)).trans <|
  (W12_of_ne m ρ c main_arg5 (by decide)).trans <|
  (Wh hostOps1_8 hostOps1_8_W hostOps1_8_writes _ main_arg5 (by decide)).trans <|
  (Wh hostOps1_7 hostOps1_7_W hostOps1_7_writes _ main_arg5 (by decide)).trans <|
  (Wh hostOps1_6 hostOps1_6_W hostOps1_6_writes _ main_arg5 (by decide)).trans <|
  (Wh hostOps1_5 hostOps1_5_W hostOps1_5_writes _ main_arg5 (by decide)).trans <|
  (Wh hostOps1_4 hostOps1_4_W hostOps1_4_writes _ main_arg5 (by decide)).trans <|
  (Wh hostOps1_3 hostOps1_3_W hostOps1_3_writes _ main_arg5 (by decide)).trans <|
  (Wh hostOps1_2 hostOps1_2_W hostOps1_2_writes _ main_arg5 (by decide)).trans <|
  (Wh hostOps1_1 hostOps1_1_W hostOps1_1_writes _ main_arg5 (by decide)).trans <|
  (Wh hostOps1 hostOps1_W hostOps1_writes _ main_arg5 (by decide)).trans <|
  (W2_of_ne m ρ c main_arg5 (by decide)).trans <|
  (Wh hostOps0 hostOps0_W hostOps0_writes _ main_arg5 (by decide)).trans rfl
theorem W21_main_arg6 (c : Dev nD) : W21 m ρ c (Proc.devRef .tc main_arg6) = m ((c : Thread nD τ).loc main_arg6) :=
  (Wh hostOps2_8 hostOps2_8_W hostOps2_8_writes _ main_arg6 (by decide)).trans <|
  (Wh hostOps2_7 hostOps2_7_W hostOps2_7_writes _ main_arg6 (by decide)).trans <|
  (Wh hostOps2_6 hostOps2_6_W hostOps2_6_writes _ main_arg6 (by decide)).trans <|
  (Wh hostOps2_5 hostOps2_5_W hostOps2_5_writes _ main_arg6 (by decide)).trans <|
  (Wh hostOps2_4 hostOps2_4_W hostOps2_4_writes _ main_arg6 (by decide)).trans <|
  (Wh hostOps2_3 hostOps2_3_W hostOps2_3_writes _ main_arg6 (by decide)).trans <|
  (Wh hostOps2_2 hostOps2_2_W hostOps2_2_writes _ main_arg6 (by decide)).trans <|
  (Wh hostOps2_1 hostOps2_1_W hostOps2_1_writes _ main_arg6 (by decide)).trans <|
  (Wh hostOps2 hostOps2_W hostOps2_writes _ main_arg6 (by decide)).trans <|
  (W12_of_ne m ρ c main_arg6 (by decide)).trans <|
  (Wh hostOps1_8 hostOps1_8_W hostOps1_8_writes _ main_arg6 (by decide)).trans <|
  (Wh hostOps1_7 hostOps1_7_W hostOps1_7_writes _ main_arg6 (by decide)).trans <|
  (Wh hostOps1_6 hostOps1_6_W hostOps1_6_writes _ main_arg6 (by decide)).trans <|
  (Wh hostOps1_5 hostOps1_5_W hostOps1_5_writes _ main_arg6 (by decide)).trans <|
  (Wh hostOps1_4 hostOps1_4_W hostOps1_4_writes _ main_arg6 (by decide)).trans <|
  (Wh hostOps1_3 hostOps1_3_W hostOps1_3_writes _ main_arg6 (by decide)).trans <|
  (Wh hostOps1_2 hostOps1_2_W hostOps1_2_writes _ main_arg6 (by decide)).trans <|
  (Wh hostOps1_1 hostOps1_1_W hostOps1_1_writes _ main_arg6 (by decide)).trans <|
  (Wh hostOps1 hostOps1_W hostOps1_writes _ main_arg6 (by decide)).trans <|
  (W2_of_ne m ρ c main_arg6 (by decide)).trans <|
  (Wh hostOps0 hostOps0_W hostOps0_writes _ main_arg6 (by decide)).trans rfl
theorem W21_main_arg7 (c : Dev nD) : W21 m ρ c (Proc.devRef .tc main_arg7) = m ((c : Thread nD τ).loc main_arg7) :=
  (Wh hostOps2_8 hostOps2_8_W hostOps2_8_writes _ main_arg7 (by decide)).trans <|
  (Wh hostOps2_7 hostOps2_7_W hostOps2_7_writes _ main_arg7 (by decide)).trans <|
  (Wh hostOps2_6 hostOps2_6_W hostOps2_6_writes _ main_arg7 (by decide)).trans <|
  (Wh hostOps2_5 hostOps2_5_W hostOps2_5_writes _ main_arg7 (by decide)).trans <|
  (Wh hostOps2_4 hostOps2_4_W hostOps2_4_writes _ main_arg7 (by decide)).trans <|
  (Wh hostOps2_3 hostOps2_3_W hostOps2_3_writes _ main_arg7 (by decide)).trans <|
  (Wh hostOps2_2 hostOps2_2_W hostOps2_2_writes _ main_arg7 (by decide)).trans <|
  (Wh hostOps2_1 hostOps2_1_W hostOps2_1_writes _ main_arg7 (by decide)).trans <|
  (Wh hostOps2 hostOps2_W hostOps2_writes _ main_arg7 (by decide)).trans <|
  (W12_of_ne m ρ c main_arg7 (by decide)).trans <|
  (Wh hostOps1_8 hostOps1_8_W hostOps1_8_writes _ main_arg7 (by decide)).trans <|
  (Wh hostOps1_7 hostOps1_7_W hostOps1_7_writes _ main_arg7 (by decide)).trans <|
  (Wh hostOps1_6 hostOps1_6_W hostOps1_6_writes _ main_arg7 (by decide)).trans <|
  (Wh hostOps1_5 hostOps1_5_W hostOps1_5_writes _ main_arg7 (by decide)).trans <|
  (Wh hostOps1_4 hostOps1_4_W hostOps1_4_writes _ main_arg7 (by decide)).trans <|
  (Wh hostOps1_3 hostOps1_3_W hostOps1_3_writes _ main_arg7 (by decide)).trans <|
  (Wh hostOps1_2 hostOps1_2_W hostOps1_2_writes _ main_arg7 (by decide)).trans <|
  (Wh hostOps1_1 hostOps1_1_W hostOps1_1_writes _ main_arg7 (by decide)).trans <|
  (Wh hostOps1 hostOps1_W hostOps1_writes _ main_arg7 (by decide)).trans <|
  (W2_of_ne m ρ c main_arg7 (by decide)).trans <|
  (Wh hostOps0 hostOps0_W hostOps0_writes _ main_arg7 (by decide)).trans rfl
theorem W21_main_arg8 (c : Dev nD) : W21 m ρ c (Proc.devRef .tc main_arg8) = m ((c : Thread nD τ).loc main_arg8) :=
  (Wh hostOps2_8 hostOps2_8_W hostOps2_8_writes _ main_arg8 (by decide)).trans <|
  (Wh hostOps2_7 hostOps2_7_W hostOps2_7_writes _ main_arg8 (by decide)).trans <|
  (Wh hostOps2_6 hostOps2_6_W hostOps2_6_writes _ main_arg8 (by decide)).trans <|
  (Wh hostOps2_5 hostOps2_5_W hostOps2_5_writes _ main_arg8 (by decide)).trans <|
  (Wh hostOps2_4 hostOps2_4_W hostOps2_4_writes _ main_arg8 (by decide)).trans <|
  (Wh hostOps2_3 hostOps2_3_W hostOps2_3_writes _ main_arg8 (by decide)).trans <|
  (Wh hostOps2_2 hostOps2_2_W hostOps2_2_writes _ main_arg8 (by decide)).trans <|
  (Wh hostOps2_1 hostOps2_1_W hostOps2_1_writes _ main_arg8 (by decide)).trans <|
  (Wh hostOps2 hostOps2_W hostOps2_writes _ main_arg8 (by decide)).trans <|
  (W12_of_ne m ρ c main_arg8 (by decide)).trans <|
  (Wh hostOps1_8 hostOps1_8_W hostOps1_8_writes _ main_arg8 (by decide)).trans <|
  (Wh hostOps1_7 hostOps1_7_W hostOps1_7_writes _ main_arg8 (by decide)).trans <|
  (Wh hostOps1_6 hostOps1_6_W hostOps1_6_writes _ main_arg8 (by decide)).trans <|
  (Wh hostOps1_5 hostOps1_5_W hostOps1_5_writes _ main_arg8 (by decide)).trans <|
  (Wh hostOps1_4 hostOps1_4_W hostOps1_4_writes _ main_arg8 (by decide)).trans <|
  (Wh hostOps1_3 hostOps1_3_W hostOps1_3_writes _ main_arg8 (by decide)).trans <|
  (Wh hostOps1_2 hostOps1_2_W hostOps1_2_writes _ main_arg8 (by decide)).trans <|
  (Wh hostOps1_1 hostOps1_1_W hostOps1_1_writes _ main_arg8 (by decide)).trans <|
  (Wh hostOps1 hostOps1_W hostOps1_writes _ main_arg8 (by decide)).trans <|
  (W2_of_ne m ρ c main_arg8 (by decide)).trans <|
  (Wh hostOps0 hostOps0_W hostOps0_writes _ main_arg8 (by decide)).trans rfl
theorem W21_main_arg9 (c : Dev nD) : W21 m ρ c (Proc.devRef .tc main_arg9) = m ((c : Thread nD τ).loc main_arg9) :=
  (Wh hostOps2_8 hostOps2_8_W hostOps2_8_writes _ main_arg9 (by decide)).trans <|
  (Wh hostOps2_7 hostOps2_7_W hostOps2_7_writes _ main_arg9 (by decide)).trans <|
  (Wh hostOps2_6 hostOps2_6_W hostOps2_6_writes _ main_arg9 (by decide)).trans <|
  (Wh hostOps2_5 hostOps2_5_W hostOps2_5_writes _ main_arg9 (by decide)).trans <|
  (Wh hostOps2_4 hostOps2_4_W hostOps2_4_writes _ main_arg9 (by decide)).trans <|
  (Wh hostOps2_3 hostOps2_3_W hostOps2_3_writes _ main_arg9 (by decide)).trans <|
  (Wh hostOps2_2 hostOps2_2_W hostOps2_2_writes _ main_arg9 (by decide)).trans <|
  (Wh hostOps2_1 hostOps2_1_W hostOps2_1_writes _ main_arg9 (by decide)).trans <|
  (Wh hostOps2 hostOps2_W hostOps2_writes _ main_arg9 (by decide)).trans <|
  (W12_of_ne m ρ c main_arg9 (by decide)).trans <|
  (Wh hostOps1_8 hostOps1_8_W hostOps1_8_writes _ main_arg9 (by decide)).trans <|
  (Wh hostOps1_7 hostOps1_7_W hostOps1_7_writes _ main_arg9 (by decide)).trans <|
  (Wh hostOps1_6 hostOps1_6_W hostOps1_6_writes _ main_arg9 (by decide)).trans <|
  (Wh hostOps1_5 hostOps1_5_W hostOps1_5_writes _ main_arg9 (by decide)).trans <|
  (Wh hostOps1_4 hostOps1_4_W hostOps1_4_writes _ main_arg9 (by decide)).trans <|
  (Wh hostOps1_3 hostOps1_3_W hostOps1_3_writes _ main_arg9 (by decide)).trans <|
  (Wh hostOps1_2 hostOps1_2_W hostOps1_2_writes _ main_arg9 (by decide)).trans <|
  (Wh hostOps1_1 hostOps1_1_W hostOps1_1_writes _ main_arg9 (by decide)).trans <|
  (Wh hostOps1 hostOps1_W hostOps1_writes _ main_arg9 (by decide)).trans <|
  (W2_of_ne m ρ c main_arg9 (by decide)).trans <|
  (Wh hostOps0 hostOps0_W hostOps0_writes _ main_arg9 (by decide)).trans rfl
theorem W21_main_arg10 (c : Dev nD) : W21 m ρ c (Proc.devRef .tc main_arg10) = m ((c : Thread nD τ).loc main_arg10) :=
  (Wh hostOps2_8 hostOps2_8_W hostOps2_8_writes _ main_arg10 (by decide)).trans <|
  (Wh hostOps2_7 hostOps2_7_W hostOps2_7_writes _ main_arg10 (by decide)).trans <|
  (Wh hostOps2_6 hostOps2_6_W hostOps2_6_writes _ main_arg10 (by decide)).trans <|
  (Wh hostOps2_5 hostOps2_5_W hostOps2_5_writes _ main_arg10 (by decide)).trans <|
  (Wh hostOps2_4 hostOps2_4_W hostOps2_4_writes _ main_arg10 (by decide)).trans <|
  (Wh hostOps2_3 hostOps2_3_W hostOps2_3_writes _ main_arg10 (by decide)).trans <|
  (Wh hostOps2_2 hostOps2_2_W hostOps2_2_writes _ main_arg10 (by decide)).trans <|
  (Wh hostOps2_1 hostOps2_1_W hostOps2_1_writes _ main_arg10 (by decide)).trans <|
  (Wh hostOps2 hostOps2_W hostOps2_writes _ main_arg10 (by decide)).trans <|
  (W12_of_ne m ρ c main_arg10 (by decide)).trans <|
  (Wh hostOps1_8 hostOps1_8_W hostOps1_8_writes _ main_arg10 (by decide)).trans <|
  (Wh hostOps1_7 hostOps1_7_W hostOps1_7_writes _ main_arg10 (by decide)).trans <|
  (Wh hostOps1_6 hostOps1_6_W hostOps1_6_writes _ main_arg10 (by decide)).trans <|
  (Wh hostOps1_5 hostOps1_5_W hostOps1_5_writes _ main_arg10 (by decide)).trans <|
  (Wh hostOps1_4 hostOps1_4_W hostOps1_4_writes _ main_arg10 (by decide)).trans <|
  (Wh hostOps1_3 hostOps1_3_W hostOps1_3_writes _ main_arg10 (by decide)).trans <|
  (Wh hostOps1_2 hostOps1_2_W hostOps1_2_writes _ main_arg10 (by decide)).trans <|
  (Wh hostOps1_1 hostOps1_1_W hostOps1_1_writes _ main_arg10 (by decide)).trans <|
  (Wh hostOps1 hostOps1_W hostOps1_writes _ main_arg10 (by decide)).trans <|
  (W2_of_ne m ρ c main_arg10 (by decide)).trans <|
  (Wh hostOps0 hostOps0_W hostOps0_writes _ main_arg10 (by decide)).trans rfl
theorem W21_main_arg11 (c : Dev nD) : W21 m ρ c (Proc.devRef .tc main_arg11) = m ((c : Thread nD τ).loc main_arg11) :=
  (Wh hostOps2_8 hostOps2_8_W hostOps2_8_writes _ main_arg11 (by decide)).trans <|
  (Wh hostOps2_7 hostOps2_7_W hostOps2_7_writes _ main_arg11 (by decide)).trans <|
  (Wh hostOps2_6 hostOps2_6_W hostOps2_6_writes _ main_arg11 (by decide)).trans <|
  (Wh hostOps2_5 hostOps2_5_W hostOps2_5_writes _ main_arg11 (by decide)).trans <|
  (Wh hostOps2_4 hostOps2_4_W hostOps2_4_writes _ main_arg11 (by decide)).trans <|
  (Wh hostOps2_3 hostOps2_3_W hostOps2_3_writes _ main_arg11 (by decide)).trans <|
  (Wh hostOps2_2 hostOps2_2_W hostOps2_2_writes _ main_arg11 (by decide)).trans <|
  (Wh hostOps2_1 hostOps2_1_W hostOps2_1_writes _ main_arg11 (by decide)).trans <|
  (Wh hostOps2 hostOps2_W hostOps2_writes _ main_arg11 (by decide)).trans <|
  (W12_of_ne m ρ c main_arg11 (by decide)).trans <|
  (Wh hostOps1_8 hostOps1_8_W hostOps1_8_writes _ main_arg11 (by decide)).trans <|
  (Wh hostOps1_7 hostOps1_7_W hostOps1_7_writes _ main_arg11 (by decide)).trans <|
  (Wh hostOps1_6 hostOps1_6_W hostOps1_6_writes _ main_arg11 (by decide)).trans <|
  (Wh hostOps1_5 hostOps1_5_W hostOps1_5_writes _ main_arg11 (by decide)).trans <|
  (Wh hostOps1_4 hostOps1_4_W hostOps1_4_writes _ main_arg11 (by decide)).trans <|
  (Wh hostOps1_3 hostOps1_3_W hostOps1_3_writes _ main_arg11 (by decide)).trans <|
  (Wh hostOps1_2 hostOps1_2_W hostOps1_2_writes _ main_arg11 (by decide)).trans <|
  (Wh hostOps1_1 hostOps1_1_W hostOps1_1_writes _ main_arg11 (by decide)).trans <|
  (Wh hostOps1 hostOps1_W hostOps1_writes _ main_arg11 (by decide)).trans <|
  (W2_of_ne m ρ c main_arg11 (by decide)).trans <|
  (Wh hostOps0 hostOps0_W hostOps0_writes _ main_arg11 (by decide)).trans rfl
theorem W21_main_arg12 (c : Dev nD) : W21 m ρ c (Proc.devRef .tc main_arg12) = m ((c : Thread nD τ).loc main_arg12) :=
  (Wh hostOps2_8 hostOps2_8_W hostOps2_8_writes _ main_arg12 (by decide)).trans <|
  (Wh hostOps2_7 hostOps2_7_W hostOps2_7_writes _ main_arg12 (by decide)).trans <|
  (Wh hostOps2_6 hostOps2_6_W hostOps2_6_writes _ main_arg12 (by decide)).trans <|
  (Wh hostOps2_5 hostOps2_5_W hostOps2_5_writes _ main_arg12 (by decide)).trans <|
  (Wh hostOps2_4 hostOps2_4_W hostOps2_4_writes _ main_arg12 (by decide)).trans <|
  (Wh hostOps2_3 hostOps2_3_W hostOps2_3_writes _ main_arg12 (by decide)).trans <|
  (Wh hostOps2_2 hostOps2_2_W hostOps2_2_writes _ main_arg12 (by decide)).trans <|
  (Wh hostOps2_1 hostOps2_1_W hostOps2_1_writes _ main_arg12 (by decide)).trans <|
  (Wh hostOps2 hostOps2_W hostOps2_writes _ main_arg12 (by decide)).trans <|
  (W12_of_ne m ρ c main_arg12 (by decide)).trans <|
  (Wh hostOps1_8 hostOps1_8_W hostOps1_8_writes _ main_arg12 (by decide)).trans <|
  (Wh hostOps1_7 hostOps1_7_W hostOps1_7_writes _ main_arg12 (by decide)).trans <|
  (Wh hostOps1_6 hostOps1_6_W hostOps1_6_writes _ main_arg12 (by decide)).trans <|
  (Wh hostOps1_5 hostOps1_5_W hostOps1_5_writes _ main_arg12 (by decide)).trans <|
  (Wh hostOps1_4 hostOps1_4_W hostOps1_4_writes _ main_arg12 (by decide)).trans <|
  (Wh hostOps1_3 hostOps1_3_W hostOps1_3_writes _ main_arg12 (by decide)).trans <|
  (Wh hostOps1_2 hostOps1_2_W hostOps1_2_writes _ main_arg12 (by decide)).trans <|
  (Wh hostOps1_1 hostOps1_1_W hostOps1_1_writes _ main_arg12 (by decide)).trans <|
  (Wh hostOps1 hostOps1_W hostOps1_writes _ main_arg12 (by decide)).trans <|
  (W2_of_ne m ρ c main_arg12 (by decide)).trans <|
  (Wh hostOps0 hostOps0_W hostOps0_writes _ main_arg12 (by decide)).trans rfl
theorem W21_main_arg13 (c : Dev nD) : W21 m ρ c (Proc.devRef .tc main_arg13) = m ((c : Thread nD τ).loc main_arg13) :=
  (Wh hostOps2_8 hostOps2_8_W hostOps2_8_writes _ main_arg13 (by decide)).trans <|
  (Wh hostOps2_7 hostOps2_7_W hostOps2_7_writes _ main_arg13 (by decide)).trans <|
  (Wh hostOps2_6 hostOps2_6_W hostOps2_6_writes _ main_arg13 (by decide)).trans <|
  (Wh hostOps2_5 hostOps2_5_W hostOps2_5_writes _ main_arg13 (by decide)).trans <|
  (Wh hostOps2_4 hostOps2_4_W hostOps2_4_writes _ main_arg13 (by decide)).trans <|
  (Wh hostOps2_3 hostOps2_3_W hostOps2_3_writes _ main_arg13 (by decide)).trans <|
  (Wh hostOps2_2 hostOps2_2_W hostOps2_2_writes _ main_arg13 (by decide)).trans <|
  (Wh hostOps2_1 hostOps2_1_W hostOps2_1_writes _ main_arg13 (by decide)).trans <|
  (Wh hostOps2 hostOps2_W hostOps2_writes _ main_arg13 (by decide)).trans <|
  (W12_of_ne m ρ c main_arg13 (by decide)).trans <|
  (Wh hostOps1_8 hostOps1_8_W hostOps1_8_writes _ main_arg13 (by decide)).trans <|
  (Wh hostOps1_7 hostOps1_7_W hostOps1_7_writes _ main_arg13 (by decide)).trans <|
  (Wh hostOps1_6 hostOps1_6_W hostOps1_6_writes _ main_arg13 (by decide)).trans <|
  (Wh hostOps1_5 hostOps1_5_W hostOps1_5_writes _ main_arg13 (by decide)).trans <|
  (Wh hostOps1_4 hostOps1_4_W hostOps1_4_writes _ main_arg13 (by decide)).trans <|
  (Wh hostOps1_3 hostOps1_3_W hostOps1_3_writes _ main_arg13 (by decide)).trans <|
  (Wh hostOps1_2 hostOps1_2_W hostOps1_2_writes _ main_arg13 (by decide)).trans <|
  (Wh hostOps1_1 hostOps1_1_W hostOps1_1_writes _ main_arg13 (by decide)).trans <|
  (Wh hostOps1 hostOps1_W hostOps1_writes _ main_arg13 (by decide)).trans <|
  (W2_of_ne m ρ c main_arg13 (by decide)).trans <|
  (Wh hostOps0 hostOps0_W hostOps0_writes _ main_arg13 (by decide)).trans rfl
theorem W21_main_arg14 (c : Dev nD) : W21 m ρ c (Proc.devRef .tc main_arg14) = m ((c : Thread nD τ).loc main_arg14) :=
  (Wh hostOps2_8 hostOps2_8_W hostOps2_8_writes _ main_arg14 (by decide)).trans <|
  (Wh hostOps2_7 hostOps2_7_W hostOps2_7_writes _ main_arg14 (by decide)).trans <|
  (Wh hostOps2_6 hostOps2_6_W hostOps2_6_writes _ main_arg14 (by decide)).trans <|
  (Wh hostOps2_5 hostOps2_5_W hostOps2_5_writes _ main_arg14 (by decide)).trans <|
  (Wh hostOps2_4 hostOps2_4_W hostOps2_4_writes _ main_arg14 (by decide)).trans <|
  (Wh hostOps2_3 hostOps2_3_W hostOps2_3_writes _ main_arg14 (by decide)).trans <|
  (Wh hostOps2_2 hostOps2_2_W hostOps2_2_writes _ main_arg14 (by decide)).trans <|
  (Wh hostOps2_1 hostOps2_1_W hostOps2_1_writes _ main_arg14 (by decide)).trans <|
  (Wh hostOps2 hostOps2_W hostOps2_writes _ main_arg14 (by decide)).trans <|
  (W12_of_ne m ρ c main_arg14 (by decide)).trans <|
  (Wh hostOps1_8 hostOps1_8_W hostOps1_8_writes _ main_arg14 (by decide)).trans <|
  (Wh hostOps1_7 hostOps1_7_W hostOps1_7_writes _ main_arg14 (by decide)).trans <|
  (Wh hostOps1_6 hostOps1_6_W hostOps1_6_writes _ main_arg14 (by decide)).trans <|
  (Wh hostOps1_5 hostOps1_5_W hostOps1_5_writes _ main_arg14 (by decide)).trans <|
  (Wh hostOps1_4 hostOps1_4_W hostOps1_4_writes _ main_arg14 (by decide)).trans <|
  (Wh hostOps1_3 hostOps1_3_W hostOps1_3_writes _ main_arg14 (by decide)).trans <|
  (Wh hostOps1_2 hostOps1_2_W hostOps1_2_writes _ main_arg14 (by decide)).trans <|
  (Wh hostOps1_1 hostOps1_1_W hostOps1_1_writes _ main_arg14 (by decide)).trans <|
  (Wh hostOps1 hostOps1_W hostOps1_writes _ main_arg14 (by decide)).trans <|
  (W2_of_ne m ρ c main_arg14 (by decide)).trans <|
  (Wh hostOps0 hostOps0_W hostOps0_writes _ main_arg14 (by decide)).trans rfl
theorem W21_main_arg15 (c : Dev nD) : W21 m ρ c (Proc.devRef .tc main_arg15) = m ((c : Thread nD τ).loc main_arg15) :=
  (Wh hostOps2_8 hostOps2_8_W hostOps2_8_writes _ main_arg15 (by decide)).trans <|
  (Wh hostOps2_7 hostOps2_7_W hostOps2_7_writes _ main_arg15 (by decide)).trans <|
  (Wh hostOps2_6 hostOps2_6_W hostOps2_6_writes _ main_arg15 (by decide)).trans <|
  (Wh hostOps2_5 hostOps2_5_W hostOps2_5_writes _ main_arg15 (by decide)).trans <|
  (Wh hostOps2_4 hostOps2_4_W hostOps2_4_writes _ main_arg15 (by decide)).trans <|
  (Wh hostOps2_3 hostOps2_3_W hostOps2_3_writes _ main_arg15 (by decide)).trans <|
  (Wh hostOps2_2 hostOps2_2_W hostOps2_2_writes _ main_arg15 (by decide)).trans <|
  (Wh hostOps2_1 hostOps2_1_W hostOps2_1_writes _ main_arg15 (by decide)).trans <|
  (Wh hostOps2 hostOps2_W hostOps2_writes _ main_arg15 (by decide)).trans <|
  (W12_of_ne m ρ c main_arg15 (by decide)).trans <|
  (Wh hostOps1_8 hostOps1_8_W hostOps1_8_writes _ main_arg15 (by decide)).trans <|
  (Wh hostOps1_7 hostOps1_7_W hostOps1_7_writes _ main_arg15 (by decide)).trans <|
  (Wh hostOps1_6 hostOps1_6_W hostOps1_6_writes _ main_arg15 (by decide)).trans <|
  (Wh hostOps1_5 hostOps1_5_W hostOps1_5_writes _ main_arg15 (by decide)).trans <|
  (Wh hostOps1_4 hostOps1_4_W hostOps1_4_writes _ main_arg15 (by decide)).trans <|
  (Wh hostOps1_3 hostOps1_3_W hostOps1_3_writes _ main_arg15 (by decide)).trans <|
  (Wh hostOps1_2 hostOps1_2_W hostOps1_2_writes _ main_arg15 (by decide)).trans <|
  (Wh hostOps1_1 hostOps1_1_W hostOps1_1_writes _ main_arg15 (by decide)).trans <|
  (Wh hostOps1 hostOps1_W hostOps1_writes _ main_arg15 (by decide)).trans <|
  (W2_of_ne m ρ c main_arg15 (by decide)).trans <|
  (Wh hostOps0 hostOps0_W hostOps0_writes _ main_arg15 (by decide)).trans rfl
theorem W21_main_arg16 (c : Dev nD) : W21 m ρ c (Proc.devRef .tc main_arg16) = m ((c : Thread nD τ).loc main_arg16) :=
  (Wh hostOps2_8 hostOps2_8_W hostOps2_8_writes _ main_arg16 (by decide)).trans <|
  (Wh hostOps2_7 hostOps2_7_W hostOps2_7_writes _ main_arg16 (by decide)).trans <|
  (Wh hostOps2_6 hostOps2_6_W hostOps2_6_writes _ main_arg16 (by decide)).trans <|
  (Wh hostOps2_5 hostOps2_5_W hostOps2_5_writes _ main_arg16 (by decide)).trans <|
  (Wh hostOps2_4 hostOps2_4_W hostOps2_4_writes _ main_arg16 (by decide)).trans <|
  (Wh hostOps2_3 hostOps2_3_W hostOps2_3_writes _ main_arg16 (by decide)).trans <|
  (Wh hostOps2_2 hostOps2_2_W hostOps2_2_writes _ main_arg16 (by decide)).trans <|
  (Wh hostOps2_1 hostOps2_1_W hostOps2_1_writes _ main_arg16 (by decide)).trans <|
  (Wh hostOps2 hostOps2_W hostOps2_writes _ main_arg16 (by decide)).trans <|
  (W12_of_ne m ρ c main_arg16 (by decide)).trans <|
  (Wh hostOps1_8 hostOps1_8_W hostOps1_8_writes _ main_arg16 (by decide)).trans <|
  (Wh hostOps1_7 hostOps1_7_W hostOps1_7_writes _ main_arg16 (by decide)).trans <|
  (Wh hostOps1_6 hostOps1_6_W hostOps1_6_writes _ main_arg16 (by decide)).trans <|
  (Wh hostOps1_5 hostOps1_5_W hostOps1_5_writes _ main_arg16 (by decide)).trans <|
  (Wh hostOps1_4 hostOps1_4_W hostOps1_4_writes _ main_arg16 (by decide)).trans <|
  (Wh hostOps1_3 hostOps1_3_W hostOps1_3_writes _ main_arg16 (by decide)).trans <|
  (Wh hostOps1_2 hostOps1_2_W hostOps1_2_writes _ main_arg16 (by decide)).trans <|
  (Wh hostOps1_1 hostOps1_1_W hostOps1_1_writes _ main_arg16 (by decide)).trans <|
  (Wh hostOps1 hostOps1_W hostOps1_writes _ main_arg16 (by decide)).trans <|
  (W2_of_ne m ρ c main_arg16 (by decide)).trans <|
  (Wh hostOps0 hostOps0_W hostOps0_writes _ main_arg16 (by decide)).trans rfl
theorem W21_main_arg17 (c : Dev nD) : W21 m ρ c (Proc.devRef .tc main_arg17) = m ((c : Thread nD τ).loc main_arg17) :=
  (Wh hostOps2_8 hostOps2_8_W hostOps2_8_writes _ main_arg17 (by decide)).trans <|
  (Wh hostOps2_7 hostOps2_7_W hostOps2_7_writes _ main_arg17 (by decide)).trans <|
  (Wh hostOps2_6 hostOps2_6_W hostOps2_6_writes _ main_arg17 (by decide)).trans <|
  (Wh hostOps2_5 hostOps2_5_W hostOps2_5_writes _ main_arg17 (by decide)).trans <|
  (Wh hostOps2_4 hostOps2_4_W hostOps2_4_writes _ main_arg17 (by decide)).trans <|
  (Wh hostOps2_3 hostOps2_3_W hostOps2_3_writes _ main_arg17 (by decide)).trans <|
  (Wh hostOps2_2 hostOps2_2_W hostOps2_2_writes _ main_arg17 (by decide)).trans <|
  (Wh hostOps2_1 hostOps2_1_W hostOps2_1_writes _ main_arg17 (by decide)).trans <|
  (Wh hostOps2 hostOps2_W hostOps2_writes _ main_arg17 (by decide)).trans <|
  (W12_of_ne m ρ c main_arg17 (by decide)).trans <|
  (Wh hostOps1_8 hostOps1_8_W hostOps1_8_writes _ main_arg17 (by decide)).trans <|
  (Wh hostOps1_7 hostOps1_7_W hostOps1_7_writes _ main_arg17 (by decide)).trans <|
  (Wh hostOps1_6 hostOps1_6_W hostOps1_6_writes _ main_arg17 (by decide)).trans <|
  (Wh hostOps1_5 hostOps1_5_W hostOps1_5_writes _ main_arg17 (by decide)).trans <|
  (Wh hostOps1_4 hostOps1_4_W hostOps1_4_writes _ main_arg17 (by decide)).trans <|
  (Wh hostOps1_3 hostOps1_3_W hostOps1_3_writes _ main_arg17 (by decide)).trans <|
  (Wh hostOps1_2 hostOps1_2_W hostOps1_2_writes _ main_arg17 (by decide)).trans <|
  (Wh hostOps1_1 hostOps1_1_W hostOps1_1_writes _ main_arg17 (by decide)).trans <|
  (Wh hostOps1 hostOps1_W hostOps1_writes _ main_arg17 (by decide)).trans <|
  (W2_of_ne m ρ c main_arg17 (by decide)).trans <|
  (Wh hostOps0 hostOps0_W hostOps0_writes _ main_arg17 (by decide)).trans rfl
theorem W21_main_arg18 (c : Dev nD) : W21 m ρ c (Proc.devRef .tc main_arg18) = m ((c : Thread nD τ).loc main_arg18) :=
  (Wh hostOps2_8 hostOps2_8_W hostOps2_8_writes _ main_arg18 (by decide)).trans <|
  (Wh hostOps2_7 hostOps2_7_W hostOps2_7_writes _ main_arg18 (by decide)).trans <|
  (Wh hostOps2_6 hostOps2_6_W hostOps2_6_writes _ main_arg18 (by decide)).trans <|
  (Wh hostOps2_5 hostOps2_5_W hostOps2_5_writes _ main_arg18 (by decide)).trans <|
  (Wh hostOps2_4 hostOps2_4_W hostOps2_4_writes _ main_arg18 (by decide)).trans <|
  (Wh hostOps2_3 hostOps2_3_W hostOps2_3_writes _ main_arg18 (by decide)).trans <|
  (Wh hostOps2_2 hostOps2_2_W hostOps2_2_writes _ main_arg18 (by decide)).trans <|
  (Wh hostOps2_1 hostOps2_1_W hostOps2_1_writes _ main_arg18 (by decide)).trans <|
  (Wh hostOps2 hostOps2_W hostOps2_writes _ main_arg18 (by decide)).trans <|
  (W12_of_ne m ρ c main_arg18 (by decide)).trans <|
  (Wh hostOps1_8 hostOps1_8_W hostOps1_8_writes _ main_arg18 (by decide)).trans <|
  (Wh hostOps1_7 hostOps1_7_W hostOps1_7_writes _ main_arg18 (by decide)).trans <|
  (Wh hostOps1_6 hostOps1_6_W hostOps1_6_writes _ main_arg18 (by decide)).trans <|
  (Wh hostOps1_5 hostOps1_5_W hostOps1_5_writes _ main_arg18 (by decide)).trans <|
  (Wh hostOps1_4 hostOps1_4_W hostOps1_4_writes _ main_arg18 (by decide)).trans <|
  (Wh hostOps1_3 hostOps1_3_W hostOps1_3_writes _ main_arg18 (by decide)).trans <|
  (Wh hostOps1_2 hostOps1_2_W hostOps1_2_writes _ main_arg18 (by decide)).trans <|
  (Wh hostOps1_1 hostOps1_1_W hostOps1_1_writes _ main_arg18 (by decide)).trans <|
  (Wh hostOps1 hostOps1_W hostOps1_writes _ main_arg18 (by decide)).trans <|
  (W2_of_ne m ρ c main_arg18 (by decide)).trans <|
  (Wh hostOps0 hostOps0_W hostOps0_writes _ main_arg18 (by decide)).trans rfl

/-! ## The proof data family and the thread state -/

abbrev tabs : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) tabs p) c
  | ⟨0, _⟩ => fun c => dat0 (E1 m ρ) c
  | ⟨1, _⟩ => fun c => dat1 (E11 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0 over the thread state: entered from every unscoped buffer at the contents before it, left at the contents
    after it. Its arrays are split out of the unscoped buffers and put back at the exit contents; the generator register
    and the scoped buffers go into the invariant and come out; nothing is owed; the kernel has no semaphore of its own. -/
def reg0 : Pipeline.RegionSeg (pcfgs (F := F)) tabs (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tabs (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (E1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ (Pipeline.ΦA spec0 c : sProp 𝕄) from hout0 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the contents
    after it. Its arrays are split out of the unscoped buffers and put back at the exit contents; the generator register
    and the scoped buffers go into the invariant and come out; nothing is owed; the kernel has no semaphore of its own. -/
def reg1 : Pipeline.RegionSeg (pcfgs (F := F)) tabs (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (E11 m ρ c)
  hentry c := by
    rw [Pipeline.ownSems0_none]
    have hsplit := Pipeline.arrays_of_unscopedBufs (p := 1) (pcfgs (F := F)) tabs (pdats m ρ) launch1.win launch1.arr_whole c
      ((pdats m ρ 1 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (E11 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (E11 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m ρ) ((pdats m ρ 1 c).share_full fun _ => rfl)
      (E11 m ρ c) (X12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev items : List (Pipeline.Seg (pcfgs (F := F)) tabs (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .host (hseg hostOps2_5 hostOps2_5_sub hostOps2_5_fresh (W17 m ρ)),
    .host (hseg hostOps2_6 hostOps2_6_sub hostOps2_6_fresh (W18 m ρ)),
    .host (hseg hostOps2_7 hostOps2_7_sub hostOps2_7_fresh (W19 m ρ)),
    .host (hseg hostOps2_8 hostOps2_8_sub hostOps2_8_fresh (W20 m ρ)) ]

set_option backward.isDefEq.respectTransparency.types false in
set_option maxHeartbeats 4000000 in
/-- THE RUN. From any memory with zero counters every weakly fair execution of @main terminates, nothing faulting, and
    every unscoped buffer ends at the last contents of the chain above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) tabs (pdats m ρ) () cellOf_inj emb₁ defs₀ 𝒱₀ L lv m ρ main (items m ρ)
    (fun c Q => by
      rewrite [main_chain c, Pipeline.Seg.run_eq_chain,
        show (items m ρ).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W21 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => sep_mono .rfl (show R c ⊢ _ from by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨Hh, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c),
      (h c _ (mem_uc main_arg9 (by decide))).trans (W21_main_arg9 m ρ c),
      (h c _ (mem_uc main_arg10 (by decide))).trans (W21_main_arg10 m ρ c),
      (h c _ (mem_uc main_arg11 (by decide))).trans (W21_main_arg11 m ρ c),
      (h c _ (mem_uc main_arg12 (by decide))).trans (W21_main_arg12 m ρ c),
      (h c _ (mem_uc main_arg13 (by decide))).trans (W21_main_arg13 m ρ c),
      (h c _ (mem_uc main_arg14 (by decide))).trans (W21_main_arg14 m ρ c),
      (h c _ (mem_uc main_arg15 (by decide))).trans (W21_main_arg15 m ρ c),
      (h c _ (mem_uc main_arg16 (by decide))).trans (W21_main_arg16 m ρ c),
      (h c _ (mem_uc main_arg17 (by decide))).trans (W21_main_arg17 m ρ c),
      (h c _ (mem_uc main_arg18 (by decide))).trans (W21_main_arg18 m ρ c)⟩) (run_all m ρ)

end Cert.Kernel.Hand

end
-- ==== Proof.RefOps.lean ====
/- The reference program's @main as ONE straight line of host operations.
   @main calls three outlined functions: the column variance (which itself calls the outlined select) four times and the
   positive part four times. A call executes the callee's body on the operands, so each call is replaced here by the
   operations of that body over the call's own buffers; what remains is a list of 214 operations. The list is cut where the
   mathematics has its joints — a neighbour average, one linear-normalize-rectify block, the readout — and @main is that
   list run in order (`main_eq`). Every operation touches TensorCore buffers only (`ops_sub`), and the signature scopes
   no buffer and no semaphore: what the run of a straight line asks for. -/
import proofs.«153131_j8177617732272_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The row sums of the adjacency (its product with a column of ones), the product of the adjacency with the node features, and their quotient row by row: the first neighbour average. -/
abbrev ops_agg0 : List (HloOp τ sig (Elt F)) :=
  [ nullary main_cst (constant S_ .f32 0x3F800000#32),
    unary main_cst main_v0 (broadcastInDim S16384x1 ![] bcast_S_S16384x1 : (⟨S_, .f32⟩ : BufTy).Contents (Elt F) → (⟨S16384x1, .f32⟩ : BufTy).Contents (Elt F)),
    binary main_arg1 main_v0 main_v1 ((fun l r => Host.dotGeneral dot_S16384x16384_S16384x1_S16384x1_1_0_0_1_n_n none l r) : (⟨S16384x16384, .f32⟩ : BufTy).Contents (Elt F) → (⟨S16384x1, .f32⟩ : BufTy).Contents (Elt F) → (⟨S16384x1, .f32⟩ : BufTy).Contents (Elt F)),
    binary main_arg1 main_arg0 main_v2 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    unary main_v1 main_v3 (broadcastInDim S16384x64 ![0, 1] bcast_S16384x1_S16384x64_0_1 : (⟨S16384x1, .f32⟩ : BufTy).Contents (Elt F) → (⟨S16384x64, .f32⟩ : BufTy).Contents (Elt F)),
    binary main_v2 main_v3 main_v4 (Host.divf : (⟨S16384x64, .f32⟩ : BufTy).Contents (Elt F) → (⟨S16384x64, .f32⟩ : BufTy).Contents (Elt F) → (⟨S16384x64, .f32⟩ : BufTy).Contents (Elt F)) ]

/-- Layer 0, first block: the affine map by the first weight and bias, the column mean, the column variance (the outlined variance with its guard on the divisor, itself calling the outlined select), the normalization scaled and shifted, and the positive part. -/
abbrev ops_h0a : List (HloOp τ sig (Elt F)) :=
  [ binary main_v4 main_arg3 main_v5 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg4 main_v6 (broadcastInDim S1x64 ![1] bcast_S64_S1x64_1 : (⟨S64, .f32⟩ : BufTy).Contents (Elt F) → (⟨S1x64, .f32⟩ : BufTy).Contents (Elt F)),
    unary main_v6 main_v7 (broadcastInDim S16384x64 ![0, 1] bcast_S1x64_S16384x64_0_1 : (⟨S1x64, .f32⟩ : BufTy).Contents (Elt F) → (⟨S16384x64, .f32⟩ : BufTy).Contents (Elt F)),
    binary main_v5 main_v7 main_v8 (addf : (⟨S16384x64, .f32⟩ : BufTy).Contents (Elt F) → (⟨S16384x64, .f32⟩ : BufTy).Contents (Elt F) → (⟨S16384x64, .f32⟩ : BufTy).Contents (Elt F)),
    nullary main_cst_0 (constant S_ .f32 0x00000000#32),
    binary main_v8 main_cst_0 main_v9 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    nullary main_cst_1 (constant S_ .f32 0x46800000#32),
    unary main_cst_1 main_v10 (broadcastInDim S64 ![] bcast_S_S64 : (⟨S_, .f32⟩ : BufTy).Contents (Elt F) → (⟨S64, .f32⟩ : BufTy).Contents (Elt F)),
    binary main_v9 main_v10 main_v11 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v8) main_call0.cst main_call0.v0 (fun x v => Host.reduceAdd x v reducesTo_S16384x64_S64_d0 h_S_),
    TRef.unary main_call0.v0 main_call0.v1 (broadcastInDim S1x64 ![1] bcast_S64_S1x64_1),
    TRef.nullary main_call0.cst_0 (constant S_ .f32 0x46800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S16384x64 ![0, 1] bcast_S1x64_S16384x64_0_1),
    TRef.binary (.of main_v8) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v11 main_v13 (broadcastInDim S1x64 ![1] bcast_S64_S1x64_1 : (⟨S64, .f32⟩ : BufTy).Contents (Elt F) → (⟨S1x64, .f32⟩ : BufTy).Contents (Elt F)),
    unary main_v13 main_v14 (broadcastInDim S16384x64 ![0, 1] bcast_S1x64_S16384x64_0_1 : (⟨S1x64, .f32⟩ : BufTy).Contents (Elt F) → (⟨S16384x64, .f32⟩ : BufTy).Contents (Elt F)),
    binary main_v8 main_v14 main_v15 (subf : (⟨S16384x64, .f32⟩ : BufTy).Contents (Elt F) → (⟨S16384x64, .f32⟩ : BufTy).Contents (Elt F) → (⟨S16384x64, .f32⟩ : BufTy).Contents (Elt F)),
    unary main_arg5 main_v16 (broadcastInDim S1x64 ![1] bcast_S64_S1x64_1 : (⟨S64, .f32⟩ : BufTy).Contents (Elt F) → (⟨S1x64, .f32⟩ : BufTy).Contents (Elt F)),
    unary main_v16 main_v17 (broadcastInDim S16384x64 ![0, 1] bcast_S1x64_S16384x64_0_1 : (⟨S1x64, .f32⟩ : BufTy).Contents (Elt F) → (⟨S16384x64, .f32⟩ : BufTy).Contents (Elt F)),
    binary main_v17 main_v15 main_v18 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x3727C5AC#32),
    unary main_cst_2 main_v19 (broadcastInDim S64 ![] bcast_S_S64 : (⟨S_, .f32⟩ : BufTy).Contents (Elt F) → (⟨S64, .f32⟩ : BufTy).Contents (Elt F)),
    binary main_v12 main_v19 main_v20 (addf : (⟨S64, .f32⟩ : BufTy).Contents (Elt F) → (⟨S64, .f32⟩ : BufTy).Contents (Elt F) → (⟨S64, .f32⟩ : BufTy).Contents (Elt F)),
    unary main_v20 main_v21 (Host.rsqrt : (⟨S64, .f32⟩ : BufTy).Contents (Elt F) → (⟨S64, .f32⟩ : BufTy).Contents (Elt F)),
    unary main_v21 main_v22 (broadcastInDim S1x64 ![1] bcast_S64_S1x64_1 : (⟨S64, .f32⟩ : BufTy).Contents (Elt F) → (⟨S1x64, .f32⟩ : BufTy).Contents (Elt F)),
    unary main_v22 main_v23 (broadcastInDim S16384x64 ![0, 1] bcast_S1x64_S16384x64_0_1 : (⟨S1x64, .f32⟩ : BufTy).Contents (Elt F) → (⟨S16384x64, .f32⟩ : BufTy).Contents (Elt F)),
    binary main_v18 main_v23 main_v24 (mulf : (⟨S16384x64, .f32⟩ : BufTy).Contents (Elt F) → (⟨S16384x64, .f32⟩ : BufTy).Contents (Elt F) → (⟨S16384x64, .f32⟩ : BufTy).Contents (Elt F)),
    unary main_arg6 main_v25 (broadcastInDim S1x64 ![1] bcast_S64_S1x64_1 : (⟨S64, .f32⟩ : BufTy).Contents (Elt F) → (⟨S1x64, .f32⟩ : BufTy).Contents (Elt F)),
    unary main_v25 main_v26 (broadcastInDim S16384x64 ![0, 1] bcast_S1x64_S16384x64_0_1 : (⟨S1x64, .f32⟩ : BufTy).Contents (Elt F) → (⟨S16384x64, .f32⟩ : BufTy).Contents (Elt F)),
    binary main_v24 main_v26 main_v27 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v27) main_call1.v0 main_call1.v1 maximumf ]

/-- Layer 0, second block up to the shift: the affine map by the second weight and bias, the column mean and variance, the normalization scaled, and the shift broadcast to all rows. -/
abbrev ops_h0b : List (HloOp τ sig (Elt F)) :=
  [ binary main_v28 main_arg7 main_v29 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg8 main_v30 (broadcastInDim S1x64 ![1] bcast_S64_S1x64_1 : (⟨S64, .f32⟩ : BufTy).Contents (Elt F) → (⟨S1x64, .f32⟩ : BufTy).Contents (Elt F)),
    unary main_v30 main_v31 (broadcastInDim S16384x64 ![0, 1] bcast_S1x64_S16384x64_0_1 : (⟨S1x64, .f32⟩ : BufTy).Contents (Elt F) → (⟨S16384x64, .f32⟩ : BufTy).Contents (Elt F)),
    binary main_v29 main_v31 main_v32 (addf : (⟨S16384x64, .f32⟩ : BufTy).Contents (Elt F) → (⟨S16384x64, .f32⟩ : BufTy).Contents (Elt F) → (⟨S16384x64, .f32⟩ : BufTy).Contents (Elt F)),
    nullary main_cst_3 (constant S_ .f32 0x00000000#32),
    binary main_v32 main_cst_3 main_v33 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    nullary main_cst_4 (constant S_ .f32 0x46800000#32),
    unary main_cst_4 main_v34 (broadcastInDim S64 ![] bcast_S_S64 : (⟨S_, .f32⟩ : BufTy).Contents (Elt F) → (⟨S64, .f32⟩ : BufTy).Contents (Elt F)),
    binary main_v33 main_v34 main_v35 (Host.divf : (⟨S64, .f32⟩ : BufTy).Contents (Elt F) → (⟨S64, .f32⟩ : BufTy).Contents (Elt F) → (⟨S64, .f32⟩ : BufTy).Contents (Elt F)),
    nullary main_c_5 (constantI S_ 32 0#32),
    TRef.nullary main_call2.cst (constant S_ .f32 0x00000000#32),
    TRef.binary (.of main_v32) main_call2.cst main_call2.v0 (fun x v => Host.reduceAdd x v reducesTo_S16384x64_S64_d0 h_S_),
    TRef.unary main_call2.v0 main_call2.v1 (broadcastInDim S1x64 ![1] bcast_S64_S1x64_1),
    TRef.nullary main_call2.cst_0 (constant S_ .f32 0x46800000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S16384x64 ![0, 1] bcast_S1x64_S16384x64_0_1),
    TRef.binary (.of main_v32) main_call2.v4 main_call2.v5 subf,
    TRef.binary main_call2.v5 main_call2.v5 main_call2.v6 mulf,
    TRef.unary (.of main_c_5) main_call2.v7 (sitofp .f32),
    TRef.nullary main_call2.cst_1 (constant S_ .f32 0x46800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S16384x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v35 main_v37 (broadcastInDim S1x64 ![1] bcast_S64_S1x64_1 : (⟨S64, .f32⟩ : BufTy).Contents (Elt F) → (⟨S1x64, .f32⟩ : BufTy).Contents (Elt F)),
    unary main_v37 main_v38 (broadcastInDim S16384x64 ![0, 1] bcast_S1x64_S16384x64_0_1 : (⟨S1x64, .f32⟩ : BufTy).Contents (Elt F) → (⟨S16384x64, .f32⟩ : BufTy).Contents (Elt F)),
    binary main_v32 main_v38 main_v39 (subf : (⟨S16384x64, .f32⟩ : BufTy).Contents (Elt F) → (⟨S16384x64, .f32⟩ : BufTy).Contents (Elt F) → (⟨S16384x64, .f32⟩ : BufTy).Contents (Elt F)),
    unary main_arg9 main_v40 (broadcastInDim S1x64 ![1] bcast_S64_S1x64_1 : (⟨S64, .f32⟩ : BufTy).Contents (Elt F) → (⟨S1x64, .f32⟩ : BufTy).Contents (Elt F)),
    unary main_v40 main_v41 (broadcastInDim S16384x64 ![0, 1] bcast_S1x64_S16384x64_0_1 : (⟨S1x64, .f32⟩ : BufTy).Contents (Elt F) → (⟨S16384x64, .f32⟩ : BufTy).Contents (Elt F)),
    binary main_v41 main_v39 main_v42 (mulf : (⟨S16384x64, .f32⟩ : BufTy).Contents (Elt F) → (⟨S16384x64, .f32⟩ : BufTy).Contents (Elt F) → (⟨S16384x64, .f32⟩ : BufTy).Contents (Elt F)),
    nullary main_cst_6 (constant S_ .f32 0x3727C5AC#32),
    unary main_cst_6 main_v43 (broadcastInDim S64 ![] bcast_S_S64 : (⟨S_, .f32⟩ : BufTy).Contents (Elt F) → (⟨S64, .f32⟩ : BufTy).Contents (Elt F)),
    binary main_v36 main_v43 main_v44 (addf : (⟨S64, .f32⟩ : BufTy).Contents (Elt F) → (⟨S64, .f32⟩ : BufTy).Contents (Elt F) → (⟨S64, .f32⟩ : BufTy).Contents (Elt F)),
    unary main_v44 main_v45 (Host.rsqrt : (⟨S64, .f32⟩ : BufTy).Contents (Elt F) → (⟨S64, .f32⟩ : BufTy).Contents (Elt F)),
    unary main_v45 main_v46 (broadcastInDim S1x64 ![1] bcast_S64_S1x64_1 : (⟨S64, .f32⟩ : BufTy).Contents (Elt F) → (⟨S1x64, .f32⟩ : BufTy).Contents (Elt F)),
    unary main_v46 main_v47 (broadcastInDim S16384x64 ![0, 1] bcast_S1x64_S16384x64_0_1 : (⟨S1x64, .f32⟩ : BufTy).Contents (Elt F) → (⟨S16384x64, .f32⟩ : BufTy).Contents (Elt F)),
    binary main_v42 main_v47 main_v48 (mulf : (⟨S16384x64, .f32⟩ : BufTy).Contents (Elt F) → (⟨S16384x64, .f32⟩ : BufTy).Contents (Elt F) → (⟨S16384x64, .f32⟩ : BufTy).Contents (Elt F)),
    unary main_arg10 main_v49 (broadcastInDim S1x64 ![1] bcast_S64_S1x64_1 : (⟨S64, .f32⟩ : BufTy).Contents (Elt F) → (⟨S1x64, .f32⟩ : BufTy).Contents (Elt F)),
    unary main_v49 main_v50 (broadcastInDim S16384x64 ![0, 1] bcast_S1x64_S16384x64_0_1 : (⟨S1x64, .f32⟩ : BufTy).Contents (Elt F) → (⟨S16384x64, .f32⟩ : BufTy).Contents (Elt F)) ]

/-- Layer 0, the end of the second block: the shift added and the positive part taken: the node features after layer 0. -/
abbrev ops_h0c : List (HloOp τ sig (Elt F)) :=
  [ binary main_v48 main_v50 main_v51 (addf : (⟨S16384x64, .f32⟩ : BufTy).Contents (Elt F) → (⟨S16384x64, .f32⟩ : BufTy).Contents (Elt F) → (⟨S16384x64, .f32⟩ : BufTy).Contents (Elt F)),
    TRef.nullary main_call3.cst (constant S_ .f32 0x00000000#32),
    TRef.unary main_call3.cst main_call3.v0 (broadcastInDim S16384x64 ![] bcast_S_S16384x64),
    TRef.binary (.of main_v51) main_call3.v0 main_call3.v1 maximumf ]

/-- The product of the adjacency with the features after layer 0, the row sums broadcast again, and their quotient: the second neighbour average. -/
abbrev ops_agg1 : List (HloOp τ sig (Elt F)) :=
  [ binary main_arg1 main_v52 main_v53 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    unary main_v1 main_v54 (broadcastInDim S16384x64 ![0, 1] bcast_S16384x1_S16384x64_0_1 : (⟨S16384x1, .f32⟩ : BufTy).Contents (Elt F) → (⟨S16384x64, .f32⟩ : BufTy).Contents (Elt F)),
    binary main_v53 main_v54 main_v55 (Host.divf : (⟨S16384x64, .f32⟩ : BufTy).Contents (Elt F) → (⟨S16384x64, .f32⟩ : BufTy).Contents (Elt F) → (⟨S16384x64, .f32⟩ : BufTy).Contents (Elt F)) ]

/-- Layer 1, first block: as layer 0's, over the second neighbour average and layer 1's first weight, bias, scale and shift. -/
abbrev ops_h1a : List (HloOp τ sig (Elt F)) :=
  [ binary main_v55 main_arg11 main_v56 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg12 main_v57 (broadcastInDim S1x64 ![1] bcast_S64_S1x64_1 : (⟨S64, .f32⟩ : BufTy).Contents (Elt F) → (⟨S1x64, .f32⟩ : BufTy).Contents (Elt F)),
    unary main_v57 main_v58 (broadcastInDim S16384x64 ![0, 1] bcast_S1x64_S16384x64_0_1 : (⟨S1x64, .f32⟩ : BufTy).Contents (Elt F) → (⟨S16384x64, .f32⟩ : BufTy).Contents (Elt F)),
    binary main_v56 main_v58 main_v59 (addf : (⟨S16384x64, .f32⟩ : BufTy).Contents (Elt F) → (⟨S16384x64, .f32⟩ : BufTy).Contents (Elt F) → (⟨S16384x64, .f32⟩ : BufTy).Contents (Elt F)),
    nullary main_cst_7 (constant S_ .f32 0x00000000#32),
    binary main_v59 main_cst_7 main_v60 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    nullary main_cst_8 (constant S_ .f32 0x46800000#32),
    unary main_cst_8 main_v61 (broadcastInDim S64 ![] bcast_S_S64 : (⟨S_, .f32⟩ : BufTy).Contents (Elt F) → (⟨S64, .f32⟩ : BufTy).Contents (Elt F)),
    binary main_v60 main_v61 main_v62 (Host.divf : (⟨S64, .f32⟩ : BufTy).Contents (Elt F) → (⟨S64, .f32⟩ : BufTy).Contents (Elt F) → (⟨S64, .f32⟩ : BufTy).Contents (Elt F)),
    nullary main_c_9 (constantI S_ 32 0#32),
    TRef.nullary main_call4.cst (constant S_ .f32 0x00000000#32),
    TRef.binary (.of main_v59) main_call4.cst main_call4.v0 (fun x v => Host.reduceAdd x v reducesTo_S16384x64_S64_d0 h_S_),
    TRef.unary main_call4.v0 main_call4.v1 (broadcastInDim S1x64 ![1] bcast_S64_S1x64_1),
    TRef.nullary main_call4.cst_0 (constant S_ .f32 0x46800000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S16384x64 ![0, 1] bcast_S1x64_S16384x64_0_1),
    TRef.binary (.of main_v59) main_call4.v4 main_call4.v5 subf,
    TRef.binary main_call4.v5 main_call4.v5 main_call4.v6 mulf,
    TRef.unary (.of main_c_9) main_call4.v7 (sitofp .f32),
    TRef.nullary main_call4.cst_1 (constant S_ .f32 0x46800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S16384x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v62 main_v64 (broadcastInDim S1x64 ![1] bcast_S64_S1x64_1 : (⟨S64, .f32⟩ : BufTy).Contents (Elt F) → (⟨S1x64, .f32⟩ : BufTy).Contents (Elt F)),
    unary main_v64 main_v65 (broadcastInDim S16384x64 ![0, 1] bcast_S1x64_S16384x64_0_1 : (⟨S1x64, .f32⟩ : BufTy).Contents (Elt F) → (⟨S16384x64, .f32⟩ : BufTy).Contents (Elt F)),
    binary main_v59 main_v65 main_v66 (subf : (⟨S16384x64, .f32⟩ : BufTy).Contents (Elt F) → (⟨S16384x64, .f32⟩ : BufTy).Contents (Elt F) → (⟨S16384x64, .f32⟩ : BufTy).Contents (Elt F)),
    unary main_arg13 main_v67 (broadcastInDim S1x64 ![1] bcast_S64_S1x64_1 : (⟨S64, .f32⟩ : BufTy).Contents (Elt F) → (⟨S1x64, .f32⟩ : BufTy).Contents (Elt F)),
    unary main_v67 main_v68 (broadcastInDim S16384x64 ![0, 1] bcast_S1x64_S16384x64_0_1 : (⟨S1x64, .f32⟩ : BufTy).Contents (Elt F) → (⟨S16384x64, .f32⟩ : BufTy).Contents (Elt F)),
    binary main_v68 main_v66 main_v69 (mulf : (⟨S16384x64, .f32⟩ : BufTy).Contents (Elt F) → (⟨S16384x64, .f32⟩ : BufTy).Contents (Elt F) → (⟨S16384x64, .f32⟩ : BufTy).Contents (Elt F)),
    nullary main_cst_10 (constant S_ .f32 0x3727C5AC#32),
    unary main_cst_10 main_v70 (broadcastInDim S64 ![] bcast_S_S64 : (⟨S_, .f32⟩ : BufTy).Contents (Elt F) → (⟨S64, .f32⟩ : BufTy).Contents (Elt F)),
    binary main_v63 main_v70 main_v71 (addf : (⟨S64, .f32⟩ : BufTy).Contents (Elt F) → (⟨S64, .f32⟩ : BufTy).Contents (Elt F) → (⟨S64, .f32⟩ : BufTy).Contents (Elt F)),
    unary main_v71 main_v72 (Host.rsqrt : (⟨S64, .f32⟩ : BufTy).Contents (Elt F) → (⟨S64, .f32⟩ : BufTy).Contents (Elt F)),
    unary main_v72 main_v73 (broadcastInDim S1x64 ![1] bcast_S64_S1x64_1 : (⟨S64, .f32⟩ : BufTy).Contents (Elt F) → (⟨S1x64, .f32⟩ : BufTy).Contents (Elt F)),
    unary main_v73 main_v74 (broadcastInDim S16384x64 ![0, 1] bcast_S1x64_S16384x64_0_1 : (⟨S1x64, .f32⟩ : BufTy).Contents (Elt F) → (⟨S16384x64, .f32⟩ : BufTy).Contents (Elt F)),
    binary main_v69 main_v74 main_v75 (mulf : (⟨S16384x64, .f32⟩ : BufTy).Contents (Elt F) → (⟨S16384x64, .f32⟩ : BufTy).Contents (Elt F) → (⟨S16384x64, .f32⟩ : BufTy).Contents (Elt F)),
    unary main_arg14 main_v76 (broadcastInDim S1x64 ![1] bcast_S64_S1x64_1 : (⟨S64, .f32⟩ : BufTy).Contents (Elt F) → (⟨S1x64, .f32⟩ : BufTy).Contents (Elt F)),
    unary main_v76 main_v77 (broadcastInDim S16384x64 ![0, 1] bcast_S1x64_S16384x64_0_1 : (⟨S1x64, .f32⟩ : BufTy).Contents (Elt F) → (⟨S16384x64, .f32⟩ : BufTy).Contents (Elt F)),
    binary main_v75 main_v77 main_v78 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (.of main_v78) main_call5.v0 main_call5.v1 maximumf ]

/-- Layer 1, second block up to the shifted normalization (the positive part is still to come). -/
abbrev ops_h1b : List (HloOp τ sig (Elt F)) :=
  [ binary main_v79 main_arg15 main_v80 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg16 main_v81 (broadcastInDim S1x64 ![1] bcast_S64_S1x64_1 : (⟨S64, .f32⟩ : BufTy).Contents (Elt F) → (⟨S1x64, .f32⟩ : BufTy).Contents (Elt F)),
    unary main_v81 main_v82 (broadcastInDim S16384x64 ![0, 1] bcast_S1x64_S16384x64_0_1 : (⟨S1x64, .f32⟩ : BufTy).Contents (Elt F) → (⟨S16384x64, .f32⟩ : BufTy).Contents (Elt F)),
    binary main_v80 main_v82 main_v83 (addf : (⟨S16384x64, .f32⟩ : BufTy).Contents (Elt F) → (⟨S16384x64, .f32⟩ : BufTy).Contents (Elt F) → (⟨S16384x64, .f32⟩ : BufTy).Contents (Elt F)),
    nullary main_cst_11 (constant S_ .f32 0x00000000#32),
    binary main_v83 main_cst_11 main_v84 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    nullary main_cst_12 (constant S_ .f32 0x46800000#32),
    unary main_cst_12 main_v85 (broadcastInDim S64 ![] bcast_S_S64 : (⟨S_, .f32⟩ : BufTy).Contents (Elt F) → (⟨S64, .f32⟩ : BufTy).Contents (Elt F)),
    binary main_v84 main_v85 main_v86 (Host.divf : (⟨S64, .f32⟩ : BufTy).Contents (Elt F) → (⟨S64, .f32⟩ : BufTy).Contents (Elt F) → (⟨S64, .f32⟩ : BufTy).Contents (Elt F)),
    nullary main_c_13 (constantI S_ 32 0#32),
    TRef.nullary main_call6.cst (constant S_ .f32 0x00000000#32),
    TRef.binary (.of main_v83) main_call6.cst main_call6.v0 (fun x v => Host.reduceAdd x v reducesTo_S16384x64_S64_d0 h_S_),
    TRef.unary main_call6.v0 main_call6.v1 (broadcastInDim S1x64 ![1] bcast_S64_S1x64_1),
    TRef.nullary main_call6.cst_0 (constant S_ .f32 0x46800000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S16384x64 ![0, 1] bcast_S1x64_S16384x64_0_1),
    TRef.binary (.of main_v83) main_call6.v4 main_call6.v5 subf,
    TRef.binary main_call6.v5 main_call6.v5 main_call6.v6 mulf,
    TRef.unary (.of main_c_13) main_call6.v7 (sitofp .f32),
    TRef.nullary main_call6.cst_1 (constant S_ .f32 0x46800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S16384x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v86 main_v88 (broadcastInDim S1x64 ![1] bcast_S64_S1x64_1 : (⟨S64, .f32⟩ : BufTy).Contents (Elt F) → (⟨S1x64, .f32⟩ : BufTy).Contents (Elt F)),
    unary main_v88 main_v89 (broadcastInDim S16384x64 ![0, 1] bcast_S1x64_S16384x64_0_1 : (⟨S1x64, .f32⟩ : BufTy).Contents (Elt F) → (⟨S16384x64, .f32⟩ : BufTy).Contents (Elt F)),
    binary main_v83 main_v89 main_v90 (subf : (⟨S16384x64, .f32⟩ : BufTy).Contents (Elt F) → (⟨S16384x64, .f32⟩ : BufTy).Contents (Elt F) → (⟨S16384x64, .f32⟩ : BufTy).Contents (Elt F)),
    unary main_arg17 main_v91 (broadcastInDim S1x64 ![1] bcast_S64_S1x64_1 : (⟨S64, .f32⟩ : BufTy).Contents (Elt F) → (⟨S1x64, .f32⟩ : BufTy).Contents (Elt F)),
    unary main_v91 main_v92 (broadcastInDim S16384x64 ![0, 1] bcast_S1x64_S16384x64_0_1 : (⟨S1x64, .f32⟩ : BufTy).Contents (Elt F) → (⟨S16384x64, .f32⟩ : BufTy).Contents (Elt F)),
    binary main_v92 main_v90 main_v93 (mulf : (⟨S16384x64, .f32⟩ : BufTy).Contents (Elt F) → (⟨S16384x64, .f32⟩ : BufTy).Contents (Elt F) → (⟨S16384x64, .f32⟩ : BufTy).Contents (Elt F)),
    nullary main_cst_14 (constant S_ .f32 0x3727C5AC#32),
    unary main_cst_14 main_v94 (broadcastInDim S64 ![] bcast_S_S64 : (⟨S_, .f32⟩ : BufTy).Contents (Elt F) → (⟨S64, .f32⟩ : BufTy).Contents (Elt F)),
    binary main_v87 main_v94 main_v95 (addf : (⟨S64, .f32⟩ : BufTy).Contents (Elt F) → (⟨S64, .f32⟩ : BufTy).Contents (Elt F) → (⟨S64, .f32⟩ : BufTy).Contents (Elt F)),
    unary main_v95 main_v96 (Host.rsqrt : (⟨S64, .f32⟩ : BufTy).Contents (Elt F) → (⟨S64, .f32⟩ : BufTy).Contents (Elt F)),
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S16384x64 ![0, 1] bcast_S1x64_S16384x64_0_1 : (⟨S1x64, .f32⟩ : BufTy).Contents (Elt F) → (⟨S16384x64, .f32⟩ : BufTy).Contents (Elt F)),
    binary main_v93 main_v98 main_v99 (mulf : (⟨S16384x64, .f32⟩ : BufTy).Contents (Elt F) → (⟨S16384x64, .f32⟩ : BufTy).Contents (Elt F) → (⟨S16384x64, .f32⟩ : BufTy).Contents (Elt F)),
    unary main_arg18 main_v100 (broadcastInDim S1x64 ![1] bcast_S64_S1x64_1 : (⟨S64, .f32⟩ : BufTy).Contents (Elt F) → (⟨S1x64, .f32⟩ : BufTy).Contents (Elt F)),
    unary main_v100 main_v101 (broadcastInDim S16384x64 ![0, 1] bcast_S1x64_S16384x64_0_1 : (⟨S1x64, .f32⟩ : BufTy).Contents (Elt F) → (⟨S16384x64, .f32⟩ : BufTy).Contents (Elt F)),
    binary main_v99 main_v101 main_v102 (addf : (⟨S16384x64, .f32⟩ : BufTy).Contents (Elt F) → (⟨S16384x64, .f32⟩ : BufTy).Contents (Elt F) → (⟨S16384x64, .f32⟩ : BufTy).Contents (Elt F)) ]

/-- The positive part of layer 1's second block: the node features returned. -/
abbrev ops_h1c : List (HloOp τ sig (Elt F)) :=
  [ TRef.nullary main_call7.cst (constant S_ .f32 0x00000000#32),
    TRef.unary main_call7.cst main_call7.v0 (broadcastInDim S16384x64 ![] bcast_S_S16384x64),
    TRef.binary (.of main_v102) main_call7.v0 main_call7.v1 maximumf ]

/-- The graph readout: the pooling matrix times the node features. -/
abbrev ops_out : List (HloOp τ sig (Elt F)) :=
  [ binary main_arg2 main_v103 main_v104 ((fun l r => Host.dotGeneral dot_S128x16384_S16384x64_S128x64_1_0_0_1_n_n none l r) : (⟨S128x16384, .f32⟩ : BufTy).Contents (Elt F) → (⟨S16384x64, .f32⟩ : BufTy).Contents (Elt F) → (⟨S128x64, .f32⟩ : BufTy).Contents (Elt F)) ]

/-- The three stretches @main's text is cut into by length alone: their ends fall inside a block. -/
abbrev ops_p0 : List (HloOp τ sig (Elt F)) := ops_agg0 ++ (ops_h0a ++ ops_h0b)
abbrev ops_p1 : List (HloOp τ sig (Elt F)) := ops_h0c ++ (ops_agg1 ++ (ops_h1a ++ ops_h1b))
abbrev ops_p2 : List (HloOp τ sig (Elt F)) := ops_h1c ++ ops_out

/-- @main's 214 operations, in order, the calls replaced by their bodies. -/
abbrev ops : List (HloOp τ sig (Elt F)) := ops_p0 ++ (ops_p1 ++ ops_p2)

/-! ## @main is the list run in order

Each printed stretch is a chain of steps, a call being the callee's chain spliced in; sequencing is associative, so the
stretch and the run of its operations are the same chain. -/

set_option maxRecDepth 16384 in
set_option maxHeartbeats 4000000 in
theorem part0_eq (c : Dev nD) : main_part0 (F := F) c = seq ops_p0 := rfl
set_option maxRecDepth 16384 in
set_option maxHeartbeats 4000000 in
theorem part1_eq (c : Dev nD) : main_part1 (F := F) c = seq ops_p1 := rfl
set_option maxRecDepth 16384 in
theorem part2_eq (c : Dev nD) : main_part2 (F := F) c = seq ops_p2 := rfl

set_option maxRecDepth 16384 in
/-- Stretches run one after the other are their concatenation run as one. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

set_option maxRecDepth 8192 in
theorem ops_agg0_sub : (ops_agg0 : List (HloOp τ sig (Elt F))).Forall fun op => op.bufs ⊆ tcRefs τ sig :=
  ⟨nullary_bufs_sub .., unary_bufs_sub .., binary_bufs_sub .., binary_bufs_sub .., unary_bufs_sub .., binary_bufs_sub ..⟩
set_option maxRecDepth 8192 in
theorem ops_h0a_sub : (ops_h0a : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem ops_h0b_sub : (ops_h0b : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
set_option maxRecDepth 8192 in
theorem ops_h0c_sub : (ops_h0c : List (HloOp τ sig (Elt F))).Forall fun op => op.bufs ⊆ tcRefs τ sig :=
  ⟨binary_bufs_sub .., nullary_bufs_sub .., unary_bufs_sub .., binary_bufs_sub ..⟩
set_option maxRecDepth 8192 in
theorem ops_agg1_sub : (ops_agg1 : List (HloOp τ sig (Elt F))).Forall fun op => op.bufs ⊆ tcRefs τ sig :=
  ⟨binary_bufs_sub .., unary_bufs_sub .., binary_bufs_sub ..⟩
set_option maxRecDepth 8192 in
theorem ops_h1a_sub : (ops_h1a : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem ops_h1b_sub : (ops_h1b : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
set_option maxRecDepth 8192 in
theorem ops_h1c_sub : (ops_h1c : List (HloOp τ sig (Elt F))).Forall fun op => op.bufs ⊆ tcRefs τ sig :=
  ⟨nullary_bufs_sub .., unary_bufs_sub .., binary_bufs_sub ..⟩
set_option maxRecDepth 8192 in
theorem ops_out_sub : (ops_out : List (HloOp τ sig (Elt F))).Forall fun op => op.bufs ⊆ tcRefs τ sig :=
  binary_bufs_sub ..

theorem ops_sub : (ops : List (HloOp τ sig (Elt F))).Forall fun op => op.bufs ⊆ tcRefs τ sig :=
  List.forall_iff_forall_mem.mpr fun op h => by
    simp only [ops, ops_p0, ops_p1, ops_p2, List.mem_append] at h
    rcases h with (h | h | h) | (h | h | h | h) | (h | h)
    exacts [List.forall_iff_forall_mem.mp ops_agg0_sub op h,
      List.forall_iff_forall_mem.mp ops_h0a_sub op h,
      List.forall_iff_forall_mem.mp ops_h0b_sub op h,
      List.forall_iff_forall_mem.mp ops_h0c_sub op h,
      List.forall_iff_forall_mem.mp ops_agg1_sub op h,
      List.forall_iff_forall_mem.mp ops_h1a_sub op h,
      List.forall_iff_forall_mem.mp ops_h1b_sub op h,
      List.forall_iff_forall_mem.mp ops_h1c_sub op h,
      List.forall_iff_forall_mem.mp ops_out_sub op h]

end Cert.ReferenceIdeal.Hand

end
-- ==== Proof.RefKeep.lean ====
/- Which buffers each stretch of the reference's operations writes, and that a buffer outside that set keeps its contents
   through the stretch: an operation rewrites its own result buffer and nothing else, so the contents after a list of
   operations differ from those before only at the listed results. Through the whole line a buffer that no stretch writes
   — each argument array — ends as it began. -/
import proofs.«153131_j8177617732272_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lists run one after the other: the second's after the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers `ops_agg0` writes. -/
abbrev W_agg0 : List (Ref sig .tc) := [main_cst, main_v0, main_v1, main_v2, main_v3, main_v4]
set_option maxRecDepth 8192 in
theorem writes_agg0 : (ops_agg0 : List (HloOp τ sig (Elt F))).Forall fun op => op.writes ⊆ (W_agg0.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_agg0` does not write keeps its contents through it. -/
theorem keep_agg0 (V : Valuation τ sig (Elt F)) (r : Ref sig .tc) (h : r ∉ W_agg0) :
    after ops_agg0 V (Proc.devRef .tc r) = V (Proc.devRef .tc r) :=
  after_of_writes_sub ops_agg0 V writes_agg0 h

/-- The buffers `ops_h0a` writes. -/
abbrev W_h0a : List (Ref sig .tc) := [main_v5, main_v6, main_v7, main_v8, main_cst_0, main_v9, main_cst_1, main_v10, main_v11, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v12, main_v13, main_v14, main_v15, main_v16, main_v17, main_v18, main_cst_2, main_v19, main_v20, main_v21, main_v22, main_v23, main_v24, main_v25, main_v26, main_v27, main_call1_cst, main_call1_v0, main_v28]
set_option maxRecDepth 8192 in
theorem writes_h0a : (ops_h0a : List (HloOp τ sig (Elt F))).Forall fun op => op.writes ⊆ (W_h0a.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_h0a` does not write keeps its contents through it. -/
theorem keep_h0a (V : Valuation τ sig (Elt F)) (r : Ref sig .tc) (h : r ∉ W_h0a) :
    after ops_h0a V (Proc.devRef .tc r) = V (Proc.devRef .tc r) :=
  after_of_writes_sub ops_h0a V writes_h0a h

/-- The buffers `ops_h0b` writes. -/
abbrev W_h0b : List (Ref sig .tc) := [main_v29, main_v30, main_v31, main_v32, main_cst_3, main_v33, main_cst_4, main_v34, main_v35, main_c_5, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v36, main_v37, main_v38, main_v39, main_v40, main_v41, main_v42, main_cst_6, main_v43, main_v44, main_v45, main_v46, main_v47, main_v48, main_v49, main_v50]
set_option maxRecDepth 8192 in
theorem writes_h0b : (ops_h0b : List (HloOp τ sig (Elt F))).Forall fun op => op.writes ⊆ (W_h0b.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_h0b` does not write keeps its contents through it. -/
theorem keep_h0b (V : Valuation τ sig (Elt F)) (r : Ref sig .tc) (h : r ∉ W_h0b) :
    after ops_h0b V (Proc.devRef .tc r) = V (Proc.devRef .tc r) :=
  after_of_writes_sub ops_h0b V writes_h0b h

/-- The buffers `ops_h0c` writes. -/
abbrev W_h0c : List (Ref sig .tc) := [main_v51, main_call3_cst, main_call3_v0, main_v52]
set_option maxRecDepth 8192 in
theorem writes_h0c : (ops_h0c : List (HloOp τ sig (Elt F))).Forall fun op => op.writes ⊆ (W_h0c.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_h0c` does not write keeps its contents through it. -/
theorem keep_h0c (V : Valuation τ sig (Elt F)) (r : Ref sig .tc) (h : r ∉ W_h0c) :
    after ops_h0c V (Proc.devRef .tc r) = V (Proc.devRef .tc r) :=
  after_of_writes_sub ops_h0c V writes_h0c h

/-- The buffers `ops_agg1` writes. -/
abbrev W_agg1 : List (Ref sig .tc) := [main_v53, main_v54, main_v55]
set_option maxRecDepth 8192 in
theorem writes_agg1 : (ops_agg1 : List (HloOp τ sig (Elt F))).Forall fun op => op.writes ⊆ (W_agg1.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_agg1` does not write keeps its contents through it. -/
theorem keep_agg1 (V : Valuation τ sig (Elt F)) (r : Ref sig .tc) (h : r ∉ W_agg1) :
    after ops_agg1 V (Proc.devRef .tc r) = V (Proc.devRef .tc r) :=
  after_of_writes_sub ops_agg1 V writes_agg1 h

/-- The buffers `ops_h1a` writes. -/
abbrev W_h1a : List (Ref sig .tc) := [main_v56, main_v57, main_v58, main_v59, main_cst_7, main_v60, main_cst_8, main_v61, main_v62, main_c_9, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v63, main_v64, main_v65, main_v66, main_v67, main_v68, main_v69, main_cst_10, main_v70, main_v71, main_v72, main_v73, main_v74, main_v75, main_v76, main_v77, main_v78, main_call5_cst, main_call5_v0, main_v79]
set_option maxRecDepth 8192 in
theorem writes_h1a : (ops_h1a : List (HloOp τ sig (Elt F))).Forall fun op => op.writes ⊆ (W_h1a.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_h1a` does not write keeps its contents through it. -/
theorem keep_h1a (V : Valuation τ sig (Elt F)) (r : Ref sig .tc) (h : r ∉ W_h1a) :
    after ops_h1a V (Proc.devRef .tc r) = V (Proc.devRef .tc r) :=
  after_of_writes_sub ops_h1a V writes_h1a h

/-- The buffers `ops_h1b` writes. -/
abbrev W_h1b : List (Ref sig .tc) := [main_v80, main_v81, main_v82, main_v83, main_cst_11, main_v84, main_cst_12, main_v85, main_v86, main_c_13, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v87, main_v88, main_v89, main_v90, main_v91, main_v92, main_v93, main_cst_14, main_v94, main_v95, main_v96, main_v97, main_v98, main_v99, main_v100, main_v101, main_v102]
set_option maxRecDepth 8192 in
theorem writes_h1b : (ops_h1b : List (HloOp τ sig (Elt F))).Forall fun op => op.writes ⊆ (W_h1b.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_h1b` does not write keeps its contents through it. -/
theorem keep_h1b (V : Valuation τ sig (Elt F)) (r : Ref sig .tc) (h : r ∉ W_h1b) :
    after ops_h1b V (Proc.devRef .tc r) = V (Proc.devRef .tc r) :=
  after_of_writes_sub ops_h1b V writes_h1b h

/-- The buffers `ops_h1c` writes. -/
abbrev W_h1c : List (Ref sig .tc) := [main_call7_cst, main_call7_v0, main_v103]
set_option maxRecDepth 8192 in
theorem writes_h1c : (ops_h1c : List (HloOp τ sig (Elt F))).Forall fun op => op.writes ⊆ (W_h1c.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `ops_h1c` does not write keeps its contents through it. -/
theorem keep_h1c (V : Valuation τ sig (Elt F)) (r : Ref sig .tc) (h : r ∉ W_h1c) :
    after ops_h1c V (Proc.devRef .tc r) = V (Proc.devRef .tc r) :=
  after_of_writes_sub ops_h1c V writes_h1c h

/-- The buffers `ops_out` writes. -/
abbrev W_out : List (Ref sig .tc) := [main_v104]
set_option maxRecDepth 8192 in
theorem writes_out : (ops_out : List (HloOp τ sig (Elt F))).Forall fun op => op.writes ⊆ (W_out.map (Proc.devRef (τ := τ) .tc)).toFinset := by
  simp only [List.Forall]
  exact (by simp only [nullary_writes, unary_writes, binary_writes, ternary_writes, Finset.singleton_subset_iff, List.mem_toFinset]; exact List.mem_map_of_mem (by decide))
/-- A buffer `ops_out` does not write keeps its contents through it. -/
theorem keep_out (V : Valuation τ sig (Elt F)) (r : Ref sig .tc) (h : r ∉ W_out) :
    after ops_out V (Proc.devRef .tc r) = V (Proc.devRef .tc r) :=
  after_of_writes_sub ops_out V writes_out h

/-- A buffer that no stretch writes keeps its contents through the whole line. -/
theorem keep_ops (V : Valuation τ sig (Elt F)) (r : Ref sig .tc)
    (h0 : r ∉ W_agg0) (h1 : r ∉ W_h0a) (h2 : r ∉ W_h0b) (h3 : r ∉ W_h0c) (h4 : r ∉ W_agg1) (h5 : r ∉ W_h1a) (h6 : r ∉ W_h1b) (h7 : r ∉ W_h1c) (h8 : r ∉ W_out) :
    after ops V (Proc.devRef .tc r) = V (Proc.devRef .tc r) := by
  simp only [ops, ops_p0, ops_p1, ops_p2, after_app]
  rw [keep_out _ r h8, keep_h1c _ r h7, keep_h1b _ r h6, keep_h1a _ r h5, keep_agg1 _ r h4, keep_h0c _ r h3, keep_h0b _ r h2, keep_h0a _ r h1, keep_agg0 _ r h0]

end Cert.ReferenceIdeal.Hand

end
-- ==== Proof.RefVal.lean ====
/- What each stretch of the reference's operations leaves in the buffer it is there to compute, from ANY contents V of the
   device's buffers, as the staged function of the contents it reads: the first stretch leaves the row sums and the
   first neighbour average; a block's stretch leaves the block of its input and its four parameters; the second
   aggregation leaves the quotient of the product by the stored row sums; the last leaves the readout. Each is read off the
   list one operation at a time — an operation's result buffer holds its function of its operands' contents, every other
   buffer what it held — and the composed term is the stage by unfolding. -/
import proofs.«153131_j8177617732272_2_alg».proof.Proof.RefOps
import proofs.«153131_j8177617732272_2_alg».proof.Proof.RefStages
import proofs.«153131_j8177617732272_2_alg».proof.Proof.RefKeep

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The first stretch leaves the row sums of the adjacency. -/
theorem val_agg0_deg (V : Valuation τ sig (Elt F)) :
    after ops_agg0 V (Proc.devRef .tc main_v1) = deg (V (Proc.devRef .tc main_arg1)) := by
  simp only [ops_agg0]
  after_results_simp
  rfl

set_option maxRecDepth 16384 in
set_option maxHeartbeats 4000000 in
/-- The first stretch leaves the neighbour average of the input features. -/
theorem val_agg0 (V : Valuation τ sig (Elt F)) :
    after ops_agg0 V (Proc.devRef .tc main_v4) = pool (V (Proc.devRef .tc main_arg1)) (V (Proc.devRef .tc main_arg0)) := by
  simp only [ops_agg0]
  after_results_simp
  rfl

set_option maxRecDepth 16384 in
set_option maxHeartbeats 4000000 in
/-- Layer 0's first block. -/
theorem val_h0a (V : Valuation τ sig (Elt F)) :
    after ops_h0a V (Proc.devRef .tc main_v28)
      = half (V (Proc.devRef .tc main_v4)) (V (Proc.devRef .tc main_arg3)) (V (Proc.devRef .tc main_arg4)) (V (Proc.devRef .tc main_arg5)) (V (Proc.devRef .tc main_arg6)) := by
  simp only [ops_h0a]
  after_results_simp
  rfl

set_option maxRecDepth 16384 in
set_option maxHeartbeats 4000000 in
/-- Layer 0's second block (its two stretches one after the other). -/
theorem val_h0bc (V : Valuation τ sig (Elt F)) :
    after ops_h0c (after ops_h0b V) (Proc.devRef .tc main_v52)
      = half (V (Proc.devRef .tc main_v28)) (V (Proc.devRef .tc main_arg7)) (V (Proc.devRef .tc main_arg8)) (V (Proc.devRef .tc main_arg9)) (V (Proc.devRef .tc main_arg10)) := by
  rw [← after_app]
  simp only [ops_h0b, ops_h0c, List.cons_append, List.nil_append]
  after_results_simp
  rfl

set_option maxRecDepth 16384 in
set_option maxHeartbeats 4000000 in
/-- The second aggregation leaves the product of the adjacency with the features before it, each row divided by the row
    sum the first stretch stored. -/
theorem val_agg1 (V : Valuation τ sig (Elt F)) :
    after ops_agg1 V (Proc.devRef .tc main_v55)
      = Host.divf (F := F) (Host.dotGeneral (F := F) dot_S16384x16384_S16384x64_S16384x64_1_0_0_1_n_n none (V (Proc.devRef .tc main_arg1)) (V (Proc.devRef .tc main_v52)))
          (broadcastInDim S16384x64 ![0, 1] bcast_S16384x1_S16384x64_0_1 (V (Proc.devRef .tc main_v1))) := by
  simp only [ops_agg1]
  after_results_simp

set_option maxRecDepth 16384 in
set_option maxHeartbeats 4000000 in
/-- Layer 1's first block. -/
theorem val_h1a (V : Valuation τ sig (Elt F)) :
    after ops_h1a V (Proc.devRef .tc main_v79)
      = half (V (Proc.devRef .tc main_v55)) (V (Proc.devRef .tc main_arg11)) (V (Proc.devRef .tc main_arg12)) (V (Proc.devRef .tc main_arg13)) (V (Proc.devRef .tc main_arg14)) := by
  simp only [ops_h1a]
  after_results_simp
  rfl

set_option maxRecDepth 16384 in
set_option maxHeartbeats 4000000 in
/-- Layer 1's second block (its two stretches one after the other). -/
theorem val_h1bc (V : Valuation τ sig (Elt F)) :
    after ops_h1c (after ops_h1b V) (Proc.devRef .tc main_v103)
      = half (V (Proc.devRef .tc main_v79)) (V (Proc.devRef .tc main_arg15)) (V (Proc.devRef .tc main_arg16)) (V (Proc.devRef .tc main_arg17)) (V (Proc.devRef .tc main_arg18)) := by
  rw [← after_app]
  simp only [ops_h1b, ops_h1c, List.cons_append, List.nil_append]
  after_results_simp
  rfl

set_option maxRecDepth 16384 in
set_option maxHeartbeats 4000000 in
/-- The last operation leaves the readout. -/
theorem val_out (V : Valuation τ sig (Elt F)) :
    after ops_out V (Proc.devRef .tc main_v104) = readout (V (Proc.devRef .tc main_arg2)) (V (Proc.devRef .tc main_v103)) := by
  simp only [ops_out]
  after_results_simp
  rfl

end Cert.ReferenceIdeal.Hand

end
-- ==== Proof.RefRun.lean ====
/- The run of the reference program. Its @main is a straight line of host operations over tensor buffers, so from any
   memory with zero counters every weakly fair execution terminates, without a fault, and each buffer ends at the line's
   composed contents. Read stretch by stretch: the first leaves the neighbour average of x; each block's stretch maps it on
   (the parameters, which no operation writes, are still what the launch held); the second aggregation divides by the row
   sums the first stretch stored; so the node features returned are
   layer1(pool(adj, layer0(pool(adj, x), …)), …), the graph features their readout, and the nineteen argument arrays end
   as they began. -/
import proofs.«153131_j8177617732272_2_alg».proof.Proof.RefOps
import proofs.«153131_j8177617732272_2_alg».proof.Proof.RefStages
import proofs.«153131_j8177617732272_2_alg».proof.Proof.RefKeep
import proofs.«153131_j8177617732272_2_alg».proof.Proof.RefVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The node features after the last block's stretches, from any contents V: the staged function of V's argument arrays. -/
theorem nest_v103 (V : Valuation τ sig (Elt F)) :
    after ops_h1c (after ops_h1b (after ops_h1a (after ops_agg1 (after ops_h0c (after ops_h0b (after ops_h0a (after ops_agg0 V))))))) (Proc.devRef .tc main_v103)
      = res1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  simp only [res1, layer1, layer0]
  rw [val_h1bc, keep_h1a _ main_arg15 (by decide), keep_agg1 _ main_arg15 (by decide), keep_h0c _ main_arg15 (by decide),
    keep_h0b _ main_arg15 (by decide), keep_h0a _ main_arg15 (by decide), keep_agg0 _ main_arg15 (by decide),
    keep_h1a _ main_arg16 (by decide), keep_agg1 _ main_arg16 (by decide), keep_h0c _ main_arg16 (by decide),
    keep_h0b _ main_arg16 (by decide), keep_h0a _ main_arg16 (by decide), keep_agg0 _ main_arg16 (by decide),
    keep_h1a _ main_arg17 (by decide), keep_agg1 _ main_arg17 (by decide), keep_h0c _ main_arg17 (by decide),
    keep_h0b _ main_arg17 (by decide), keep_h0a _ main_arg17 (by decide), keep_agg0 _ main_arg17 (by decide),
    keep_h1a _ main_arg18 (by decide), keep_agg1 _ main_arg18 (by decide), keep_h0c _ main_arg18 (by decide),
    keep_h0b _ main_arg18 (by decide), keep_h0a _ main_arg18 (by decide), keep_agg0 _ main_arg18 (by decide), val_h1a,
    keep_agg1 _ main_arg11 (by decide), keep_h0c _ main_arg11 (by decide), keep_h0b _ main_arg11 (by decide),
    keep_h0a _ main_arg11 (by decide), keep_agg0 _ main_arg11 (by decide), keep_agg1 _ main_arg12 (by decide),
    keep_h0c _ main_arg12 (by decide), keep_h0b _ main_arg12 (by decide), keep_h0a _ main_arg12 (by decide),
    keep_agg0 _ main_arg12 (by decide), keep_agg1 _ main_arg13 (by decide), keep_h0c _ main_arg13 (by decide),
    keep_h0b _ main_arg13 (by decide), keep_h0a _ main_arg13 (by decide), keep_agg0 _ main_arg13 (by decide),
    keep_agg1 _ main_arg14 (by decide), keep_h0c _ main_arg14 (by decide), keep_h0b _ main_arg14 (by decide),
    keep_h0a _ main_arg14 (by decide), keep_agg0 _ main_arg14 (by decide), val_agg1, keep_h0c _ main_arg1 (by decide),
    keep_h0b _ main_arg1 (by decide), keep_h0a _ main_arg1 (by decide), keep_agg0 _ main_arg1 (by decide),
    keep_h0c _ main_v1 (by decide), keep_h0b _ main_v1 (by decide), keep_h0a _ main_v1 (by decide), val_agg0_deg,
    val_h0bc, keep_h0a _ main_arg7 (by decide), keep_agg0 _ main_arg7 (by decide), keep_h0a _ main_arg8 (by decide),
    keep_agg0 _ main_arg8 (by decide), keep_h0a _ main_arg9 (by decide), keep_agg0 _ main_arg9 (by decide),
    keep_h0a _ main_arg10 (by decide), keep_agg0 _ main_arg10 (by decide), val_h0a, keep_agg0 _ main_arg3 (by decide),
    keep_agg0 _ main_arg4 (by decide), keep_agg0 _ main_arg5 (by decide), keep_agg0 _ main_arg6 (by decide), val_agg0]
  rfl

set_option maxRecDepth 16384 in
/-- The whole line leaves the node features at the second result. -/
theorem ops_v103 (V : Valuation τ sig (Elt F)) :
    after ops V (Proc.devRef .tc main_v103) = res1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  simp only [ops, ops_p0, ops_p1, ops_p2, after_app]
  rw [keep_out _ main_v103 (by decide)]
  exact nest_v103 V

set_option maxRecDepth 16384 in
/-- The whole line leaves the readout of the node features at the first result. -/
theorem ops_v104 (V : Valuation τ sig (Elt F)) :
    after ops V (Proc.devRef .tc main_v104) = res0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  simp only [ops, ops_p0, ops_p1, ops_p2, after_app]
  rw [val_out, nest_v103,
    keep_h1c _ main_arg2 (by decide), keep_h1b _ main_arg2 (by decide), keep_h1a _ main_arg2 (by decide), keep_agg1 _ main_arg2 (by decide), keep_h0c _ main_arg2 (by decide), keep_h0b _ main_arg2 (by decide), keep_h0a _ main_arg2 (by decide), keep_agg0 _ main_arg2 (by decide)]
  rfl

/-- On every device, for any float values, from any memory with zero counters: every weakly fair execution of @main
    terminates, and every TensorCore buffer ends at the operations' composed contents over what the launch held. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

set_option maxRecDepth 16384 in
/-- The same with the results named: the graph features, the node features, and each argument array unchanged. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v103) = res1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v104).trans (ops_v104 (launchContents m c)),
      (h c main_v103).trans (ops_v103 (launchContents m c)),
      (h c main_arg0).trans (keep_ops _ main_arg0 (by decide) (by decide) (by decide) (by decide) (by decide) (by decide) (by decide) (by decide) (by decide)),
      (h c main_arg1).trans (keep_ops _ main_arg1 (by decide) (by decide) (by decide) (by decide) (by decide) (by decide) (by decide) (by decide) (by decide)),
      (h c main_arg2).trans (keep_ops _ main_arg2 (by decide) (by decide) (by decide) (by decide) (by decide) (by decide) (by decide) (by decide) (by decide)),
      (h c main_arg3).trans (keep_ops _ main_arg3 (by decide) (by decide) (by decide) (by decide) (by decide) (by decide) (by decide) (by decide) (by decide)),
      (h c main_arg4).trans (keep_ops _ main_arg4 (by decide) (by decide) (by decide) (by decide) (by decide) (by decide) (by decide) (by decide) (by decide)),
      (h c main_arg5).trans (keep_ops _ main_arg5 (by decide) (by decide) (by decide) (by decide) (by decide) (by decide) (by decide) (by decide) (by decide)),
      (h c main_arg6).trans (keep_ops _ main_arg6 (by decide) (by decide) (by decide) (by decide) (by decide) (by decide) (by decide) (by decide) (by decide)),
      (h c main_arg7).trans (keep_ops _ main_arg7 (by decide) (by decide) (by decide) (by decide) (by decide) (by decide) (by decide) (by decide) (by decide)),
      (h c main_arg8).trans (keep_ops _ main_arg8 (by decide) (by decide) (by decide) (by decide) (by decide) (by decide) (by decide) (by decide) (by decide)),
      (h c main_arg9).trans (keep_ops _ main_arg9 (by decide) (by decide) (by decide) (by decide) (by decide) (by decide) (by decide) (by decide) (by decide)),
      (h c main_arg10).trans (keep_ops _ main_arg10 (by decide) (by decide) (by decide) (by decide) (by decide) (by decide) (by decide) (by decide) (by decide)),
      (h c main_arg11).trans (keep_ops _ main_arg11 (by decide) (by decide) (by decide) (by decide) (by decide) (by decide) (by decide) (by decide) (by decide)),
      (h c main_arg12).trans (keep_ops _ main_arg12 (by decide) (by decide) (by decide) (by decide) (by decide) (by decide) (by decide) (by decide) (by decide)),
      (h c main_arg13).trans (keep_ops _ main_arg13 (by decide) (by decide) (by decide) (by decide) (by decide) (by decide) (by decide) (by decide) (by decide)),
      (h c main_arg14).trans (keep_ops _ main_arg14 (by decide) (by decide) (by decide) (by decide) (by decide) (by decide) (by decide) (by decide) (by decide)),
      (h c main_arg15).trans (keep_ops _ main_arg15 (by decide) (by decide) (by decide) (by decide) (by decide) (by decide) (by decide) (by decide) (by decide)),
      (h c main_arg16).trans (keep_ops _ main_arg16 (by decide) (by decide) (by decide) (by decide) (by decide) (by decide) (by decide) (by decide) (by decide)),
      (h c main_arg17).trans (keep_ops _ main_arg17 (by decide) (by decide) (by decide) (by decide) (by decide) (by decide) (by decide) (by decide) (by decide)),
      (h c main_arg18).trans (keep_ops _ main_arg18 (by decide) (by decide) (by decide) (by decide) (by decide) (by decide) (by decide) (by decide) (by decide))⟩)
    (run_main m ρ)

/-- `run_results` under a second, shorter name. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v103) = res1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  run_results m ρ

/-- The frame: the run terminates, nothing faults, and the argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => (h c).2.2) (run_results m ρ)

end Cert.ReferenceIdeal.Hand

end
-- ==== Proof.KIClaims.lean ====
/- The five claims. Each program's frame is its run with the results dropped. The idealization rewrote nothing, so
   there is nothing to preserve. For the last claim both idealized programs are run from memories agreeing on the
   arguments: the kernel program ends with the graph and node features at the reference's functions of ITS argument
   arrays, the reference at the same functions of its own, and the arrays agree. -/
import proofs.«153131_j8177617732272_2_alg».proof.Proof.KIResult
import proofs.«153131_j8177617732272_2_alg».proof.Proof.KFrame
import proofs.«153131_j8177617732272_2_alg».proof.Proof.RefRun
import proofs.«153131_j8177617732272_2_alg».proof.Defs
import proofs.«153131_j8177617732272_2_alg».proof.Proof.Gen.Pre_finite_inputs

set_option maxRecDepth 16384

noncomputable section

namespace Cert.Proof.Parts

open Idealize.ShloMosaic Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ => Cert.ReferenceIdeal.Hand.frame (F := Ideal) m ρ
theorem preserves : Cert.preserves_Kernel_KernelIdeal := trivial

set_option maxHeartbeats 2000000 in
theorem algebraic (h : Cert.KernelIdeal.Hand.AggOK) : Cert.algebraic_KernelIdeal_ReferenceIdeal := by
  intro m ρ m' ρ' _ hagree
  refine ⟨_, _, Cert.KernelIdeal.Hand.run_results m ρ h, ?_⟩
  refine (θ_run Cert.ReferenceIdeal.defs _ _).mono (fun r hr c => ?_) (Cert.ReferenceIdeal.Hand.run_results (F := Ideal) m' ρ')
  obtain ⟨h0, h1, h2, h3, h4, h5, h6, h7, h8, h9, h10, h11, h12, h13, h14, h15, h16, h17, h18⟩ := hagree c
  refine ⟨(hr c).1.trans ?_, (hr c).2.1.trans ?_, (hr c).2.2⟩
  · rw [h0, h1, h2, h3, h4, h5, h6, h7, h8, h9, h10, h11, h12, h13, h14, h15, h16, h17, h18]
  · rw [h0, h1, h3, h4, h5, h6, h7, h8, h9, h10, h11, h12, h13, h14, h15, h16, h17, h18]

end Cert.Proof.Parts

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.RefPool.lean ====
/- The reference's neighbour average at an index, on the extended reals: the adjacency's product with the features
   at (i, d) is the sum over j of adj (i, j) * h (j, d); the row sums are the product with a column of ones, and
   x * 1 = x, so the divisor at row i is the sum over j of adj (i, j). -/
import proofs.«153131_j8177617732272_2_alg».proof.Proof.RefStages
import proofs.«153131_j8177617732272_2_alg».proof.Proof.LibDense
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.ValueIdx

/-- The float word of 1.0 is the extended real 1. -/
theorem ofBits_one : Ideal.ofBits .f32 0x3F800000#32 = 1 := by
  simp [Ideal.ofBits, Ideal.ieee, -EReal.coe_mul]; norm_num

theorem dot_agg_plain : dot_S16384x16384_S16384x64_S16384x64_1_0_0_1_n_n = DotDims.plain 16384 16384 64 := rfl
theorem dot_deg_plain : dot_S16384x16384_S16384x1_S16384x1_1_0_0_1_n_n = DotDims.plain 16384 16384 1 := rfl

/-- The row sums: row i of the adjacency summed. -/
theorem deg_apply (adj : FVec Ideal S16384x16384 .f32) (i : Fin 16384) :
    deg (F := Ideal) adj (ix2 i 0) = ∑ k : Fin 16384, adj (ix2 i k) := by
  unfold deg
  rw [dot_deg_plain]
  refine (Cert.LibDense.dotGeneral_plain _ adj _ (ix2 i 0)).trans ?_
  unfold Cert.LibDense.prod
  refine Finset.sum_congr rfl fun k _ => ?_
  have h1 : broadcastInDim S16384x1 ![] bcast_S_S16384x1 (constant (F := Ideal) S_ .f32 0x3F800000#32) (ix2 k ((ix2 i (0 : Fin 1) : (⟨2, ![16384, 1]⟩ : Shape).Idx) 1)) = 1 :=
    ofBits_one
  rw [h1, mul_one]

/-- The neighbour average at an entry (p, q). -/
theorem pool_apply (adj : FVec Ideal S16384x16384 .f32) (h : FVec Ideal S16384x64 .f32) (p : Fin 16384) (q : Fin 64) :
    pool (F := Ideal) adj h (ix2 p q) = Ideal.div (Cert.LibDense.prod adj h (ix2 p q)) (∑ k : Fin 16384, adj (ix2 p k)) := by
  have e1 : Host.dotGeneral (F := Ideal) dot_S16384x16384_S16384x64_S16384x64_1_0_0_1_n_n none adj h (ix2 p q) = Cert.LibDense.prod adj h (ix2 p q) := by
    rw [dot_agg_plain]; exact Cert.LibDense.dotGeneral_plain _ adj h (ix2 p q)
  have e2 : broadcastInDim S16384x64 ![0, 1] bcast_S16384x1_S16384x64_0_1 (deg (F := Ideal) adj) (ix2 p q) = ∑ k : Fin 16384, adj (ix2 p k) := by
    rw [broadcastInDim_apply (s := S16384x1) (t := S16384x64) ![0, 1] bcast_S16384x1_S16384x64_0_1 (deg (F := Ideal) adj) (ix2 p q) (ix2 p (0 : Fin 1))
      (fun a => by
        match a with
        | ⟨0, _⟩ => exact (if_neg (show ¬ ((16384 : ℕ) = 1) by decide)).symm
        | ⟨1, _⟩ => exact (if_pos (show ((1 : ℕ) = 1) from rfl)).symm)]
    exact deg_apply adj p
  simp only [pool, Host.divf, Ideal.hostDivf_def]
  rw [e1, e2]

end Cert.ReferenceIdeal.Hand

end
-- ==== Proof.KIAgg.lean ====
/- Entry by entry, what a launch leaves in its output array is the reference's neighbour average of what it read: both are
   the sum over j of adj (i, j) * h (j, d) divided by the sum over j of adj (i, j); so the two arrays are equal. -/
import proofs.«153131_j8177617732272_2_alg».proof.Proof.KIResult
import proofs.«153131_j8177617732272_2_alg».proof.Proof.RefPool

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem aggOK_of
    (h0 : (∀ (V : (c : Dev nD) → (b : Ref sig .tc) → Buf (Elt Ideal) ((c : Thread nD τ).loc b)) (c : Dev nD) (p : Fin 16384) (q : Fin 64),
      (dat0 (F := Ideal) V c).arrAt 2 cfg0.N (ix2 p q)
        = Ideal.div (Cert.LibDense.prod (V c main_arg1) (V c main_v0) (ix2 p q)) (∑ k : Fin 16384, V c main_arg1 (ix2 p k))))
    (h1 : (∀ (V : (c : Dev nD) → (b : Ref sig .tc) → Buf (Elt Ideal) ((c : Thread nD τ).loc b)) (c : Dev nD) (p : Fin 16384) (q : Fin 64),
      (dat1 (F := Ideal) V c).arrAt 2 cfg1.N (ix2 p q)
        = Ideal.div (Cert.LibDense.prod (V c main_arg1) (V c main_v50) (ix2 p q)) (∑ k : Fin 16384, V c main_arg1 (ix2 p k)))) : AggOK :=
  ⟨fun V c => funext fun j => by
      obtain ⟨p, q, rfl⟩ : ∃ (p : Fin 16384) (q : Fin 64), j = ix2 p q := ⟨j 0, j 1, eq_ix2 j⟩
      exact (h0 V c p q).trans (Cert.ReferenceIdeal.Hand.pool_apply _ _ p q).symm,
   fun V c => funext fun j => by
      obtain ⟨p, q, rfl⟩ : ∃ (p : Fin 16384) (q : Fin 64), j = ix2 p q := ⟨j 0, j 1, eq_ix2 j⟩
      exact (h1 V c p q).trans (Cert.ReferenceIdeal.Hand.pool_apply _ _ p q).symm⟩

end Cert.KernelIdeal.Hand

end
-- ==== Proof.KVPiece0.lean ====
/- Launch 0: what each kind of reduction step leaves in the two accumulators and in the output block, as the
   body's arithmetic applied to what the step reads: the adjacency tile, the 1024 rows of the right-hand side that
   the step's rectangle selects, and the accumulators' contents before the step (zero at a first step). -/
import proofs.«153131_j8177617732272_2_alg».proof.Proof.KIDat0
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F]

/-- The zero offsets of a whole-buffer rectangle. -/
theorem hz2_0 : (![0, 0] : Fin 2 → Nat) = fun _ => 0 := funext fun a => by fin_cases a <;> rfl

/-- The 1024 rows of the right-hand side a step reads: rows from 1024 times the step's number, all 64 columns. -/
def rhsRows0 (i : grid0.Coords) (x1 : Vec F S16384x64 .bf16) : Vec F S1024x64 .bf16 :=
  View.ld x1 (Rect.unit (s := S16384x64) (k0_off1 i) S1024x64.size (k0_off1_inb i))

/-- A first step leaves in the running product sum the tile's product added to the zero block. -/
theorem sout0_A_0_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i) (x0 : Vec F S2048x1024 .f32) (x1 : Vec F S16384x64 .bf16) :
    sout0_A_0 c i arg2 harg2 arg3 harg3 arg4 harg4 arg5 harg5 arg6 harg6 hc0 hc1 x0 x1 = k0_pay3 x0 (rhsRows0 i x1) k0_pay1 := by
  have hz2 := hz2_0
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x64) hz2, View.readCov_unit_zero (S := S2048x64) _ hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

/-- A first step leaves in the running row sum the tile's row sums added to the zero column. -/
theorem sout0_A_1_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond0_0 i) (hc1 : ¬cond0_1 i) (x0 : Vec F S2048x1024 .f32) (x1 : Vec F S16384x64 .bf16) :
    sout0_A_1 c i arg2 harg2 arg3 harg3 arg4 harg4 arg5 harg5 arg6 harg6 hc0 hc1 x0 x1 = k0_pay4 x0 k0_pay2 := by
  have hz2 := hz2_0
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]

/-- A middle step adds the tile's product to what the running product sum held. -/
theorem sout0_B_0_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i) (x0 : Vec F S2048x1024 .f32) (x1 : Vec F S16384x64 .bf16) (xs0 : Vec F S2048x64 .f32) (xs1 : Vec F S2048x1 .f32) :
    sout0_B_0 c i arg2 harg2 arg3 harg3 arg4 harg4 arg5 harg5 arg6 harg6 hc0 hc1 x0 x1 xs0 xs1 = k0_pay3 x0 (rhsRows0 i x1) xs0 := by
  have hz2 := hz2_0
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

/-- A middle step adds the tile's row sums to what the running row sum held. -/
theorem sout0_B_1_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : ¬cond0_1 i) (x0 : Vec F S2048x1024 .f32) (x1 : Vec F S16384x64 .bf16) (xs0 : Vec F S2048x64 .f32) (xs1 : Vec F S2048x1 .f32) :
    sout0_B_1 c i arg2 harg2 arg3 harg3 arg4 harg4 arg5 harg5 arg6 harg6 hc0 hc1 x0 x1 xs0 xs1 = k0_pay4 x0 xs1 := by
  have hz2 := hz2_0
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]

/-- A last step does the same to the running product sum … -/
theorem sout0_C_0_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i) (x0 : Vec F S2048x1024 .f32) (x1 : Vec F S16384x64 .bf16) (xs0 : Vec F S2048x64 .f32) (xs1 : Vec F S2048x1 .f32) :
    sout0_C_0 c i arg2 harg2 arg3 harg3 arg4 harg4 arg5 harg5 arg6 harg6 hc0 hc1 x0 x1 xs0 xs1 = k0_pay3 x0 (rhsRows0 i x1) xs0 := by
  have hz2 := hz2_0
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

/-- … and to the running row sum … -/
theorem sout0_C_1_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i) (x0 : Vec F S2048x1024 .f32) (x1 : Vec F S16384x64 .bf16) (xs0 : Vec F S2048x64 .f32) (xs1 : Vec F S2048x1 .f32) :
    sout0_C_1 c i arg2 harg2 arg3 harg3 arg4 harg4 arg5 harg5 arg6 harg6 hc0 hc1 x0 x1 xs0 xs1 = k0_pay4 x0 xs1 := by
  have hz2 := hz2_0
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]

/-- … and stores into the output block the quotient of the two accumulators as it has just left them. -/
theorem out0_C_2_eq (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i) (x0 : Vec F S2048x1024 .f32) (x1 : Vec F S16384x64 .bf16) (xs0 : Vec F S2048x64 .f32) (xs1 : Vec F S2048x1 .f32) :
    out0_C_2 c i arg2 harg2 arg3 harg3 arg4 harg4 arg5 harg5 arg6 harg6 hc0 hc1 x0 x1 xs0 xs1 = k0_pay5 (k0_pay3 x0 (rhsRows0 i x1) xs0) (k0_pay4 x0 xs1) := by
  have hz2 := hz2_0
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz2, View.readCov_unit_zero (S := S2048x64) _ hz2, View.readCov_unit_zero (S := S2048x1) _ hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

end Cert.KernelIdeal.Hand

end
-- ==== Proof.KVBlk0.lean ====
/- Launch 0: where the blocks sit in their arrays. At point t (row tile t / 16, reduction step t % 16) the adjacency
   window's block is rows [2048 (t / 16), +2048), columns [1024 (t % 16), +1024) of the adjacency; the right-hand side's
   window is the whole array at every point, and the step's rectangle selects its rows [1024 (t % 16), +1024); the
   output window's block is rows [2048 (t / 16), +2048) of the output, all 64 columns. -/
import proofs.«153131_j8177617732272_2_alg».proof.Proof.KVPiece0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The printed index maps and the step's row offset, decided once over the grid's 128 points. -/
theorem grid_facts0 : ∀ t : Fin cfg0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = t.val / 16 ∧ win0_2.index t (1 : Fin 2) = 0
    ∧ k0_off1 (grid0.coords t) 0 = 1024 * (t.val % 16) ∧ k0_off1 (grid0.coords t) 1 = 0 :=
  (by decide +kernel : ∀ t : Fin grid0.N, _)

/-- The adjacency tile of point t at (r, k) is the adjacency at (2048 (t / 16) + r, 1024 (t % 16) + k). -/
theorem iblk0_0_apply (c : Dev nD) (t : Fin cfg0.N) (r : Fin 2048) (k : Fin 1024)
    (hr : 2048 * (t.val / 16) + r.val < 16384) (hk : 1024 * (t.val % 16) + k.val < 16384) :
    (iblk0 V c 0 t : Vec F S2048x1024 .f32) (ix2 r k)
      = (V c main_arg1 : S16384x16384.Idx → Elt F .f32) (ix2 ⟨2048 * (t.val / 16) + r.val, hr⟩ ⟨1024 * (t.val % 16) + k.val, hk⟩) := by
  obtain ⟨e0, e1, -⟩ := grid_facts0 t
  unfold iblk0
  rw [View.read_apply]
  show V c main_arg1 _ = V c main_arg1 _
  refine congrArg (V c main_arg1) (funext fun a => Fin.ext ?_)
  match a with
  | ⟨0, _⟩ => show win0_0.index t (0 : Fin 2) * 2048 + 1 * r.val = 2048 * (t.val / 16) + r.val; omega
  | ⟨1, _⟩ => show win0_0.index t (1 : Fin 2) * 1024 + 1 * k.val = 1024 * (t.val % 16) + k.val; omega

/-- The rows of the right-hand side the step at point t reads: at (k, d) the right-hand side at (1024 (t % 16) + k, d). -/
theorem rhsRows0_blk (c : Dev nD) (t : Fin cfg0.N) (k : Fin 1024) (d : Fin 64) (hk : 1024 * (t.val % 16) + k.val < 16384) :
    rhsRows0 (grid0.coords t) (iblk0 V c 1 t : Vec F S16384x64 .bf16) (ix2 k d)
      = (V c main_v0 : S16384x64.Idx → Elt F .bf16) (ix2 ⟨1024 * (t.val % 16) + k.val, hk⟩ d) := by
  obtain ⟨-, -, e2, e3, -, -, e6, e7⟩ := grid_facts0 t
  unfold rhsRows0 iblk0 View.ld
  rw [View.read_apply]
  show V c main_v0 _ = V c main_v0 _
  refine congrArg (V c main_v0) (funext fun a => Fin.ext ?_)
  match a with
  | ⟨0, _⟩ => show win0_1.index t (0 : Fin 2) * 16384 + 1 * (k0_off1 (grid0.coords t) 0 + 1 * k.val) = 1024 * (t.val % 16) + k.val; omega
  | ⟨1, _⟩ => show win0_1.index t (1 : Fin 2) * 64 + 1 * (k0_off1 (grid0.coords t) 1 + 1 * d.val) = d.val; omega

end Cert.KernelIdeal.Hand

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.LibKSplit.lean ====
/-
  The contraction axis of a matrix product cut into consecutive chunks.

  For `x : [n, K]` and `w : [K, d]` the entry (r, j) of the product is `∑ k, x (r, k) * w (k, j)`. The part of that sum
  over the columns `off ≤ k < off + K'` is the entry of the product of the corresponding column block of `x` with the
  row block of `w`. Cutting `[0, K)` into consecutive chunks cuts the sum into the chunks' parts; on the extended
  reals a finite sum is a sum in a commutative monoid, so the regrouping is free and needs no finiteness.
-/
import proofs.«153131_j8177617732272_2_alg».proof.Proof.LibDense

noncomputable section

namespace Cert.LibKSplit

open Idealize.ShloMosaic Idealize.ShloMosaic.ValueIdx

/-- The part of entry `i`'s row-by-column sum over the `K'` columns from `off`. -/
def part {n K d : ℕ} (x : (⟨2, ![n, K]⟩ : Shape).Idx → EReal) (w : (⟨2, ![K, d]⟩ : Shape).Idx → EReal)
    (off K' : ℕ) (h : off + K' ≤ K) (i : (⟨2, ![n, d]⟩ : Shape).Idx) : EReal :=
  ∑ k : Fin K', x (ix2 (i 0) ⟨off + k.val, by have := k.isLt; omega⟩) * w (ix2 ⟨off + k.val, by have := k.isLt; omega⟩ (i 1))

/-- The whole sum is the part over all `K` columns. -/
theorem prod_eq_part {n K d : ℕ} (x : (⟨2, ![n, K]⟩ : Shape).Idx → EReal) (w : (⟨2, ![K, d]⟩ : Shape).Idx → EReal)
    (i : (⟨2, ![n, d]⟩ : Shape).Idx) : Cert.LibDense.prod x w i = part x w 0 K (by omega) i := by
  unfold Cert.LibDense.prod part
  refine Finset.sum_congr rfl fun k _ => ?_
  have e : (⟨0 + k.val, by have := k.isLt; omega⟩ : Fin K) = k := Fin.ext (Nat.zero_add _)
  rw [e]

/-- A part over `a + b` columns is the part over the first `a` plus the part over the next `b`. -/
theorem part_split {n K d : ℕ} (x : (⟨2, ![n, K]⟩ : Shape).Idx → EReal) (w : (⟨2, ![K, d]⟩ : Shape).Idx → EReal)
    (off a b off' ab : ℕ) (hab : a + b = ab) (hoff : off + a = off') (h : off + ab ≤ K) (i : (⟨2, ![n, d]⟩ : Shape).Idx) :
    part x w off ab h i = part x w off a (by omega) i + part x w off' b (by omega) i := by
  subst hab hoff
  unfold part
  rw [Fin.sum_univ_add]
  refine congrArg₂ (· + ·) rfl (Finset.sum_congr rfl fun k _ => ?_)
  have e : (⟨off + (Fin.natAdd a k).val, by have := k.isLt; simp only [Fin.coe_natAdd]; omega⟩ : Fin K)
      = ⟨off + a + k.val, by have := k.isLt; omega⟩ := Fin.ext (by simp only [Fin.coe_natAdd]; omega)
  exact congrArg₂ (· * ·) (congrArg x (congrArg (ix2 (i 0)) e)) (congrArg w (congrArg (fun r => ix2 r (i 1)) e))

/-- Four consecutive chunks, starting at `0`, `o₁`, `o₂`, `o₃`: the whole sum is the chunks' parts added from the left. -/
theorem prod_chunks4 {n K d : ℕ} (x : (⟨2, ![n, K]⟩ : Shape).Idx → EReal) (w : (⟨2, ![K, d]⟩ : Shape).Idx → EReal)
    (o₁ o₂ o₃ b c e : ℕ) (h₂ : o₁ + b = o₂) (h₃ : o₂ + c = o₃) (h₄ : o₃ + e = K) (i : (⟨2, ![n, d]⟩ : Shape).Idx) :
    Cert.LibDense.prod x w i
      = ((part x w 0 o₁ (by omega) i + part x w o₁ b (by omega) i) + part x w o₂ c (by omega) i) + part x w o₃ e (by omega) i := by
  rw [prod_eq_part, part_split x w 0 o₃ e o₃ K h₄ (Nat.zero_add _) (by omega) i,
    part_split x w 0 o₂ c o₂ o₃ h₃ (Nat.zero_add _) (by omega) i,
    part_split x w 0 o₁ b o₁ o₂ h₂ (Nat.zero_add _) (by omega) i]

/-- An entry of the product reads one row of `x` and one column of `w`: operands that agree there give the same entry. -/
theorem prod_congr {n n' K d : ℕ} (x : (⟨2, ![n, K]⟩ : Shape).Idx → EReal) (x' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (hx : ∀ k : Fin K, x (ix2 (i 0) k) = x' (ix2 (i' 0) k)) (hw : ∀ k : Fin K, w (ix2 k (i 1)) = w' (ix2 k (i' 1))) :
    Cert.LibDense.prod x w i = Cert.LibDense.prod x' w' i' := by
  unfold Cert.LibDense.prod
  exact Finset.sum_congr rfl fun k _ => congrArg₂ (· * ·) (hx k) (hw k)

end Cert.LibKSplit

end
-- ==== Proof.KVStep.lean ====
/- One reduction step of the aggregation kernel, read at an index on the extended reals.

   With A the [2048, 1024] adjacency tile of the step, R the matching 1024 rows of the right-hand side, S the
   running product sum and D the running row sum, the step leaves
     S'(r, d) = S(r, d) + ∑ k < 1024, A(r, k) · R(k, d)      and      D'(r) = D(r) + ∑ k < 1024, A(r, k),
   the first step starting both from zero, and the last step stores S'(r, d) / D'(r). A change of float format is the
   identity on the extended reals, so the bf16 operands of the product are read as they are. -/
import proofs.«153131_j8177617732272_2_alg».proof.Proof.Gen.KernelIdeal.Skeleton
import proofs.«153131_j8177617732272_2_alg».proof.Proof.LibDense
import proofs.«153131_j8177617732272_2_alg».proof.Proof.LibAxisSum
import proofs.«153131_j8177617732272_2_alg».proof.Proof.LibSoftmaxRow
import proofs.«153131_j8177617732272_2_alg».proof.Proof.LibKSplit
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen

/-- The kernel's product record is the plain [2048, 1024] × [1024, 64] one. -/
theorem dot_eq_plain : dot_S2048x1024_S1024x64_S2048x64_1_0_0_1_n_n = DotDims.plain 2048 1024 64 := rfl

/-- A column of ones: a row's sum is its product with it. -/
def onesCol : (⟨2, ![16384, 1]⟩ : Shape).Idx → EReal := fun _ => 1

/-- A part of a row-by-column sum depends on its first column and its length only through their values. -/
theorem part_congr {n K d : ℕ} (x : (⟨2, ![n, K]⟩ : Shape).Idx → EReal) (w : (⟨2, ![K, d]⟩ : Shape).Idx → EReal)
    (off off' K' K'' : ℕ) (ho : off = off') (hK : K' = K'') (h : off + K' ≤ K) (h' : off' + K'' ≤ K)
    (i : (⟨2, ![n, d]⟩ : Shape).Idx) :
    Cert.LibKSplit.part x w off K' h i = Cert.LibKSplit.part x w off' K'' h' i := by
  subst ho hK; rfl

/-- The same, the row given by its number. -/
theorem part_congr2 {n K d : ℕ} (x : (⟨2, ![n, K]⟩ : Shape).Idx → EReal) (w : (⟨2, ![K, d]⟩ : Shape).Idx → EReal)
    (off off' K' K'' : ℕ) (ho : off = off') (hK : K' = K'') (h : off + K' ≤ K) (h' : off' + K'' ≤ K)
    (a a' : Fin n) (ha : a.val = a'.val) (b : Fin d) :
    Cert.LibKSplit.part x w off K' h (ix2 a b) = Cert.LibKSplit.part x w off' K'' h' (ix2 a' b) := by
  obtain rfl : a = a' := Fin.ext ha
  subst ho hK; rfl

/-- The part over all 16384 columns of a row's product with the column of ones is the row's sum. -/
theorem part_ones (x : (⟨2, ![16384, 16384]⟩ : Shape).Idx → EReal) (h : 0 + 16384 ≤ 16384) (p : Fin 16384) (u : Fin 1) :
    Cert.LibKSplit.part x onesCol 0 16384 h (ix2 p u) = ∑ k : Fin 16384, x (ix2 p k) := by
  unfold Cert.LibKSplit.part
  refine Finset.sum_congr rfl fun k _ => ?_
  have e : (⟨0 + k.val, by have := k.isLt; omega⟩ : Fin 16384) = k := Fin.ext (Nat.zero_add _)
  rw [e]
  exact mul_one _

/-! ## Launch 0 -/

/-- The zero block the first step stores into the running product sum. -/
theorem pay1_apply0 (j : S2048x64.Idx) : k0_pay1 (F := Ideal) j = 0 := by
  unfold k0_pay1
  refine (congrFun (shapeCast_self _ _) j).trans ?_
  exact Ideal.ofBits_zero_f32

/-- The zero column the first step stores into the running row sum. -/
theorem pay2_apply0 (j : S2048x1.Idx) : k0_pay2 (F := Ideal) j = 0 := by
  unfold k0_pay2
  refine (congrFun (shapeCast_self _ _) j).trans ?_
  exact Ideal.ofBits_zero_f32

/-- The running product sum after a step: what it held plus the tile's row times the rows' column. -/
theorem pay3_apply0 (x0 : Vec Ideal S2048x1024 .f32) (x8 : Vec Ideal S1024x64 .bf16) (acc : Vec Ideal S2048x64 .f32)
    (r : Fin 2048) (d : Fin 64) :
    k0_pay3 (F := Ideal) x0 x8 acc (ix2 r d) = acc (ix2 r d) + ∑ k : Fin 1024, x0 (ix2 r k) * x8 (ix2 k d) := by
  unfold k0_pay3
  refine (congrFun (shapeCast_self _ _) _).trans ?_
  refine (addf_apply _ _ _).trans ?_
  refine congrArg (acc (ix2 r d) + ·) ?_
  have e8 : shapeCast S1024x64 x8 shapeCasts_S1024x64_S1024x64 = x8 := shapeCast_self _ _
  refine (congrArg (fun w => matmul dot_S2048x1024_S1024x64_S2048x64_1_0_0_1_n_n none
    (truncf .bf16 x0 bitsLt_bf16_f32) w (constant (F := Ideal) S2048x64 .f32 0x00000000#32) (ix2 r d)) e8).trans ?_
  exact Cert.LibDense.matmul_plain (M := 2048) (K := 1024) (N := 64) (truncf .bf16 x0 bitsLt_bf16_f32) x8 (ix2 r d)

/-- The running row sum after a step: what it held plus the tile's row sum. -/
theorem pay4_apply0 (x0 : Vec Ideal S2048x1024 .f32) (dg : Vec Ideal S2048x1 .f32) (r : Fin 2048) (u : Fin 1) :
    k0_pay4 (F := Ideal) x0 dg (ix2 r u) = dg (ix2 r u) + ∑ k : Fin 1024, x0 (ix2 r k) := by
  unfold k0_pay4
  refine (congrFun (shapeCast_self _ _) _).trans ?_
  refine (addf_apply _ _ _).trans ?_
  refine congrArg (dg (ix2 r u) + ·) ?_
  refine (Cert.LibSoftmaxRow.shapeCast_a_a1_apply _ _ r u).trans ?_
  exact Cert.LibAxisSum.sum_last (n := 2048) (d := 1024) x0 0x00000000#32 reduces_S2048x1024_S2048 (.inl rfl) rfl r

/-- The block the last step stores: the running product sum over the running row sum of its row. -/
theorem pay5_apply0 (acc : Vec Ideal S2048x64 .f32) (dg : Vec Ideal S2048x1 .f32) (r : Fin 2048) (d : Fin 64) :
    k0_pay5 (F := Ideal) acc dg (ix2 r d) = Ideal.div (acc (ix2 r d)) (dg (ix2 r (0 : Fin 1))) := by
  unfold k0_pay5
  refine (divf_apply _ _ _).trans ?_
  exact congrArg (Ideal.div (acc (ix2 r d))) (Cert.LibSoftmaxRow.broadcastTo_a1_ab_apply dg _ r d)

/-! ## Launch 1 -/

/-- The zero block the first step stores into the running product sum. -/
theorem pay1_apply1 (j : S2048x64.Idx) : k1_pay1 (F := Ideal) j = 0 := by
  unfold k1_pay1
  refine (congrFun (shapeCast_self _ _) j).trans ?_
  exact Ideal.ofBits_zero_f32

/-- The zero column the first step stores into the running row sum. -/
theorem pay2_apply1 (j : S2048x1.Idx) : k1_pay2 (F := Ideal) j = 0 := by
  unfold k1_pay2
  refine (congrFun (shapeCast_self _ _) j).trans ?_
  exact Ideal.ofBits_zero_f32

/-- The running product sum after a step: what it held plus the tile's row times the rows' column. -/
theorem pay3_apply1 (x0 : Vec Ideal S2048x1024 .f32) (x8 : Vec Ideal S1024x64 .bf16) (acc : Vec Ideal S2048x64 .f32)
    (r : Fin 2048) (d : Fin 64) :
    k1_pay3 (F := Ideal) x0 x8 acc (ix2 r d) = acc (ix2 r d) + ∑ k : Fin 1024, x0 (ix2 r k) * x8 (ix2 k d) := by
  unfold k1_pay3
  refine (congrFun (shapeCast_self _ _) _).trans ?_
  refine (addf_apply _ _ _).trans ?_
  refine congrArg (acc (ix2 r d) + ·) ?_
  have e8 : shapeCast S1024x64 x8 shapeCasts_S1024x64_S1024x64 = x8 := shapeCast_self _ _
  refine (congrArg (fun w => matmul dot_S2048x1024_S1024x64_S2048x64_1_0_0_1_n_n none
    (truncf .bf16 x0 bitsLt_bf16_f32) w (constant (F := Ideal) S2048x64 .f32 0x00000000#32) (ix2 r d)) e8).trans ?_
  exact Cert.LibDense.matmul_plain (M := 2048) (K := 1024) (N := 64) (truncf .bf16 x0 bitsLt_bf16_f32) x8 (ix2 r d)

/-- The running row sum after a step: what it held plus the tile's row sum. -/
theorem pay4_apply1 (x0 : Vec Ideal S2048x1024 .f32) (dg : Vec Ideal S2048x1 .f32) (r : Fin 2048) (u : Fin 1) :
    k1_pay4 (F := Ideal) x0 dg (ix2 r u) = dg (ix2 r u) + ∑ k : Fin 1024, x0 (ix2 r k) := by
  unfold k1_pay4
  refine (congrFun (shapeCast_self _ _) _).trans ?_
  refine (addf_apply _ _ _).trans ?_
  refine congrArg (dg (ix2 r u) + ·) ?_
  refine (Cert.LibSoftmaxRow.shapeCast_a_a1_apply _ _ r u).trans ?_
  exact Cert.LibAxisSum.sum_last (n := 2048) (d := 1024) x0 0x00000000#32 reduces_S2048x1024_S2048 (.inl rfl) rfl r

/-- The block the last step stores: the running product sum over the running row sum of its row. -/
theorem pay5_apply1 (acc : Vec Ideal S2048x64 .f32) (dg : Vec Ideal S2048x1 .f32) (r : Fin 2048) (d : Fin 64) :
    k1_pay5 (F := Ideal) acc dg (ix2 r d) = Ideal.div (acc (ix2 r d)) (dg (ix2 r (0 : Fin 1))) := by
  unfold k1_pay5
  refine (divf_apply _ _ _).trans ?_
  exact congrArg (Ideal.div (acc (ix2 r d))) (Cert.LibSoftmaxRow.broadcastTo_a1_ab_apply dg _ r d)

end Cert.KernelIdeal.Hand

end
-- ==== Proof.KVAcc0.lean ====
/- Launch 0: the two accumulators after each point of the grid, at an index, on the extended reals.

   At point t = 16 q + s (row tile q, reduction step s) the running product sum holds, at (r, d), the part of the
   row-by-column sum of the adjacency's row 2048 q + r with the right-hand side's column d over the first
   1024 (s + 1) columns, and the running row sum holds the same part of that row's sum (written as the product with a
   column of ones, so that one splitting law serves both). A first step starts from zero, every other step adds the
   next 1024 columns' part to what the step before left; a sum on the extended reals is a sum in a commutative
   monoid, so consecutive parts add up to the part over their union with no finiteness needed. -/
import proofs.«153131_j8177617732272_2_alg».proof.Proof.KVBlk0
import proofs.«153131_j8177617732272_2_alg».proof.Proof.KVStep
import proofs.«153131_j8177617732272_2_alg».proof.Proof.LibKSplit

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LibKSplit (part)

variable (V : (c : Dev nD) → (b : Ref sig .tc) → Buf (Elt Ideal) ((c : Thread nD τ).loc b))

/-- One step's contribution to the running product sum: the part of the row-by-column sum over the step's 1024 columns. -/
theorem step3_0 (c : Dev nD) (t : Fin cfg0.N) (acc : Vec Ideal S2048x64 .f32) (r : Fin 2048) (d : Fin 64)
    (hr : 2048 * (t.val / 16) + r.val < 16384) (hoff : 1024 * (t.val % 16) + 1024 ≤ 16384) :
    k0_pay3 (F := Ideal) (iblk0 V c 0 t) (rhsRows0 (grid0.coords t) (iblk0 V c 1 t)) acc (ix2 r d)
      = acc (ix2 r d) + part (V c main_arg1) (V c main_v0) (1024 * (t.val % 16)) 1024 hoff (ix2 ⟨2048 * (t.val / 16) + r.val, hr⟩ d) := by
  refine (pay3_apply0 (iblk0 V c 0 t) (rhsRows0 (grid0.coords t) (iblk0 V c 1 t)) acc r d).trans ?_
  refine congrArg (acc (ix2 r d) + ·) ?_
  unfold Cert.LibKSplit.part
  refine Finset.sum_congr rfl fun k _ => ?_
  exact congrArg₂ (· * ·) (iblk0_0_apply V c t r k hr _) (rhsRows0_blk V c t k d _)

/-- One step's contribution to the running row sum: the part of the row's sum over the step's 1024 columns. -/
theorem step4_0 (c : Dev nD) (t : Fin cfg0.N) (dg : Vec Ideal S2048x1 .f32) (r : Fin 2048) (u : Fin 1)
    (hr : 2048 * (t.val / 16) + r.val < 16384) (hoff : 1024 * (t.val % 16) + 1024 ≤ 16384) :
    k0_pay4 (F := Ideal) (iblk0 V c 0 t) dg (ix2 r u)
      = dg (ix2 r u) + part (V c main_arg1) onesCol (1024 * (t.val % 16)) 1024 hoff (ix2 ⟨2048 * (t.val / 16) + r.val, hr⟩ u) := by
  refine (pay4_apply0 (iblk0 V c 0 t) dg r u).trans ?_
  refine congrArg (dg (ix2 r u) + ·) ?_
  unfold Cert.LibKSplit.part
  refine Finset.sum_congr rfl fun k _ => ?_
  refine (iblk0_0_apply V c t r k hr (by have := k.isLt; omega)).trans ?_
  exact (@mul_one EReal _ (V c main_arg1 (ix2 ⟨2048 * (t.val / 16) + r.val, hr⟩ ⟨1024 * (t.val % 16) + k.val, by have := k.isLt; omega⟩))).symm

/-- At a first step the running product sum is the part over the first 1024 columns. -/
theorem accA3_0 (c : Dev nD) (t : Fin cfg0.N) (h0 : t.val % 16 = 0) (r : Fin 2048) (d : Fin 64)
    (hr : 2048 * (t.val / 16) + r.val < 16384) (hK : 0 + 1024 * (t.val % 16 + 1) ≤ 16384) :
    (outsAt0 V c t.val t.isLt).2.1 (ix2 r d)
      = part (V c main_arg1) (V c main_v0) 0 (1024 * (t.val % 16 + 1)) hK (ix2 ⟨2048 * (t.val / 16) + r.val, hr⟩ d) := by
  rw [outsAt0_A V c t h0]
  unfold stepA0
  dsimp only
  refine (congrFun (sout0_A_0_eq (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t)) (ix2 r d)).trans ?_
  refine (step3_0 V c t (k0_pay1 (F := Ideal)) r d hr (by omega)).trans ?_
  rw [pay1_apply0, zero_add]
  exact part_congr _ _ _ _ _ _ (by omega) (by omega) _ _ _

/-- At a first step the running row sum is the part of the row's sum over the first 1024 columns. -/
theorem accA4_0 (c : Dev nD) (t : Fin cfg0.N) (h0 : t.val % 16 = 0) (r : Fin 2048) (u : Fin 1)
    (hr : 2048 * (t.val / 16) + r.val < 16384) (hK : 0 + 1024 * (t.val % 16 + 1) ≤ 16384) :
    (outsAt0 V c t.val t.isLt).2.2 (ix2 r u)
      = part (V c main_arg1) onesCol 0 (1024 * (t.val % 16 + 1)) hK (ix2 ⟨2048 * (t.val / 16) + r.val, hr⟩ u) := by
  rw [outsAt0_A V c t h0]
  unfold stepA0
  dsimp only
  refine (congrFun (sout0_A_1_eq (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t)) (ix2 r u)).trans ?_
  refine (step4_0 V c t (k0_pay2 (F := Ideal)) r u hr (by omega)).trans ?_
  rw [pay2_apply0, zero_add]
  exact part_congr _ _ _ _ _ _ (by omega) (by omega) _ _ _

/-- At any later step the running product sum is what the step before left plus the step's part. -/
theorem accS3_0 (c : Dev nD) (t : Fin cfg0.N) (h0 : ¬t.val % 16 = 0) (r : Fin 2048) (d : Fin 64)
    (hr : 2048 * (t.val / 16) + r.val < 16384) (hoff : 1024 * (t.val % 16) + 1024 ≤ 16384) :
    (outsAt0 V c t.val t.isLt).2.1 (ix2 r d)
      = (outsAt0 V c (t.val - 1) (Nat.lt_of_le_of_lt (Nat.sub_le _ _) t.isLt)).2.1 (ix2 r d)
        + part (V c main_arg1) (V c main_v0) (1024 * (t.val % 16)) 1024 hoff (ix2 ⟨2048 * (t.val / 16) + r.val, hr⟩ d) := by
  by_cases h1 : t.val % 16 = 15
  · rw [outsAt0_C V c t h0 h1]
    unfold stepC0
    dsimp only
    refine (congrFun (sout0_C_0_eq (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t) _ _) (ix2 r d)).trans ?_
    exact step3_0 V c t _ r d hr hoff
  · rw [outsAt0_B V c t h0 h1]
    unfold stepB0
    dsimp only
    refine (congrFun (sout0_B_0_eq (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t) _ _) (ix2 r d)).trans ?_
    exact step3_0 V c t _ r d hr hoff

/-- At any later step the running row sum is what the step before left plus the step's part. -/
theorem accS4_0 (c : Dev nD) (t : Fin cfg0.N) (h0 : ¬t.val % 16 = 0) (r : Fin 2048) (u : Fin 1)
    (hr : 2048 * (t.val / 16) + r.val < 16384) (hoff : 1024 * (t.val % 16) + 1024 ≤ 16384) :
    (outsAt0 V c t.val t.isLt).2.2 (ix2 r u)
      = (outsAt0 V c (t.val - 1) (Nat.lt_of_le_of_lt (Nat.sub_le _ _) t.isLt)).2.2 (ix2 r u)
        + part (V c main_arg1) onesCol (1024 * (t.val % 16)) 1024 hoff (ix2 ⟨2048 * (t.val / 16) + r.val, hr⟩ u) := by
  by_cases h1 : t.val % 16 = 15
  · rw [outsAt0_C V c t h0 h1]
    unfold stepC0
    dsimp only
    refine (congrFun (sout0_C_1_eq (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t) _ _) (ix2 r u)).trans ?_
    exact step4_0 V c t _ r u hr hoff
  · rw [outsAt0_B V c t h0 h1]
    unfold stepB0
    dsimp only
    refine (congrFun (sout0_B_1_eq (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t) _ _) (ix2 r u)).trans ?_
    exact step4_0 V c t _ r u hr hoff

/-! The same four facts with the point given by its number. -/

theorem accA3n_0 (c : Dev nD) (n : ℕ) (hn : n < cfg0.N) (h0 : n % 16 = 0) (r : Fin 2048) (d : Fin 64)
    (hr : 2048 * (n / 16) + r.val < 16384) (hK : 0 + 1024 * (n % 16 + 1) ≤ 16384) :
    (outsAt0 V c n hn).2.1 (ix2 r d)
      = part (V c main_arg1) (V c main_v0) 0 (1024 * (n % 16 + 1)) hK (ix2 ⟨2048 * (n / 16) + r.val, hr⟩ d) :=
  accA3_0 V c ⟨n, hn⟩ h0 r d hr hK

theorem accA4n_0 (c : Dev nD) (n : ℕ) (hn : n < cfg0.N) (h0 : n % 16 = 0) (r : Fin 2048) (u : Fin 1)
    (hr : 2048 * (n / 16) + r.val < 16384) (hK : 0 + 1024 * (n % 16 + 1) ≤ 16384) :
    (outsAt0 V c n hn).2.2 (ix2 r u)
      = part (V c main_arg1) onesCol 0 (1024 * (n % 16 + 1)) hK (ix2 ⟨2048 * (n / 16) + r.val, hr⟩ u) :=
  accA4_0 V c ⟨n, hn⟩ h0 r u hr hK

theorem accS3n_0 (c : Dev nD) (n : ℕ) (hn : n < cfg0.N) (h0 : ¬n % 16 = 0) (r : Fin 2048) (d : Fin 64)
    (hr : 2048 * (n / 16) + r.val < 16384) (hoff : 1024 * (n % 16) + 1024 ≤ 16384) :
    (outsAt0 V c n hn).2.1 (ix2 r d)
      = (outsAt0 V c (n - 1) (Nat.lt_of_le_of_lt (Nat.sub_le _ _) hn)).2.1 (ix2 r d)
        + part (V c main_arg1) (V c main_v0) (1024 * (n % 16)) 1024 hoff (ix2 ⟨2048 * (n / 16) + r.val, hr⟩ d) :=
  accS3_0 V c ⟨n, hn⟩ h0 r d hr hoff

theorem accS4n_0 (c : Dev nD) (n : ℕ) (hn : n < cfg0.N) (h0 : ¬n % 16 = 0) (r : Fin 2048) (u : Fin 1)
    (hr : 2048 * (n / 16) + r.val < 16384) (hoff : 1024 * (n % 16) + 1024 ≤ 16384) :
    (outsAt0 V c n hn).2.2 (ix2 r u)
      = (outsAt0 V c (n - 1) (Nat.lt_of_le_of_lt (Nat.sub_le _ _) hn)).2.2 (ix2 r u)
        + part (V c main_arg1) onesCol (1024 * (n % 16)) 1024 hoff (ix2 ⟨2048 * (n / 16) + r.val, hr⟩ u) :=
  accS4_0 V c ⟨n, hn⟩ h0 r u hr hoff

/-- THE ACCUMULATION. After point n = 16 q + s the running product sum holds at (r, d) the part of the row-by-column
    sum of the adjacency's row 2048 q + r and the right-hand side's column d over the first 1024 (s + 1) columns, and
    the running row sum the same part of that row's sum. By induction on the point: a first step starts afresh, any
    other adds the next 1024 columns to what the point before left. -/
theorem acc_inv0 (c : Dev nD) : ∀ (n : ℕ) (hn : n < cfg0.N) (r : Fin 2048) (hr : 2048 * (n / 16) + r.val < 16384)
      (hK : 0 + 1024 * (n % 16 + 1) ≤ 16384),
    (∀ d : Fin 64, (outsAt0 V c n hn).2.1 (ix2 r d)
        = part (V c main_arg1) (V c main_v0) 0 (1024 * (n % 16 + 1)) hK (ix2 ⟨2048 * (n / 16) + r.val, hr⟩ d))
    ∧ (∀ u : Fin 1, (outsAt0 V c n hn).2.2 (ix2 r u)
        = part (V c main_arg1) onesCol 0 (1024 * (n % 16 + 1)) hK (ix2 ⟨2048 * (n / 16) + r.val, hr⟩ u)) := by
  intro n
  induction n with
  | zero =>
    intro hn r hr hK
    exact ⟨fun d => accA3n_0 V c 0 hn rfl r d hr hK, fun u => accA4n_0 V c 0 hn rfl r u hr hK⟩
  | succ n ih =>
    intro hn r hr hK
    by_cases h0 : (n + 1) % 16 = 0
    · exact ⟨fun d => accA3n_0 V c (n + 1) hn h0 r d hr hK, fun u => accA4n_0 V c (n + 1) hn h0 r u hr hK⟩
    · have hq : n / 16 = (n + 1) / 16 := by omega
      have hs : n % 16 + 1 = (n + 1) % 16 := by omega
      obtain ⟨ih3, ih4⟩ := ih (Nat.lt_of_succ_lt hn) r (by omega) (by omega)
      refine ⟨fun d => ?_, fun u => ?_⟩
      · refine (accS3n_0 V c (n + 1) hn h0 r d hr (by omega)).trans ?_
        refine Eq.trans ?_ (Cert.LibKSplit.part_split (V c main_arg1) (V c main_v0) 0 (1024 * ((n + 1) % 16)) 1024
          (1024 * ((n + 1) % 16)) (1024 * ((n + 1) % 16 + 1)) (by omega) (by omega) hK _).symm
        refine congrArg₂ (· + ·) ?_ ?_
        · refine (ih3 d).trans ?_
          exact part_congr2 _ _ _ _ _ _ rfl (by omega) _ _ _ _ (by show 2048 * (n / 16) + r.val = 2048 * ((n + 1) / 16) + r.val; omega) d
        · exact part_congr2 _ _ _ _ _ _ (by omega) rfl _ _ _ _ rfl d
      · refine (accS4n_0 V c (n + 1) hn h0 r u hr (by omega)).trans ?_
        refine Eq.trans ?_ (Cert.LibKSplit.part_split (V c main_arg1) onesCol 0 (1024 * ((n + 1) % 16)) 1024
          (1024 * ((n + 1) % 16)) (1024 * ((n + 1) % 16 + 1)) (by omega) (by omega) hK _).symm
        refine congrArg₂ (· + ·) ?_ ?_
        · refine (ih4 u).trans ?_
          exact part_congr2 _ _ _ _ _ _ rfl (by omega) _ _ _ _ (by show 2048 * (n / 16) + r.val = 2048 * ((n + 1) / 16) + r.val; omega) u
        · exact part_congr2 _ _ _ _ _ _ (by omega) rfl _ _ _ _ rfl u

end Cert.KernelIdeal.Hand

end
-- ==== Proof.KVSpec.lean ====
/- The neighbour average, as one function of the adjacency A [16384, 16384] and the features H [16384, 64] on the
   extended reals: entry (p, q) is the row-by-column sum ∑ k, A(p, k) · H(k, q) divided by the row sum ∑ k, A(p, k). -/
import proofs.«153131_j8177617732272_2_alg».proof.Proof.LibDense
import Idealize.ShloMosaic.PureOps.Ideal
import Idealize.ShloMosaic.Lib.ValueIdx

noncomputable section

namespace Cert.KernelIdeal.Hand

open Idealize.ShloMosaic Idealize.ShloMosaic.ValueIdx

/-- The neighbour average at an index. -/
def aggG (A : (⟨2, ![16384, 16384]⟩ : Shape).Idx → EReal) (H : (⟨2, ![16384, 64]⟩ : Shape).Idx → EReal) :
    (⟨2, ![16384, 64]⟩ : Shape).Idx → EReal :=
  fun j => Ideal.div (Cert.LibDense.prod A H j) (∑ k : Fin 16384, A (ix2 (j 0) k))

/-- At (p, q). -/
theorem aggG_apply (A : (⟨2, ![16384, 16384]⟩ : Shape).Idx → EReal) (H : (⟨2, ![16384, 64]⟩ : Shape).Idx → EReal)
    (p : Fin 16384) (q : Fin 64) :
    aggG A H (ix2 p q) = Ideal.div (Cert.LibDense.prod A H (ix2 p q)) (∑ k : Fin 16384, A (ix2 p k)) := rfl

end Cert.KernelIdeal.Hand

end
-- ==== Proof.KVAgg0.lean ====
/- Launch 0: the output array after the launch, index by index, on the extended reals.

   The output's block of row tile q is written back once, at the tile's last reduction step (point 16 q + 15), where
   its buffer holds the running product sum over the running row sum, both complete: entry (r, d) of the block is the
   neighbour average at (2048 q + r, d). The eight blocks tile the [16384, 64] output, so the array ends holding the
   neighbour average everywhere. -/
import proofs.«153131_j8177617732272_2_alg».proof.Proof.KVAcc0
import proofs.«153131_j8177617732272_2_alg».proof.Proof.KVSpec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LibKSplit (part)

/-- The block a last step stores is the quotient of what that step leaves in the two accumulators. -/
theorem out0_C_2_eq' {F : FTy → Type} [FloatOps F] (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond0_0 i) (hc1 : cond0_1 i) (x0 : Vec F S2048x1024 .f32) (x1 : Vec F S16384x64 .bf16) (xs0 : Vec F S2048x64 .f32) (xs1 : Vec F S2048x1 .f32) :
    out0_C_2 c i arg2 harg2 arg3 harg3 arg4 harg4 arg5 harg5 arg6 harg6 hc0 hc1 x0 x1 xs0 xs1
      = k0_pay5 (sout0_C_0 c i arg2 harg2 arg3 harg3 arg4 harg4 arg5 harg5 arg6 harg6 hc0 hc1 x0 x1 xs0 xs1) (sout0_C_1 c i arg2 harg2 arg3 harg3 arg4 harg4 arg5 harg5 arg6 harg6 hc0 hc1 x0 x1 xs0 xs1) := by
  rw [out0_C_2_eq, sout0_C_0_eq, sout0_C_1_eq]

variable (V : (c : Dev nD) → (b : Ref sig .tc) → Buf (Elt Ideal) ((c : Thread nD τ).loc b))

/-- At a last step the output block's buffer holds, entry by entry, the running product sum over the running row sum. -/
theorem outC_0 (c : Dev nD) (t : Fin cfg0.N) (h0 : ¬t.val % 16 = 0) (h1 : t.val % 16 = 15) (r : Fin 2048) (d : Fin 64) :
    (outsAt0 V c t.val t.isLt).1 (ix2 r d)
      = Ideal.div ((outsAt0 V c t.val t.isLt).2.1 (ix2 r d)) ((outsAt0 V c t.val t.isLt).2.2 (ix2 r (0 : Fin 1))) := by
  rw [outsAt0_C V c t h0 h1]
  unfold stepC0
  dsimp only
  refine (congrFun (out0_C_2_eq' (F := Ideal) c (grid0.coords t) (ms0_0 t) (hs0_0 t) (ms0_1 t) (hs0_1 t) (ms0_2 t) (hs0_2 t) scM0_0 (Memref.isWhole_whole _) scM0_1 (Memref.isWhole_whole _) _ _ (iblk0 V c 0 t) (iblk0 V c 1 t) _ _) (ix2 r d)).trans ?_
  exact pay5_apply0 _ _ r d

/-- So at a last step it holds the neighbour average of the tile's rows. -/
theorem outC_val0 (c : Dev nD) (t : Fin cfg0.N) (h1 : t.val % 16 = 15) (r : Fin 2048) (d : Fin 64)
    (hr : 2048 * (t.val / 16) + r.val < 16384) :
    (outsAt0 V c t.val t.isLt).1 (ix2 r d)
      = aggG (V c main_arg1) (V c main_v0) (ix2 ⟨2048 * (t.val / 16) + r.val, hr⟩ d) := by
  have h0 : ¬t.val % 16 = 0 := by omega
  obtain ⟨i3, i4⟩ := acc_inv0 V c t.val t.isLt r hr (by omega)
  refine (outC_0 V c t h0 h1 r d).trans ?_
  rw [i3 d, i4 0, aggG_apply]
  refine congrArg₂ Ideal.div ?_ ?_
  · rw [Cert.LibKSplit.prod_eq_part]
    exact part_congr _ _ _ _ _ _ rfl (by omega) _ _ _
  · refine (part_congr _ _ _ _ _ _ rfl (by omega : 1024 * (t.val % 16 + 1) = 16384) _ (by omega) _).trans ?_
    exact part_ones _ _ _ 0

/-- Where the output's block of point t sits: entry (r, d) of the block is entry (2048 (t / 16) + r, d) of the array. -/
theorem oblk0_emb (t : Fin cfg0.N) (j : ((cfg0.win 2).xblock (grid0.coords t)).Idx) (hj0 : (j 0).val < 2048) (hj1 : (j 1).val < 64)
    (hr : 2048 * (t.val / 16) + (j 0).val < 16384) :
    ((cfg0.win 2).blk t).view.emb j = (ix2 ⟨2048 * (t.val / 16) + (j 0).val, hr⟩ ⟨(j 1).val, hj1⟩ : S16384x64.Idx) := by
  obtain ⟨-, -, -, -, e4, e5, -⟩ := grid_facts0 t
  refine funext fun a => Fin.ext ?_
  match a with
  | ⟨0, _⟩ => show win0_2.index t (0 : Fin 2) * 2048 + 1 * (j 0).val = 2048 * (t.val / 16) + (j 0).val; omega
  | ⟨1, _⟩ => show win0_2.index t (1 : Fin 2) * 64 + 1 * (j 1).val = (j 1).val; omega

/-- What a write-back writes is the neighbour average's block. The neighbour average is kept as one opaque function
    while the block's buffer and the block's place in the array are read, and opened only at the entry. -/
theorem flushed0_eq (c : Dev nD) (t : Fin cfg0.N) (hf : (cfg0.win 2).flush t = true) :
    (dat0 V c).flushed 2 t = ((cfg0.win 2).blk t).view.read (Elt Ideal) (aggG (V c main_arg1) (V c main_v0)) := by
  have h1 : t.val % 16 = 15 := (flush0_2 t).mp hf
  have hN : cfg0.N = 128 := N_0
  show (cfg0.win 2).cut (grid0.coords t) ((dat0 V c).after 2 t) = _
  rw [after0_2]
  refine funext fun j => ?_
  rw [View.read_apply]
  generalize hG : aggG (V c main_arg1) (V c main_v0) = G
  have hj0 : (j 0).val < 2048 := (j 0).isLt
  have hj1 : (j 1).val < 64 := (j 1).isLt
  have hr : 2048 * (t.val / 16) + (j 0).val < 16384 := by have := t.isLt; omega
  have ea : (cfg0.win 2).xinj (grid0.coords t) j = (ix2 ⟨(j 0).val, hj0⟩ ⟨(j 1).val, hj1⟩ : S2048x64.Idx) :=
    funext fun a => Fin.ext (by match a with | ⟨0, _⟩ => rfl | ⟨1, _⟩ => rfl)
  show (outsAt0 V c t.val t.isLt).1 ((cfg0.win 2).xinj (grid0.coords t) j) = G (((cfg0.win 2).blk t).view.emb j)
  rw [ea, oblk0_emb t j hj0 hj1 hr, ← hG]
  exact outC_val0 V c t h1 ⟨(j 0).val, hj0⟩ ⟨(j 1).val, hj1⟩ hr

/-- Every entry of the output lies in the block of its row tile's last step. -/
theorem ocover0 (i : S16384x64.Idx) :
    ∃ t : Fin cfg0.N, (cfg0.win 2).flush t = true ∧ i ∈ ((cfg0.win 2).blk t).view.set := by
  have hN : cfg0.N = 128 := N_0
  have hi0 : (i 0).val < 16384 := idx2_lt0 i
  have hi1 : (i 1).val < 64 := idx2_lt1 i
  obtain ⟨t, ht⟩ : ∃ t : Fin cfg0.N, t.val = 16 * ((i 0).val / 2048) + 15 := ⟨⟨16 * ((i 0).val / 2048) + 15, by rw [hN]; omega⟩, rfl⟩
  obtain ⟨-, -, -, -, e4, e5, -⟩ := grid_facts0 t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 64 ≤ (i 1).val ∧ (i 1).val < win0_2.index t (1 : Fin 2) * 64 + 64
    omega

/-- THE RESULT: after the launch the output array holds, at (p, q), the row-by-column sum of the adjacency's row p and
    the right-hand side's column q divided by the sum of the adjacency's row p. -/
theorem agg0_apply (c : Dev nD) (p : Fin 16384) (q : Fin 64) :
    (dat0 (F := Ideal) V c).arrAt 2 cfg0.N (ix2 p q)
      = Ideal.div (Cert.LibDense.prod (V c main_arg1) (V c main_v0) (ix2 p q)) (∑ k : Fin 16384, V c main_arg1 (ix2 p k)) :=
  (congrFun ((dat0 V c).arrAt_eq_of_cover 2 (aggG (V c main_arg1) (V c main_v0)) (fun t hf => flushed0_eq V c t hf) (ocover0)) (ix2 p q)).trans
    (aggG_apply _ _ p q)

end Cert.KernelIdeal.Hand

end
-- ==== Proof.KVPiece1.lean ====
/- Launch 1: what each kind of reduction step leaves in the two accumulators and in the output block, as the
   body's arithmetic applied to what the step reads: the adjacency tile, the 1024 rows of the right-hand side that
   the step's rectangle selects, and the accumulators' contents before the step (zero at a first step). -/
import proofs.«153131_j8177617732272_2_alg».proof.Proof.KIDat1
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F]

/-- The zero offsets of a whole-buffer rectangle. -/
theorem hz2_1 : (![0, 0] : Fin 2 → Nat) = fun _ => 0 := funext fun a => by fin_cases a <;> rfl

/-- The 1024 rows of the right-hand side a step reads: rows from 1024 times the step's number, all 64 columns. -/
def rhsRows1 (i : grid1.Coords) (x1 : Vec F S16384x64 .bf16) : Vec F S1024x64 .bf16 :=
  View.ld x1 (Rect.unit (s := S16384x64) (k1_off1 i) S1024x64.size (k1_off1_inb i))

/-- A first step leaves in the running product sum the tile's product added to the zero block. -/
theorem sout1_A_0_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i) (x0 : Vec F S2048x1024 .f32) (x1 : Vec F S16384x64 .bf16) :
    sout1_A_0 c i arg2 harg2 arg3 harg3 arg4 harg4 arg5 harg5 arg6 harg6 hc0 hc1 x0 x1 = k1_pay3 x0 (rhsRows1 i x1) k1_pay1 := by
  have hz2 := hz2_1
  unfold sout1_A_0
  rw [View.read_writes_eq_canon _ _ _ (scover1_A_0 c i arg2 harg2 arg3 harg3 arg4 harg4 arg5 harg5 arg6 harg6 hc0 hc1 x0 x1)]
  unfold kernelRun1_A
  dsimp only
  sl_unfold_words
  rw [View.canon_cons_unit_zero (S := S2048x64) hz2, View.readCov_unit_zero (S := S2048x64) _ hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

/-- A first step leaves in the running row sum the tile's row sums added to the zero column. -/
theorem sout1_A_1_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : cond1_0 i) (hc1 : ¬cond1_1 i) (x0 : Vec F S2048x1024 .f32) (x1 : Vec F S16384x64 .bf16) :
    sout1_A_1 c i arg2 harg2 arg3 harg3 arg4 harg4 arg5 harg5 arg6 harg6 hc0 hc1 x0 x1 = k1_pay4 x0 k1_pay2 := by
  have hz2 := hz2_1
  unfold sout1_A_1
  rw [View.read_writes_eq_canon _ _ _ (scover1_A_1 c i arg2 harg2 arg3 harg3 arg4 harg4 arg5 harg5 arg6 harg6 hc0 hc1 x0 x1)]
  unfold kernelRun1_A
  dsimp only
  sl_unfold_words
  rw [View.canon_cons_unit_zero (S := S2048x1) hz2, View.readCov_unit_zero (S := S2048x1) _ hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]

/-- A middle step adds the tile's product to what the running product sum held. -/
theorem sout1_B_0_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i) (x0 : Vec F S2048x1024 .f32) (x1 : Vec F S16384x64 .bf16) (xs0 : Vec F S2048x64 .f32) (xs1 : Vec F S2048x1 .f32) :
    sout1_B_0 c i arg2 harg2 arg3 harg3 arg4 harg4 arg5 harg5 arg6 harg6 hc0 hc1 x0 x1 xs0 xs1 = k1_pay3 x0 (rhsRows1 i x1) xs0 := by
  have hz2 := hz2_1
  unfold sout1_B_0
  rw [View.read_writes_eq_canon _ _ _ (scover1_B_0 c i arg2 harg2 arg3 harg3 arg4 harg4 arg5 harg5 arg6 harg6 hc0 hc1 x0 x1 xs0 xs1)]
  unfold kernelRun1_B
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

/-- A middle step adds the tile's row sums to what the running row sum held. -/
theorem sout1_B_1_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : ¬cond1_1 i) (x0 : Vec F S2048x1024 .f32) (x1 : Vec F S16384x64 .bf16) (xs0 : Vec F S2048x64 .f32) (xs1 : Vec F S2048x1 .f32) :
    sout1_B_1 c i arg2 harg2 arg3 harg3 arg4 harg4 arg5 harg5 arg6 harg6 hc0 hc1 x0 x1 xs0 xs1 = k1_pay4 x0 xs1 := by
  have hz2 := hz2_1
  unfold sout1_B_1
  rw [View.read_writes_eq_canon _ _ _ (scover1_B_1 c i arg2 harg2 arg3 harg3 arg4 harg4 arg5 harg5 arg6 harg6 hc0 hc1 x0 x1 xs0 xs1)]
  unfold kernelRun1_B
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]

/-- A last step does the same to the running product sum … -/
theorem sout1_C_0_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i) (x0 : Vec F S2048x1024 .f32) (x1 : Vec F S16384x64 .bf16) (xs0 : Vec F S2048x64 .f32) (xs1 : Vec F S2048x1 .f32) :
    sout1_C_0 c i arg2 harg2 arg3 harg3 arg4 harg4 arg5 harg5 arg6 harg6 hc0 hc1 x0 x1 xs0 xs1 = k1_pay3 x0 (rhsRows1 i x1) xs0 := by
  have hz2 := hz2_1
  unfold sout1_C_0
  rw [View.read_writes_eq_canon _ _ _ (scover1_C_0 c i arg2 harg2 arg3 harg3 arg4 harg4 arg5 harg5 arg6 harg6 hc0 hc1 x0 x1 xs0 xs1)]
  unfold kernelRun1_C
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

/-- … and to the running row sum … -/
theorem sout1_C_1_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i) (x0 : Vec F S2048x1024 .f32) (x1 : Vec F S16384x64 .bf16) (xs0 : Vec F S2048x64 .f32) (xs1 : Vec F S2048x1 .f32) :
    sout1_C_1 c i arg2 harg2 arg3 harg3 arg4 harg4 arg5 harg5 arg6 harg6 hc0 hc1 x0 x1 xs0 xs1 = k1_pay4 x0 xs1 := by
  have hz2 := hz2_1
  unfold sout1_C_1
  rw [View.read_writes_eq_canon _ _ _ (scover1_C_1 c i arg2 harg2 arg3 harg3 arg4 harg4 arg5 harg5 arg6 harg6 hc0 hc1 x0 x1 xs0 xs1)]
  unfold kernelRun1_C
  dsimp only
  sl_unfold_words
  rw [View.canon_unit_zero hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]

/-- … and stores into the output block the quotient of the two accumulators as it has just left them. -/
theorem out1_C_2_eq (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i) (x0 : Vec F S2048x1024 .f32) (x1 : Vec F S16384x64 .bf16) (xs0 : Vec F S2048x64 .f32) (xs1 : Vec F S2048x1 .f32) :
    out1_C_2 c i arg2 harg2 arg3 harg3 arg4 harg4 arg5 harg5 arg6 harg6 hc0 hc1 x0 x1 xs0 xs1 = k1_pay5 (k1_pay3 x0 (rhsRows1 i x1) xs0) (k1_pay4 x0 xs1) := by
  have hz2 := hz2_1
  unfold out1_C_2
  rw [View.read_writes_eq_canon _ _ _ (cover1_C_2 c i arg2 harg2 arg3 harg3 arg4 harg4 arg5 harg5 arg6 harg6 hc0 hc1 x0 x1 xs0 xs1)]
  unfold kernelRun1_C
  dsimp only
  sl_unfold_words
  rw [View.canon_unit_zero hz2, View.readCov_unit_zero (S := S2048x64) _ hz2, View.readCov_unit_zero (S := S2048x1) _ hz2]
  simp only [View.readAt_eq_ld, harg2.read_unread, harg3.read_unread, harg5.read_unread, harg6.read_unread, View.ld_unit_zero (S := S2048x1024) hz2, View.ld_unit_zero (S := S2048x64) hz2, View.ld_unit_zero (S := S2048x1) hz2]
  rfl

end Cert.KernelIdeal.Hand

end
-- ==== Proof.KVBlk1.lean ====
/- Launch 1: where the blocks sit in their arrays. At point t (row tile t / 16, reduction step t % 16) the adjacency
   window's block is rows [2048 (t / 16), +2048), columns [1024 (t % 16), +1024) of the adjacency; the right-hand side's
   window is the whole array at every point, and the step's rectangle selects its rows [1024 (t % 16), +1024); the
   output window's block is rows [2048 (t / 16), +2048) of the output, all 64 columns. -/
import proofs.«153131_j8177617732272_2_alg».proof.Proof.KVPiece1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The printed index maps and the step's row offset, decided once over the grid's 128 points. -/
theorem grid_facts1 : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ k1_off1 (grid1.coords t) 0 = 1024 * (t.val % 16) ∧ k1_off1 (grid1.coords t) 1 = 0 :=
  (by decide +kernel : ∀ t : Fin grid1.N, _)

/-- The adjacency tile of point t at (r, k) is the adjacency at (2048 (t / 16) + r, 1024 (t % 16) + k). -/
theorem iblk1_0_apply (c : Dev nD) (t : Fin cfg1.N) (r : Fin 2048) (k : Fin 1024)
    (hr : 2048 * (t.val / 16) + r.val < 16384) (hk : 1024 * (t.val % 16) + k.val < 16384) :
    (iblk1 V c 0 t : Vec F S2048x1024 .f32) (ix2 r k)
      = (V c main_arg1 : S16384x16384.Idx → Elt F .f32) (ix2 ⟨2048 * (t.val / 16) + r.val, hr⟩ ⟨1024 * (t.val % 16) + k.val, hk⟩) := by
  obtain ⟨e0, e1, -⟩ := grid_facts1 t
  unfold iblk1
  rw [View.read_apply]
  show V c main_arg1 _ = V c main_arg1 _
  refine congrArg (V c main_arg1) (funext fun a => Fin.ext ?_)
  match a with
  | ⟨0, _⟩ => show win1_0.index t (0 : Fin 2) * 2048 + 1 * r.val = 2048 * (t.val / 16) + r.val; omega
  | ⟨1, _⟩ => show win1_0.index t (1 : Fin 2) * 1024 + 1 * k.val = 1024 * (t.val % 16) + k.val; omega

/-- The rows of the right-hand side the step at point t reads: at (k, d) the right-hand side at (1024 (t % 16) + k, d). -/
theorem rhsRows1_blk (c : Dev nD) (t : Fin cfg1.N) (k : Fin 1024) (d : Fin 64) (hk : 1024 * (t.val % 16) + k.val < 16384) :
    rhsRows1 (grid1.coords t) (iblk1 V c 1 t : Vec F S16384x64 .bf16) (ix2 k d)
      = (V c main_v50 : S16384x64.Idx → Elt F .bf16) (ix2 ⟨1024 * (t.val % 16) + k.val, hk⟩ d) := by
  obtain ⟨-, -, e2, e3, -, -, e6, e7⟩ := grid_facts1 t
  unfold rhsRows1 iblk1 View.ld
  rw [View.read_apply]
  show V c main_v50 _ = V c main_v50 _
  refine congrArg (V c main_v50) (funext fun a => Fin.ext ?_)
  match a with
  | ⟨0, _⟩ => show win1_1.index t (0 : Fin 2) * 16384 + 1 * (k1_off1 (grid1.coords t) 0 + 1 * k.val) = 1024 * (t.val % 16) + k.val; omega
  | ⟨1, _⟩ => show win1_1.index t (1 : Fin 2) * 64 + 1 * (k1_off1 (grid1.coords t) 1 + 1 * d.val) = d.val; omega

end Cert.KernelIdeal.Hand

end
-- ==== Proof.KVAcc1.lean ====
/- Launch 1: the two accumulators after each point of the grid, at an index, on the extended reals.

   At point t = 16 q + s (row tile q, reduction step s) the running product sum holds, at (r, d), the part of the
   row-by-column sum of the adjacency's row 2048 q + r with the right-hand side's column d over the first
   1024 (s + 1) columns, and the running row sum holds the same part of that row's sum (written as the product with a
   column of ones, so that one splitting law serves both). A first step starts from zero, every other step adds the
   next 1024 columns' part to what the step before left; a sum on the extended reals is a sum in a commutative
   monoid, so consecutive parts add up to the part over their union with no finiteness needed. -/
import proofs.«153131_j8177617732272_2_alg».proof.Proof.KVBlk1
import proofs.«153131_j8177617732272_2_alg».proof.Proof.KVStep
import proofs.«153131_j8177617732272_2_alg».proof.Proof.LibKSplit

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LibKSplit (part)

variable (V : (c : Dev nD) → (b : Ref sig .tc) → Buf (Elt Ideal) ((c : Thread nD τ).loc b))

/-- One step's contribution to the running product sum: the part of the row-by-column sum over the step's 1024 columns. -/
theorem step3_1 (c : Dev nD) (t : Fin cfg1.N) (acc : Vec Ideal S2048x64 .f32) (r : Fin 2048) (d : Fin 64)
    (hr : 2048 * (t.val / 16) + r.val < 16384) (hoff : 1024 * (t.val % 16) + 1024 ≤ 16384) :
    k1_pay3 (F := Ideal) (iblk1 V c 0 t) (rhsRows1 (grid1.coords t) (iblk1 V c 1 t)) acc (ix2 r d)
      = acc (ix2 r d) + part (V c main_arg1) (V c main_v50) (1024 * (t.val % 16)) 1024 hoff (ix2 ⟨2048 * (t.val / 16) + r.val, hr⟩ d) := by
  refine (pay3_apply1 (iblk1 V c 0 t) (rhsRows1 (grid1.coords t) (iblk1 V c 1 t)) acc r d).trans ?_
  refine congrArg (acc (ix2 r d) + ·) ?_
  unfold Cert.LibKSplit.part
  refine Finset.sum_congr rfl fun k _ => ?_
  exact congrArg₂ (· * ·) (iblk1_0_apply V c t r k hr _) (rhsRows1_blk V c t k d _)

/-- One step's contribution to the running row sum: the part of the row's sum over the step's 1024 columns. -/
theorem step4_1 (c : Dev nD) (t : Fin cfg1.N) (dg : Vec Ideal S2048x1 .f32) (r : Fin 2048) (u : Fin 1)
    (hr : 2048 * (t.val / 16) + r.val < 16384) (hoff : 1024 * (t.val % 16) + 1024 ≤ 16384) :
    k1_pay4 (F := Ideal) (iblk1 V c 0 t) dg (ix2 r u)
      = dg (ix2 r u) + part (V c main_arg1) onesCol (1024 * (t.val % 16)) 1024 hoff (ix2 ⟨2048 * (t.val / 16) + r.val, hr⟩ u) := by
  refine (pay4_apply1 (iblk1 V c 0 t) dg r u).trans ?_
  refine congrArg (dg (ix2 r u) + ·) ?_
  unfold Cert.LibKSplit.part
  refine Finset.sum_congr rfl fun k _ => ?_
  refine (iblk1_0_apply V c t r k hr (by have := k.isLt; omega)).trans ?_
  exact (@mul_one EReal _ (V c main_arg1 (ix2 ⟨2048 * (t.val / 16) + r.val, hr⟩ ⟨1024 * (t.val % 16) + k.val, by have := k.isLt; omega⟩))).symm

/-- At a first step the running product sum is the part over the first 1024 columns. -/
theorem accA3_1 (c : Dev nD) (t : Fin cfg1.N) (h0 : t.val % 16 = 0) (r : Fin 2048) (d : Fin 64)
    (hr : 2048 * (t.val / 16) + r.val < 16384) (hK : 0 + 1024 * (t.val % 16 + 1) ≤ 16384) :
    (outsAt1 V c t.val t.isLt).2.1 (ix2 r d)
      = part (V c main_arg1) (V c main_v50) 0 (1024 * (t.val % 16 + 1)) hK (ix2 ⟨2048 * (t.val / 16) + r.val, hr⟩ d) := by
  rw [outsAt1_A V c t h0]
  unfold stepA1
  dsimp only
  refine (congrFun (sout1_A_0_eq (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t)) (ix2 r d)).trans ?_
  refine (step3_1 V c t (k1_pay1 (F := Ideal)) r d hr (by omega)).trans ?_
  rw [pay1_apply1, zero_add]
  exact part_congr _ _ _ _ _ _ (by omega) (by omega) _ _ _

/-- At a first step the running row sum is the part of the row's sum over the first 1024 columns. -/
theorem accA4_1 (c : Dev nD) (t : Fin cfg1.N) (h0 : t.val % 16 = 0) (r : Fin 2048) (u : Fin 1)
    (hr : 2048 * (t.val / 16) + r.val < 16384) (hK : 0 + 1024 * (t.val % 16 + 1) ≤ 16384) :
    (outsAt1 V c t.val t.isLt).2.2 (ix2 r u)
      = part (V c main_arg1) onesCol 0 (1024 * (t.val % 16 + 1)) hK (ix2 ⟨2048 * (t.val / 16) + r.val, hr⟩ u) := by
  rw [outsAt1_A V c t h0]
  unfold stepA1
  dsimp only
  refine (congrFun (sout1_A_1_eq (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t)) (ix2 r u)).trans ?_
  refine (step4_1 V c t (k1_pay2 (F := Ideal)) r u hr (by omega)).trans ?_
  rw [pay2_apply1, zero_add]
  exact part_congr _ _ _ _ _ _ (by omega) (by omega) _ _ _

/-- At any later step the running product sum is what the step before left plus the step's part. -/
theorem accS3_1 (c : Dev nD) (t : Fin cfg1.N) (h0 : ¬t.val % 16 = 0) (r : Fin 2048) (d : Fin 64)
    (hr : 2048 * (t.val / 16) + r.val < 16384) (hoff : 1024 * (t.val % 16) + 1024 ≤ 16384) :
    (outsAt1 V c t.val t.isLt).2.1 (ix2 r d)
      = (outsAt1 V c (t.val - 1) (Nat.lt_of_le_of_lt (Nat.sub_le _ _) t.isLt)).2.1 (ix2 r d)
        + part (V c main_arg1) (V c main_v50) (1024 * (t.val % 16)) 1024 hoff (ix2 ⟨2048 * (t.val / 16) + r.val, hr⟩ d) := by
  by_cases h1 : t.val % 16 = 15
  · rw [outsAt1_C V c t h0 h1]
    unfold stepC1
    dsimp only
    refine (congrFun (sout1_C_0_eq (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t) _ _) (ix2 r d)).trans ?_
    exact step3_1 V c t _ r d hr hoff
  · rw [outsAt1_B V c t h0 h1]
    unfold stepB1
    dsimp only
    refine (congrFun (sout1_B_0_eq (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t) _ _) (ix2 r d)).trans ?_
    exact step3_1 V c t _ r d hr hoff

/-- At any later step the running row sum is what the step before left plus the step's part. -/
theorem accS4_1 (c : Dev nD) (t : Fin cfg1.N) (h0 : ¬t.val % 16 = 0) (r : Fin 2048) (u : Fin 1)
    (hr : 2048 * (t.val / 16) + r.val < 16384) (hoff : 1024 * (t.val % 16) + 1024 ≤ 16384) :
    (outsAt1 V c t.val t.isLt).2.2 (ix2 r u)
      = (outsAt1 V c (t.val - 1) (Nat.lt_of_le_of_lt (Nat.sub_le _ _) t.isLt)).2.2 (ix2 r u)
        + part (V c main_arg1) onesCol (1024 * (t.val % 16)) 1024 hoff (ix2 ⟨2048 * (t.val / 16) + r.val, hr⟩ u) := by
  by_cases h1 : t.val % 16 = 15
  · rw [outsAt1_C V c t h0 h1]
    unfold stepC1
    dsimp only
    refine (congrFun (sout1_C_1_eq (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t) _ _) (ix2 r u)).trans ?_
    exact step4_1 V c t _ r u hr hoff
  · rw [outsAt1_B V c t h0 h1]
    unfold stepB1
    dsimp only
    refine (congrFun (sout1_B_1_eq (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t) _ _) (ix2 r u)).trans ?_
    exact step4_1 V c t _ r u hr hoff

/-! The same four facts with the point given by its number. -/

theorem accA3n_1 (c : Dev nD) (n : ℕ) (hn : n < cfg1.N) (h0 : n % 16 = 0) (r : Fin 2048) (d : Fin 64)
    (hr : 2048 * (n / 16) + r.val < 16384) (hK : 0 + 1024 * (n % 16 + 1) ≤ 16384) :
    (outsAt1 V c n hn).2.1 (ix2 r d)
      = part (V c main_arg1) (V c main_v50) 0 (1024 * (n % 16 + 1)) hK (ix2 ⟨2048 * (n / 16) + r.val, hr⟩ d) :=
  accA3_1 V c ⟨n, hn⟩ h0 r d hr hK

theorem accA4n_1 (c : Dev nD) (n : ℕ) (hn : n < cfg1.N) (h0 : n % 16 = 0) (r : Fin 2048) (u : Fin 1)
    (hr : 2048 * (n / 16) + r.val < 16384) (hK : 0 + 1024 * (n % 16 + 1) ≤ 16384) :
    (outsAt1 V c n hn).2.2 (ix2 r u)
      = part (V c main_arg1) onesCol 0 (1024 * (n % 16 + 1)) hK (ix2 ⟨2048 * (n / 16) + r.val, hr⟩ u) :=
  accA4_1 V c ⟨n, hn⟩ h0 r u hr hK

theorem accS3n_1 (c : Dev nD) (n : ℕ) (hn : n < cfg1.N) (h0 : ¬n % 16 = 0) (r : Fin 2048) (d : Fin 64)
    (hr : 2048 * (n / 16) + r.val < 16384) (hoff : 1024 * (n % 16) + 1024 ≤ 16384) :
    (outsAt1 V c n hn).2.1 (ix2 r d)
      = (outsAt1 V c (n - 1) (Nat.lt_of_le_of_lt (Nat.sub_le _ _) hn)).2.1 (ix2 r d)
        + part (V c main_arg1) (V c main_v50) (1024 * (n % 16)) 1024 hoff (ix2 ⟨2048 * (n / 16) + r.val, hr⟩ d) :=
  accS3_1 V c ⟨n, hn⟩ h0 r d hr hoff

theorem accS4n_1 (c : Dev nD) (n : ℕ) (hn : n < cfg1.N) (h0 : ¬n % 16 = 0) (r : Fin 2048) (u : Fin 1)
    (hr : 2048 * (n / 16) + r.val < 16384) (hoff : 1024 * (n % 16) + 1024 ≤ 16384) :
    (outsAt1 V c n hn).2.2 (ix2 r u)
      = (outsAt1 V c (n - 1) (Nat.lt_of_le_of_lt (Nat.sub_le _ _) hn)).2.2 (ix2 r u)
        + part (V c main_arg1) onesCol (1024 * (n % 16)) 1024 hoff (ix2 ⟨2048 * (n / 16) + r.val, hr⟩ u) :=
  accS4_1 V c ⟨n, hn⟩ h0 r u hr hoff

/-- THE ACCUMULATION. After point n = 16 q + s the running product sum holds at (r, d) the part of the row-by-column
    sum of the adjacency's row 2048 q + r and the right-hand side's column d over the first 1024 (s + 1) columns, and
    the running row sum the same part of that row's sum. By induction on the point: a first step starts afresh, any
    other adds the next 1024 columns to what the point before left. -/
theorem acc_inv1 (c : Dev nD) : ∀ (n : ℕ) (hn : n < cfg1.N) (r : Fin 2048) (hr : 2048 * (n / 16) + r.val < 16384)
      (hK : 0 + 1024 * (n % 16 + 1) ≤ 16384),
    (∀ d : Fin 64, (outsAt1 V c n hn).2.1 (ix2 r d)
        = part (V c main_arg1) (V c main_v50) 0 (1024 * (n % 16 + 1)) hK (ix2 ⟨2048 * (n / 16) + r.val, hr⟩ d))
    ∧ (∀ u : Fin 1, (outsAt1 V c n hn).2.2 (ix2 r u)
        = part (V c main_arg1) onesCol 0 (1024 * (n % 16 + 1)) hK (ix2 ⟨2048 * (n / 16) + r.val, hr⟩ u)) := by
  intro n
  induction n with
  | zero =>
    intro hn r hr hK
    exact ⟨fun d => accA3n_1 V c 0 hn rfl r d hr hK, fun u => accA4n_1 V c 0 hn rfl r u hr hK⟩
  | succ n ih =>
    intro hn r hr hK
    by_cases h0 : (n + 1) % 16 = 0
    · exact ⟨fun d => accA3n_1 V c (n + 1) hn h0 r d hr hK, fun u => accA4n_1 V c (n + 1) hn h0 r u hr hK⟩
    · have hq : n / 16 = (n + 1) / 16 := by omega
      have hs : n % 16 + 1 = (n + 1) % 16 := by omega
      obtain ⟨ih3, ih4⟩ := ih (Nat.lt_of_succ_lt hn) r (by omega) (by omega)
      refine ⟨fun d => ?_, fun u => ?_⟩
      · refine (accS3n_1 V c (n + 1) hn h0 r d hr (by omega)).trans ?_
        refine Eq.trans ?_ (Cert.LibKSplit.part_split (V c main_arg1) (V c main_v50) 0 (1024 * ((n + 1) % 16)) 1024
          (1024 * ((n + 1) % 16)) (1024 * ((n + 1) % 16 + 1)) (by omega) (by omega) hK _).symm
        refine congrArg₂ (· + ·) ?_ ?_
        · refine (ih3 d).trans ?_
          exact part_congr2 _ _ _ _ _ _ rfl (by omega) _ _ _ _ (by show 2048 * (n / 16) + r.val = 2048 * ((n + 1) / 16) + r.val; omega) d
        · exact part_congr2 _ _ _ _ _ _ (by omega) rfl _ _ _ _ rfl d
      · refine (accS4n_1 V c (n + 1) hn h0 r u hr (by omega)).trans ?_
        refine Eq.trans ?_ (Cert.LibKSplit.part_split (V c main_arg1) onesCol 0 (1024 * ((n + 1) % 16)) 1024
          (1024 * ((n + 1) % 16)) (1024 * ((n + 1) % 16 + 1)) (by omega) (by omega) hK _).symm
        refine congrArg₂ (· + ·) ?_ ?_
        · refine (ih4 u).trans ?_
          exact part_congr2 _ _ _ _ _ _ rfl (by omega) _ _ _ _ (by show 2048 * (n / 16) + r.val = 2048 * ((n + 1) / 16) + r.val; omega) u
        · exact part_congr2 _ _ _ _ _ _ (by omega) rfl _ _ _ _ rfl u

end Cert.KernelIdeal.Hand

end
-- ==== Proof.KVAgg1.lean ====
/- Launch 1: the output array after the launch, index by index, on the extended reals.

   The output's block of row tile q is written back once, at the tile's last reduction step (point 16 q + 15), where
   its buffer holds the running product sum over the running row sum, both complete: entry (r, d) of the block is the
   neighbour average at (2048 q + r, d). The eight blocks tile the [16384, 64] output, so the array ends holding the
   neighbour average everywhere. -/
import proofs.«153131_j8177617732272_2_alg».proof.Proof.KVAcc1
import proofs.«153131_j8177617732272_2_alg».proof.Proof.KVSpec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LibKSplit (part)

/-- The block a last step stores is the quotient of what that step leaves in the two accumulators. -/
theorem out1_C_2_eq' {F : FTy → Type} [FloatOps F] (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x1 .f32) (harg6 : arg6.IsWhole) (hc0 : ¬cond1_0 i) (hc1 : cond1_1 i) (x0 : Vec F S2048x1024 .f32) (x1 : Vec F S16384x64 .bf16) (xs0 : Vec F S2048x64 .f32) (xs1 : Vec F S2048x1 .f32) :
    out1_C_2 c i arg2 harg2 arg3 harg3 arg4 harg4 arg5 harg5 arg6 harg6 hc0 hc1 x0 x1 xs0 xs1
      = k1_pay5 (sout1_C_0 c i arg2 harg2 arg3 harg3 arg4 harg4 arg5 harg5 arg6 harg6 hc0 hc1 x0 x1 xs0 xs1) (sout1_C_1 c i arg2 harg2 arg3 harg3 arg4 harg4 arg5 harg5 arg6 harg6 hc0 hc1 x0 x1 xs0 xs1) := by
  rw [out1_C_2_eq, sout1_C_0_eq, sout1_C_1_eq]

variable (V : (c : Dev nD) → (b : Ref sig .tc) → Buf (Elt Ideal) ((c : Thread nD τ).loc b))

/-- At a last step the output block's buffer holds, entry by entry, the running product sum over the running row sum. -/
theorem outC_1 (c : Dev nD) (t : Fin cfg1.N) (h0 : ¬t.val % 16 = 0) (h1 : t.val % 16 = 15) (r : Fin 2048) (d : Fin 64) :
    (outsAt1 V c t.val t.isLt).1 (ix2 r d)
      = Ideal.div ((outsAt1 V c t.val t.isLt).2.1 (ix2 r d)) ((outsAt1 V c t.val t.isLt).2.2 (ix2 r (0 : Fin 1))) := by
  rw [outsAt1_C V c t h0 h1]
  unfold stepC1
  dsimp only
  refine (congrFun (out1_C_2_eq' (F := Ideal) c (grid1.coords t) (ms1_0 t) (hs1_0 t) (ms1_1 t) (hs1_1 t) (ms1_2 t) (hs1_2 t) scM1_0 (Memref.isWhole_whole _) scM1_1 (Memref.isWhole_whole _) _ _ (iblk1 V c 0 t) (iblk1 V c 1 t) _ _) (ix2 r d)).trans ?_
  exact pay5_apply1 _ _ r d

/-- So at a last step it holds the neighbour average of the tile's rows. -/
theorem outC_val1 (c : Dev nD) (t : Fin cfg1.N) (h1 : t.val % 16 = 15) (r : Fin 2048) (d : Fin 64)
    (hr : 2048 * (t.val / 16) + r.val < 16384) :
    (outsAt1 V c t.val t.isLt).1 (ix2 r d)
      = aggG (V c main_arg1) (V c main_v50) (ix2 ⟨2048 * (t.val / 16) + r.val, hr⟩ d) := by
  have h0 : ¬t.val % 16 = 0 := by omega
  obtain ⟨i3, i4⟩ := acc_inv1 V c t.val t.isLt r hr (by omega)
  refine (outC_1 V c t h0 h1 r d).trans ?_
  rw [i3 d, i4 0, aggG_apply]
  refine congrArg₂ Ideal.div ?_ ?_
  · rw [Cert.LibKSplit.prod_eq_part]
    exact part_congr _ _ _ _ _ _ rfl (by omega) _ _ _
  · refine (part_congr _ _ _ _ _ _ rfl (by omega : 1024 * (t.val % 16 + 1) = 16384) _ (by omega) _).trans ?_
    exact part_ones _ _ _ 0

/-- Where the output's block of point t sits: entry (r, d) of the block is entry (2048 (t / 16) + r, d) of the array. -/
theorem oblk1_emb (t : Fin cfg1.N) (j : ((cfg1.win 2).xblock (grid1.coords t)).Idx) (hj0 : (j 0).val < 2048) (hj1 : (j 1).val < 64)
    (hr : 2048 * (t.val / 16) + (j 0).val < 16384) :
    ((cfg1.win 2).blk t).view.emb j = (ix2 ⟨2048 * (t.val / 16) + (j 0).val, hr⟩ ⟨(j 1).val, hj1⟩ : S16384x64.Idx) := by
  obtain ⟨-, -, -, -, e4, e5, -⟩ := grid_facts1 t
  refine funext fun a => Fin.ext ?_
  match a with
  | ⟨0, _⟩ => show win1_2.index t (0 : Fin 2) * 2048 + 1 * (j 0).val = 2048 * (t.val / 16) + (j 0).val; omega
  | ⟨1, _⟩ => show win1_2.index t (1 : Fin 2) * 64 + 1 * (j 1).val = (j 1).val; omega

/-- What a write-back writes is the neighbour average's block. The neighbour average is kept as one opaque function
    while the block's buffer and the block's place in the array are read, and opened only at the entry. -/
theorem flushed1_eq (c : Dev nD) (t : Fin cfg1.N) (hf : (cfg1.win 2).flush t = true) :
    (dat1 V c).flushed 2 t = ((cfg1.win 2).blk t).view.read (Elt Ideal) (aggG (V c main_arg1) (V c main_v50)) := by
  have h1 : t.val % 16 = 15 := (flush1_2 t).mp hf
  have hN : cfg1.N = 128 := N_1
  show (cfg1.win 2).cut (grid1.coords t) ((dat1 V c).after 2 t) = _
  rw [after1_2]
  refine funext fun j => ?_
  rw [View.read_apply]
  generalize hG : aggG (V c main_arg1) (V c main_v50) = G
  have hj0 : (j 0).val < 2048 := (j 0).isLt
  have hj1 : (j 1).val < 64 := (j 1).isLt
  have hr : 2048 * (t.val / 16) + (j 0).val < 16384 := by have := t.isLt; omega
  have ea : (cfg1.win 2).xinj (grid1.coords t) j = (ix2 ⟨(j 0).val, hj0⟩ ⟨(j 1).val, hj1⟩ : S2048x64.Idx) :=
    funext fun a => Fin.ext (by match a with | ⟨0, _⟩ => rfl | ⟨1, _⟩ => rfl)
  show (outsAt1 V c t.val t.isLt).1 ((cfg1.win 2).xinj (grid1.coords t) j) = G (((cfg1.win 2).blk t).view.emb j)
  rw [ea, oblk1_emb t j hj0 hj1 hr, ← hG]
  exact outC_val1 V c t h1 ⟨(j 0).val, hj0⟩ ⟨(j 1).val, hj1⟩ hr

/-- Every entry of the output lies in the block of its row tile's last step. -/
theorem ocover1 (i : S16384x64.Idx) :
    ∃ t : Fin cfg1.N, (cfg1.win 2).flush t = true ∧ i ∈ ((cfg1.win 2).blk t).view.set := by
  have hN : cfg1.N = 128 := N_1
  have hi0 : (i 0).val < 16384 := idx2_lt0 i
  have hi1 : (i 1).val < 64 := idx2_lt1 i
  obtain ⟨t, ht⟩ : ∃ t : Fin cfg1.N, t.val = 16 * ((i 0).val / 2048) + 15 := ⟨⟨16 * ((i 0).val / 2048) + 15, by rw [hN]; omega⟩, rfl⟩
  obtain ⟨-, -, -, -, e4, e5, -⟩ := grid_facts1 t
  refine ⟨t, (flush1_2 t).mpr (by omega), ?_⟩
  show i ∈ ((View.whole main_v51).slice (win1_2.rect t)).set
  rw [View.set_slice_whole, Rect.mem_set_unit]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 64 ≤ (i 1).val ∧ (i 1).val < win1_2.index t (1 : Fin 2) * 64 + 64
    omega

/-- THE RESULT: after the launch the output array holds, at (p, q), the row-by-column sum of the adjacency's row p and
    the right-hand side's column q divided by the sum of the adjacency's row p. -/
theorem agg1_apply (c : Dev nD) (p : Fin 16384) (q : Fin 64) :
    (dat1 (F := Ideal) V c).arrAt 2 cfg1.N (ix2 p q)
      = Ideal.div (Cert.LibDense.prod (V c main_arg1) (V c main_v50) (ix2 p q)) (∑ k : Fin 16384, V c main_arg1 (ix2 p k)) :=
  (congrFun ((dat1 V c).arrAt_eq_of_cover 2 (aggG (V c main_arg1) (V c main_v50)) (fun t hf => flushed1_eq V c t hf) (ocover1)) (ix2 p q)).trans
    (aggG_apply _ _ p q)

end Cert.KernelIdeal.Hand

end
-- ==== Proof.lean ====
/- The certificate of the neighbour-average graph network: a kernel that streams the [16384, 16384] adjacency in
   [2048, 1024] tiles, accumulating adj · h and the adjacency's row sums over 16 reduction steps per row tile and
   storing their quotient, called once per layer, against the plain formulation (adj · h) / (adj · 1).
   On the extended reals the two agree entry by entry: a sum cut into consecutive chunks is the same sum (addition is
   commutative and associative, 0 is neutral), a change of float format is the identity, x * 1 = x, and both sides divide
   by the same row sum; the dense blocks, the normalisations and the readout around the launches are the same host
   operations in both programs. No finiteness of the inputs is used. Each program's frame is its run with the results
   dropped; the idealization rewrote nothing, so there is nothing to preserve. -/
import proofs.«153131_j8177617732272_2_alg».proof.Defs
import proofs.«153131_j8177617732272_2_alg».proof.Proof.Gen.Kernel
import proofs.«153131_j8177617732272_2_alg».proof.Proof.Gen.KernelIdeal
import proofs.«153131_j8177617732272_2_alg».proof.Proof.Gen.ReferenceIdeal
import proofs.«153131_j8177617732272_2_alg».proof.Proof.Gen.Pre_finite_inputs
import proofs.«153131_j8177617732272_2_alg».proof.Proof.KIClaims
import proofs.«153131_j8177617732272_2_alg».proof.Proof.KIAgg
import proofs.«153131_j8177617732272_2_alg».proof.Proof.KVAgg0
import proofs.«153131_j8177617732272_2_alg».proof.Proof.KVAgg1
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Parts.frame_p, Cert.Proof.Parts.frame_pi, Cert.Proof.Parts.frame_ri, Cert.Proof.Parts.preserves,
    Cert.Proof.Parts.algebraic (Cert.KernelIdeal.Hand.aggOK_of Cert.KernelIdeal.Hand.agg0_apply Cert.KernelIdeal.Hand.agg1_apply)⟩

end Cert.Proof

end
